-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x3FA00000#32 ((16777216 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) (main_arg2 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S512x256 : Shape := ⟨2, ![512, 256]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S512 : Shape := ⟨1, ![512]⟩
abbrev S_ : Shape := ⟨0, ![]⟩

abbrev nBuf : Space → Nat
  | .hbm => 22
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .i32⟩
  | .hbm, ⟨3, _⟩ => ⟨S8192x256, .bf16⟩
  | .hbm, ⟨4, _⟩ => ⟨S8192x1, .i32⟩
  | .hbm, ⟨5, _⟩ => ⟨S1x8192, .i32⟩
  | .hbm, ⟨6, _⟩ => ⟨S8192x1, .i32⟩
  | .hbm, ⟨7, _⟩ => ⟨S1x8192, .i32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S512x1, .i32⟩
  | .local _ .vmem, ⟨13, _⟩ => ⟨S512x1, .i32⟩
  | .local _ .vmem, ⟨14, _⟩ => ⟨S1x512, .i32⟩
  | .local _ .vmem, ⟨15, _⟩ => ⟨S1x512, .i32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_call0_v0 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v73 : BitVec 1 := Scalar.cmpi .eq arg1 c15_i32
  let v74 : BitVec 32 := Scalar.extui v73
  let c0_i32_36 : BitVec 32 := 0#32
  let v75 : BitVec 1 := Scalar.cmpi .ne v74 c0_i32_36
  v75

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  natLt_1_32 : 1 < 32
  reducesTo_S8192x1_S_d0_1 : S8192x1.ReducesTo [0, 1] S_
  h_S_ : 0 < S_.numel
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .bf16 = 32 ∨ (Rect.block (s := S8192x256) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .bf16 = 32 ∨ (Rect.block (s := S8192x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .i32 = 32 ∨ (Rect.block (s := S8192x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .i32 = 32 ∨ (Rect.block (s := S8192x1) S512x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x8192.size a
  hwx1_5 : ∀ i : grid1.Coords, EltTy.bits .i32 = 32 ∨ (Rect.block (s := S1x8192) S1x512.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .f32 = 32 ∨ (Rect.block (s := S8192x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S8192x1.size a
  hwx1_7 : ∀ i : grid1.Coords, EltTy.bits .f32 = 32 ∨ (Rect.block (s := S8192x1) S512x1.size (cc1_transform_7 i) (hinb1_7 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5_0) S512x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5_1) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .i32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .i32⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .i1⟩
  | .hbm, ⟨36, _⟩ => ⟨S8192x8192, .i1⟩
  | .hbm, ⟨37, _⟩ => ⟨S8192x8192, .i1⟩
  | .hbm, ⟨38, _⟩ => ⟨S8192x8192, .i1⟩
  | .hbm, ⟨39, _⟩ => ⟨S8192x8192, .i1⟩
  | .hbm, ⟨40, _⟩ => ⟨S8192x8192, .i1⟩
  | .hbm, ⟨41, _⟩ => ⟨S8192x8192, .i1⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .i1⟩
  | .hbm, ⟨59, _⟩ => ⟨S8192, .i1⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S8192, .f32⟩
  | .hbm, ⟨71, _⟩ => ⟨S8192, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_call2_v0 : Ref sig .tc := ⟨.hbm, 49, rfl⟩
abbrev main_call2_v1 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_cst_7 : Ref sig .tc := ⟨.hbm, 60, rfl⟩
abbrev main_call3_v0 : Ref sig .tc := ⟨.hbm, 61, rfl⟩
abbrev main_call3_v1 : Ref sig .tc := ⟨.hbm, 62, rfl⟩
abbrev main_v40 : Ref sig .tc := ⟨.hbm, 63, rfl⟩
abbrev main_cst_8 : Ref sig .tc := ⟨.hbm, 64, rfl⟩
abbrev main_call4_v0 : Ref sig .tc := ⟨.hbm, 65, rfl⟩
abbrev main_call4_v1 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_cst_10 : Ref sig .tc := ⟨.hbm, 74, rfl⟩
abbrev main_call5_v0 : Ref sig .tc := ⟨.hbm, 75, rfl⟩
abbrev main_call5_v1 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_c_12 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_14 : Ref sig .tc := ⟨.hbm, 86, rfl⟩
abbrev main_call6_v0 : Ref sig .tc := ⟨.hbm, 87, rfl⟩
abbrev main_v53 : Ref sig .tc := ⟨.hbm, 88, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Word.NormBody.lean ====
/- Row normalisation, the body: the first kernel of the program divides every row of a 1024 x 256
   block by the larger of its Euclidean norm and a small positive constant, and stores the quotient
   in the narrower float format. This module runs that body once, on arbitrary whole staging
   memrefs and for every float instance: it loads the whole input block, and its one store covers
   the whole output block with the normalised block. -/
import proofs.«134439_j29841432773048_1_alg».proof.Proof.Gen.Kernel.Launch
import proofs.«134439_j29841432773048_1_alg».proof.Proof.Gen.Kernel.Skeleton
import proofs.«134439_j29841432773048_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.NormRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any whole staging memrefs -/

/-- The offsets of the body's one load and one store are zero on both axes: the rectangle is the
    whole 1024 x 256 block. -/
theorem zero_offsets : (![0, 0] : Fin 2 → Nat) = fun _ => 0 := by
  funext a; match a with | ⟨0, _⟩ => rfl | ⟨1, _⟩ => rfl

set_option maxHeartbeats 1000000 in
/-- THE BODY'S TRIPLE. On whole staging memrefs, the input's at contents `x0` and the output's at
    anything, the body runs to its continuation with the input's memref still at `x0` and the
    output's at the normalised block `k0_pay1 x0`: the body loads the whole input block, computes,
    and its one store covers the whole output block, so nothing of the output's earlier contents
    survives (the load of the output before the store is dead). -/
theorem norm_body_run (c : Dev nD) (i : grid0.Coords)
    (arg1 : Memref sig .tc .vmem S1024x256 .f32) (harg1 : arg1.IsWhole)
    (arg2 : Memref sig .tc .vmem S1024x256 .bf16) (harg2 : arg2.IsWhole)
    (x0 : Vec F S1024x256 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap; · iexact H1
  ipureintro
  -- one store through the whole-block rectangle: what is read back is its payload, and the
  -- payload's argument, a load through the same rectangle, is the input's contents
  refine (View.read_writes_eq_canon _ _ _ ?_).trans ?_
  · intro y
    exact ⟨_, List.mem_singleton_self _, View.mem_set_unit_zero zero_offsets inb_S1024x256_S1024x256_0_0 y⟩
  · rw [View.canon_unit_zero zero_offsets, View.readAt_eq_ld, harg1.read_unread,
      View.ld_unit_zero (S := S1024x256) zero_offsets]

end Cert.Kernel.NormRegion

end
-- ==== Proof.Word.NormRegion.lean ====
/- Row normalisation, the region: what the first kernel's pipeline holds point by point, the
   body's obligation at every point, and the region's result read as ONE function of the array it
   was handed — row r of the result is row r mod 1024 of the normalisation of the block of rows
   that holds r, because the eight blocks of 1024 rows tile the 8192 rows and each output block is
   computed from the input's block at the same rows. Everything is stated for every float instance
   and over arbitrary contents `V` of the unscoped buffers at the region's entry. -/
import proofs.«134439_j29841432773048_1_alg».proof.Proof.Word.NormBody
import Idealize.ShloMosaic.Lib.ValueIdx

set_option maxRecDepth 16384

noncomputable section

namespace Cert.Kernel.NormRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2 idx2_lt0 idx2_lt1)

variable {F : FTy → Type} [FloatOps F]

local notation "𝕄" => MT nD τ sig Unit (Elt F) ℕ (UR sig nD τ) ℕ

/-! ## What the region holds, point by point -/

variable (V : (c : Dev nD) → (b : Ref sig .tc) → Buf (Elt F) ((c : Thread nD τ).loc b))

/-- Window `w`'s block at point `t`, read off its array as the region finds it (`V`). -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The region's proof data on core `c`: the arrays as the region finds them; after the body at
    point `t` the input's staging buffer still holds the input's block there and the output's holds
    that block normalised; the invariant is the scoped buffers no window stages and the generator
    register, which the body never touches; nothing is owed; full shares. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => k0_pay1 (blockAt V c 0 t)
  Φ _ := Pipeline.ΦA spec0 c
  q _ := fullShare
  owed _ := 0

/-- The proof data's arrays are the region-entry contents. -/
theorem A_eq (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blockAt V c 0 t := by dsimp only [dat0]
theorem after0_1 (c : Dev nD) (t : Fin cfg0.N) : (dat0 V c).after 1 t = k0_pay1 (blockAt V c 0 t) := by dsimp only [dat0]

/-- The input's current staging buffer holds the input's block at every point: the body leaves the
    block in place, the window is never idle and its blocks are never clipped. -/
theorem before0_0 (c : Dev nD) (t : Fin cfg0.N) (d) : (dat0 V c).before 0 t d = blockAt V c 0 t :=
  ((dat0 V c).before_in_eq_fetched 0 rfl (fun _ => rfl) (fun _ _ _ => rfl)
    (fun t => by rw [after0_0]; unfold Dat.blockOf blockAt; rw [A_eq]; try rfl) t d).trans
    (by unfold Dat.fetched Dat.blockOf blockAt; rw [A_eq]; try rfl)

/-! ## The body obligation -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the input's memref holds the input's block there, so the body's triple
    applies; the invariant and the tallies pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (norm_body_run c (grid0.coords t) _ _ _ _ (blockAt V c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem norm_body_obligation (c : Dev nD) :
    BodyObligation (dat0 V c) (defs₀ (F := F)) Variants.none () Set.univ := fun t => by
  rw [bigSep_W0, bigSep_W0]
  exact sound_body V c t

/-! ## The region's result as one function of the array it was handed -/

/-- Rows `1024 b` to `1024 b + 1023` of an 8192 x 256 array, as one 1024 x 256 block. -/
def rowBlock (a : S8192x256.Idx → Elt F .f32) (b : Fin 8) : Vec F S1024x256 .f32 :=
  fun y => a (ix2 (n0 := 8192) (n1 := 256) ⟨b.val * 1024 + (y 0).val, by have := idx2_lt0 y; have := b.isLt; omega⟩ (y 1))

/-- THE NORMALISED ARRAY: entry `(r, k)` is entry `(r mod 1024, k)` of the normalisation of the
    block of rows that holds row `r`, the block number `r / 1024`. -/
def normArr (a : S8192x256.Idx → Elt F .f32) : S8192x256.Idx → Elt F .bf16 := fun i =>
  k0_pay1 (rowBlock a ⟨(i 0).val / 1024, by have := idx2_lt0 i; omega⟩)
    (ix2 (n0 := 1024) (n1 := 256) ⟨(i 0).val % 1024, Nat.mod_lt _ (by decide)⟩ (i 1))

/-- The normalised array at row `1024 b + j₀`, column `j₁`, is the normalised block `b` at `(j₀, j₁)`:
    division and remainder by 1024 recover the block and the row inside it. -/
theorem normArr_at (a : S8192x256.Idx → Elt F .f32) (b : ℕ) (hb : b < 8) (j : S1024x256.Idx) (i : S8192x256.Idx)
    (h0 : (i 0).val = b * 1024 + (j 0).val) (h1 : (i 1).val = (j 1).val)
    (x : Vec F S1024x256 .f32) (hx : x = rowBlock a ⟨b, hb⟩) :
    normArr a i = k0_pay1 x j := by
  subst hx
  have hj0 := idx2_lt0 j
  have hq : (i 0).val / 1024 = b := by omega
  subst hq
  have hj : ix2 (n0 := 1024) (n1 := 256) ⟨(i 0).val % 1024, Nat.mod_lt _ (by decide)⟩ (i 1) = j := by
    funext d
    match d with
    | ⟨0, _⟩ => exact Fin.ext (by show (i 0).val % 1024 = (j 0).val; omega)
    | ⟨1, _⟩ => exact Fin.ext h1
  exact congrArg (k0_pay1 (rowBlock a ⟨(i 0).val / 1024, hb⟩)) hj

/-- The printed index maps over the eight points: both windows' block at point `t` is block `t` of
    rows, all columns. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- WHAT POINT `t` WRITES BACK is block `t` of the normalised array of the input as the region
    finds it: the output's block and the input's block sit at the same rows. -/
theorem flushed_eq (c : Dev nD) (t : Fin cfg0.N) :
    (dat0 V c).flushed 1 t = ((cfg0.win 1).blk t).view.read (Elt F) (normArr (V c main_arg0)) := by
  show (cfg0.win 1).cut (grid0.coords t) ((dat0 V c).after 1 t) = _
  rw [after0_1]
  obtain ⟨e00, e01, e10, e11⟩ := index_facts t
  have hN : t.val < 8 := lt_of_lt_of_eq t.isLt (show cfg0.N = 8 from N_0)
  funext j
  show k0_pay1 (blockAt V c 0 t) j = normArr (V c main_arg0) (((cfg0.win 1).blk t).view.emb j)
  refine (normArr_at (V c main_arg0) t.val hN j (((cfg0.win 1).blk t).view.emb j) ?_ ?_ (blockAt V c 0 t) ?_).symm
  · show win0_1.index t (0 : Fin 2) * 1024 + 1 * (j 0).val = t.val * 1024 + (j 0).val; omega
  · show win0_1.index t (1 : Fin 2) * 256 + 1 * (j 1).val = (j 1).val; omega
  · funext y
    show V c main_arg0 (((cfg0.win 0).blk t).view.emb y) = V c main_arg0 _
    refine congrArg (V c main_arg0) ?_
    funext a; apply Fin.ext
    match a with
    | ⟨0, _⟩ => show win0_0.index t (0 : Fin 2) * 1024 + 1 * (y 0).val = t.val * 1024 + (y 0).val; omega
    | ⟨1, _⟩ => show win0_0.index t (1 : Fin 2) * 256 + 1 * (y 1).val = (y 1).val; omega

/-- An index of the array is in point `t`'s block iff each coordinate is in the block's range on its axis. -/
theorem mem_blk (t : Fin cfg0.N) (i : S8192x256.Idx) :
    i ∈ ((cfg0.win 1).blk t).view.set ↔ ∀ a : Fin 2, win0_1.index t a * S1024x256.size a ≤ (i a).val
      ∧ (i a).val < win0_1.index t a * S1024x256.size a + S1024x256.size a := by
  show i ∈ ((View.whole main_v0).slice (win0_1.rect t)).set ↔ _
  rw [View.set_slice_whole, Rect.mem_set_unit]
  exact Iff.rfl

/-- The eight blocks of 1024 rows tile the 8192 rows: row `r` is in block `r / 1024`. -/
theorem covered (i : S8192x256.Idx) :
    ∃ t : Fin cfg0.N, (cfg0.win 1).flush t = true ∧ i ∈ ((cfg0.win 1).blk t).view.set := by
  have hi0 := idx2_lt0 i
  have hi1 := idx2_lt1 i
  let t : Fin cfg0.N := ⟨(i 0).val / 1024, lt_of_lt_of_eq (by omega) (show (8 : ℕ) = cfg0.N from N_0.symm)⟩
  obtain ⟨e00, e01, e10, e11⟩ := index_facts t
  have ht : t.val = (i 0).val / 1024 := rfl
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 256 ≤ (i 1).val ∧ (i 1).val < win0_1.index t (1 : Fin 2) * 256 + 256; omega

/-- THE REGION'S RESULT: after the last point the output's array is the normalised array of the
    input as the region found it, -/
theorem arr_out (c : Dev nD) : (dat0 V c).arrAt 1 cfg0.N = normArr (V c main_arg0) :=
  (dat0 V c).arrAt_eq_of_cover 1 (normArr (V c main_arg0)) (fun t _ => flushed_eq V c t) covered

/-- and the input's array is as the region found it: an input window is never written back. -/
theorem arr_in (c : Dev nD) : (dat0 V c).arrAt 0 cfg0.N = V c main_arg0 :=
  ((dat0 V c).arrAt_in 0 rfl _).trans (A_eq V c 0)

end Cert.Kernel.NormRegion

end
-- ==== Proof.Word.PairPre.lean ====
/-
  The pair kernel visits the 16 × 16 tiles (i, j) of the N × N similarity matrix, 512 rows by 512 columns each.
  Along a row of tiles it carries three columns of 512 numbers: the sum of exp(similarity · 1/T) over the
  positive pairs met so far, the same sum over the negative pairs, and 0/1 for "a positive pair was met".
  This file names one step of each of the three, as a function of the two feature tiles, the four label and
  speaker tiles and the column carried in, and the two conditions on the column coordinate j under which the
  kernel zeroes the columns (j = 0) and finishes the row (j = 15).
-/
import proofs.«134439_j29841432773048_1_alg».proof.Proof.Gen.Kernel.Launch
import proofs.«134439_j29841432773048_1_alg».proof.Proof.Gen.Kernel.Skeleton
import proofs.«134439_j29841432773048_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.PairRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is the first of its row: the column coordinate is 0. -/
abbrev firstCol (i : grid1.Coords) : Prop :=
  (Scalar.cmpi .ne (Scalar.extui (Scalar.cmpi .eq (BitVec.ofNat 32 (i 1).val) 0#32)) 0#32) = 1#1

/-- The tile is the last of its row: the column coordinate is 15. -/
abbrev lastCol (i : grid1.Coords) : Prop := k1_cond2 i = 1#1

/-- exp(similarity · 1/T) on the tile, from the row tile and the column tile of the unit-norm features. -/
abbrev expTile (fi fj : Vec F S512x256 .bf16) : FVec F S512x512 .f32 := k1_pay7 fi fj

/-- The positive pairs of the tile: same label, same speaker, not the diagonal. -/
abbrev posTile (i : grid1.Coords) (lr : Vec F S512x1 .i32) (lc : Vec F S1x512 .i32) (sr : Vec F S512x1 .i32) (sc : Vec F S1x512 .i32) :
    IVec S512x512 1 := k1_pay11 i lr lc sr sc

/-- One step of the positive sum: the column carried in plus the tile's row sums over the positive pairs. -/
def stepNum (i : grid1.Coords) (fi fj : Vec F S512x256 .bf16) (lr : Vec F S512x1 .i32) (lc : Vec F S1x512 .i32)
    (sr : Vec F S512x1 .i32) (sc : Vec F S1x512 .i32) (a : Vec F S512x1 .f32) : Vec F S512x1 .f32 :=
  k1_pay12 (expTile fi fj) (posTile i lr lc sr sc) a

/-- One step of the negative sum: same label, different speaker, not the diagonal. -/
def stepDen (i : grid1.Coords) (fi fj : Vec F S512x256 .bf16) (lr : Vec F S512x1 .i32) (lc : Vec F S1x512 .i32)
    (sr : Vec F S512x1 .i32) (sc : Vec F S1x512 .i32) (a : Vec F S512x1 .f32) : Vec F S512x1 .f32 :=
  k1_pay13 (expTile fi fj) (k1_pay8 lr lc) (k1_pay9 sr sc) (k1_pay10 i) a

/-- One step of "a positive pair was met": the maximum of the column carried in and the tile's 0/1 column. -/
def stepAny (i : grid1.Coords) (lr : Vec F S512x1 .i32) (lc : Vec F S1x512 .i32)
    (sr : Vec F S512x1 .i32) (sc : Vec F S1x512 .i32) (a : Vec F S512x1 .f32) : Vec F S512x1 .f32 :=
  k1_pay14 (posTile i lr lc sr sc) a

/-- The row's loss column from the three finished columns (positive sum, negative sum, met). -/
abbrev lossCol (num den met : Vec F S512x1 .f32) : Vec F S512x1 .f32 := k1_pay2 num den met
/-- The row's 0/1 validity column. -/
abbrev validCol (met : Vec F S512x1 .f32) : Vec F S512x1 .f32 := k1_pay3 met

/-- The offsets ![0, 0] are the zero offsets. -/
theorem zero_off2 : (![0, 0] : Fin 2 → Nat) = fun _ => 0 := by
  funext a; match a with | ⟨0, _⟩ => rfl | ⟨1, _⟩ => rfl

/-- A buffer read back after ONE store through its whole shape holds the stored value, whatever it held before. -/
theorem read_one_whole_store {Val : EltTy → Type} [∀ e, Nonempty (Val e)] {S : Shape} {e : EltTy} {sg : RefSig} {κ : Kind} {sp : Space}
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- After TWO stores through the whole shape the buffer holds the later one's value. -/
theorem read_two_whole_stores {Val : EltTy → Type} [∀ e, Nonempty (Val e)] {S : Shape} {e : EltTy} {sg : RefSig} {κ : Kind} {sp : Space}
    (v : View sg κ sp S e) (f : v.ty.Contents Val) {off off' : Fin S.rank → Nat} (hz : off = fun _ => 0)
    (inb : ∀ a, off a + S.size a ≤ S.size a) (inb' : ∀ a, off' a + S.size a ≤ S.size a) (w w' : S.Idx → Val e) :
    v.read Val (v.writes Val f [(⟨Rect.unit off S.size inb, w⟩ : View.Piece Val S e), ⟨Rect.unit off' S.size inb', w'⟩]) = w := by
  rw [View.read_writes_eq_canon v f _ (fun y => ⟨_, List.mem_cons_self, View.mem_set_unit_zero hz inb y⟩),
    View.canon_cons_unit_zero hz]

end Cert.Kernel.PairRegion

end
-- ==== Proof.Word.PairData.lean ====
/-
  The proof data of the pair kernel's pipeline. At grid point t = 16·i + j the kernel is at tile (i, j). Its six
  inputs are the row tile and the column tile of the unit-norm features and the row and column tiles of the labels
  and of the speaker ids; the three columns it carries along a row of tiles live in scratch buffers, so what they
  hold between two points is part of the invariant: after the body at point t they hold the sums over the column
  tiles 0 … j of row i; before the first tile of a row they may hold anything, because that tile zeroes them.
  The two outputs are written at the last tile of a row only, from the finished columns.
-/
import proofs.«134439_j29841432773048_1_alg».proof.Proof.Word.PairPre
import Idealize.ShloMosaic.Lib.Pipeline.Frame

set_option maxRecDepth 16384

noncomputable section

namespace Cert.Kernel.PairRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried columns: positive sum, negative sum, met. -/
abbrev Cols (F : FTy → Type) [FloatOps F] : Type := Vec F S512x1 .f32 × Vec F S512x1 .f32 × Vec F S512x1 .f32

/-- All three at their zero. -/
def zeroCols : Cols F := (k1_pay4, k1_pay5, k1_pay6)

/-- One step of all three at point `t`, on that point's tiles. -/
def stepCols (c : Dev nD) (t : Fin cfg1.N) (s : Cols F) : Cols F :=
  (stepNum (grid1.coords t) (tile V c 0 t) (tile V c 1 t) (tile V c 2 t) (tile V c 3 t) (tile V c 4 t) (tile V c 5 t) s.1,
   stepDen (grid1.coords t) (tile V c 0 t) (tile V c 1 t) (tile V c 2 t) (tile V c 3 t) (tile V c 4 t) (tile V c 5 t) s.2.1,
   stepAny (grid1.coords t) (tile V c 2 t) (tile V c 3 t) (tile V c 4 t) (tile V c 5 t) s.2.2)

/-- What the three columns hold after the body at position `n`: at the first tile of a row one step from zero,
    elsewhere one step from what the tile before left. -/
def carried (c : Dev nD) : (n : ℕ) → n < cfg1.N → Cols F
  | 0, hn => stepCols V c ⟨0, hn⟩ zeroCols
  | n + 1, hn =>
    if (n + 1) % 16 = 0 then stepCols V c ⟨n + 1, hn⟩ zeroCols
    else stepCols V c ⟨n + 1, hn⟩ (carried c n (Nat.lt_of_succ_lt hn))

theorem carried_first (c : Dev nD) (t : Fin cfg1.N) (h : t.val % 16 = 0) :
    carried V c t.val t.isLt = stepCols V c t zeroCols := by
  obtain ⟨n, hn⟩ := t
  cases n with
  | zero => rfl
  | succ n => exact (if_pos h).trans rfl

theorem carried_next (c : Dev nD) (t : Fin cfg1.N) (h : ¬ t.val % 16 = 0) :
    carried V c t.val t.isLt
      = stepCols V c t (carried V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch columns at given contents, -/
def scratchAt (c : Dev nD) (s : Cols F) : sProp 𝕄 :=
  iprop(owns (c : Thread nD τ) (Memref.whole cc1_scratch0 : Memref sig .tc .vmem S512x1 .f32) fullShare s.1
    ∗ owns (c : Thread nD τ) (Memref.whole cc1_scratch1 : Memref sig .tc .vmem S512x1 .f32) fullShare s.2.1
    ∗ owns (c : Thread nD τ) (Memref.whole cc1_scratch2 : Memref sig .tc .vmem S512x1 .f32) fullShare s.2.2)

/-- and at anything. -/
def scratchAny (c : Dev nD) : sProp 𝕄 :=
  iprop((∃ d, owns (c : Thread nD τ) (Memref.whole cc1_scratch0 : Memref sig .tc .vmem S512x1 .f32) fullShare d)
    ∗ (∃ d, owns (c : Thread nD τ) (Memref.whole cc1_scratch1 : Memref sig .tc .vmem S512x1 .f32) fullShare d)
    ∗ (∃ d, owns (c : Thread nD τ) (Memref.whole cc1_scratch2 : Memref sig .tc .vmem S512x1 .f32) fullShare d))

/-- The other scoped buffers this pipeline stages nothing in (the first kernel's staging buffers), at anything. -/
def idleRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

theorem pred_lt_of_le {n N : ℕ} (h : n ≤ N) (h0 : ¬ n % 16 = 0) : n - 1 < N := by
  have : n ≠ 0 := fun e => h0 (by rw [e])
  omega

/-- THE INVARIANT before point `t`: within a row of tiles the scratch columns hold what the tile before left;
    before a row's first tile (and after the last point) they hold anything. -/
def inv (c : Dev nD) (t : Fin (cfg1.N + 1)) : sProp 𝕄 :=
  iprop(idleRest (F := F) c ∗
    (if h : t.val % 16 = 0 then scratchAny (F := F) c
     else scratchAt c (carried V c (t.val - 1) (pred_lt_of_le (Nat.le_of_lt_succ t.isLt) h))))

/-- The proof data on core `c`: the arrays as the region finds them; after the body each input's buffer at its tile,
    the outputs' at the loss and validity of the carried columns; the invariant above; nothing owed; the unit-norm
    features, read through two windows, held half and half. -/
def dat1 (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => lossCol (carried V c t.val t.isLt).1 (carried V c t.val t.isLt).2.1 (carried V c t.val t.isLt).2.2
    | ⟨7, _⟩ => validCol (carried V c t.val t.isLt).2.2
  Φ t := inv V c t
  q w := match w with
    | ⟨0, _⟩ => fullShare.left
    | ⟨1, _⟩ => fullShare.right
    | _ => fullShare
  owed _ := 0

theorem A_eq (c : Dev nD) (w : Fin cfg1.W) : (dat1 V c).A w = V c (Pipeline.arrRef spec1 w) := by dsimp only [dat1]

theorem after_0 (c : Dev nD) (t : Fin cfg1.N) : (dat1 V c).after 0 t = tile V c 0 t := by dsimp only [dat1]
theorem after_1 (c : Dev nD) (t : Fin cfg1.N) : (dat1 V c).after 1 t = tile V c 1 t := by dsimp only [dat1]
theorem after_2 (c : Dev nD) (t : Fin cfg1.N) : (dat1 V c).after 2 t = tile V c 2 t := by dsimp only [dat1]
theorem after_3 (c : Dev nD) (t : Fin cfg1.N) : (dat1 V c).after 3 t = tile V c 3 t := by dsimp only [dat1]
theorem after_4 (c : Dev nD) (t : Fin cfg1.N) : (dat1 V c).after 4 t = tile V c 4 t := by dsimp only [dat1]
theorem after_5 (c : Dev nD) (t : Fin cfg1.N) : (dat1 V c).after 5 t = tile V c 5 t := by dsimp only [dat1]
theorem after_6 (c : Dev nD) (t : Fin cfg1.N) :
    (dat1 V c).after 6 t = lossCol (carried V c t.val t.isLt).1 (carried V c t.val t.isLt).2.1 (carried V c t.val t.isLt).2.2 := by dsimp only [dat1]
theorem after_7 (c : Dev nD) (t : Fin cfg1.N) : (dat1 V c).after 7 t = validCol (carried V c t.val t.isLt).2.2 := by dsimp only [dat1]

/-- Input window 0's current buffer holds its tile at every point, fetched there or not. -/
theorem before_0 (c : Dev nD) (t : Fin cfg1.N) (d) : (dat1 V c).before 0 t d = tile V c 0 t :=
  ((dat1 V c).before_in_eq_fetched 0 rfl (fun _ => rfl) (fun _ _ _ => rfl)
    (fun t => by rw [after_0]; unfold Dat.blockOf tile; rw [A_eq]; try rfl) t d).trans
    (by unfold Dat.fetched Dat.blockOf tile; rw [A_eq]; try rfl)
/-- Input window 1's current buffer holds its tile at every point, fetched there or not. -/
theorem before_1 (c : Dev nD) (t : Fin cfg1.N) (d) : (dat1 V c).before 1 t d = tile V c 1 t :=
  ((dat1 V c).before_in_eq_fetched 1 rfl (fun _ => rfl) (fun _ _ _ => rfl)
    (fun t => by rw [after_1]; unfold Dat.blockOf tile; rw [A_eq]; try rfl) t d).trans
    (by unfold Dat.fetched Dat.blockOf tile; rw [A_eq]; try rfl)
/-- Input window 2's current buffer holds its tile at every point, fetched there or not. -/
theorem before_2 (c : Dev nD) (t : Fin cfg1.N) (d) : (dat1 V c).before 2 t d = tile V c 2 t :=
  ((dat1 V c).before_in_eq_fetched 2 rfl (fun _ => rfl) (fun _ _ _ => rfl)
    (fun t => by rw [after_2]; unfold Dat.blockOf tile; rw [A_eq]; try rfl) t d).trans
    (by unfold Dat.fetched Dat.blockOf tile; rw [A_eq]; try rfl)
/-- Input window 3's current buffer holds its tile at every point, fetched there or not. -/
theorem before_3 (c : Dev nD) (t : Fin cfg1.N) (d) : (dat1 V c).before 3 t d = tile V c 3 t :=
  ((dat1 V c).before_in_eq_fetched 3 rfl (fun _ => rfl) (fun _ _ _ => rfl)
    (fun t => by rw [after_3]; unfold Dat.blockOf tile; rw [A_eq]; try rfl) t d).trans
    (by unfold Dat.fetched Dat.blockOf tile; rw [A_eq]; try rfl)
/-- Input window 4's current buffer holds its tile at every point, fetched there or not. -/
theorem before_4 (c : Dev nD) (t : Fin cfg1.N) (d) : (dat1 V c).before 4 t d = tile V c 4 t :=
  ((dat1 V c).before_in_eq_fetched 4 rfl (fun _ => rfl) (fun _ _ _ => rfl)
    (fun t => by rw [after_4]; unfold Dat.blockOf tile; rw [A_eq]; try rfl) t d).trans
    (by unfold Dat.fetched Dat.blockOf tile; rw [A_eq]; try rfl)
/-- Input window 5's current buffer holds its tile at every point, fetched there or not. -/
theorem before_5 (c : Dev nD) (t : Fin cfg1.N) (d) : (dat1 V c).before 5 t d = tile V c 5 t :=
  ((dat1 V c).before_in_eq_fetched 5 rfl (fun _ => rfl) (fun _ _ _ => rfl)
    (fun t => by rw [after_5]; unfold Dat.blockOf tile; rw [A_eq]; try rfl) t d).trans
    (by unfold Dat.fetched Dat.blockOf tile; rw [A_eq]; try rfl)

end Cert.Kernel.PairRegion

end
-- ==== Proof.Word.PairRunInner.lean ====
/-
  The pair kernel's body at a tile that is neither the first nor the last of its row: the three carried columns
  are each advanced by one step and nothing else is written.
-/
import proofs.«134439_j29841432773048_1_alg».proof.Proof.Word.PairPre

set_option maxRecDepth 16384

noncomputable section

namespace Cert.Kernel.PairRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging and scratch buffers, the six input tiles at `x2 … x7` and the carried columns at `s10 s11 s12`,
    the body at an inner tile of a row runs to the end, the inputs as they were and each carried column one step on. -/
theorem run_inner (c : Dev nD) (i : grid1.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S512x1 .i32) (h6 : a6.IsWhole) (a7 : Memref sig .tc .vmem S1x512 .i32) (h7 : a7.IsWhole)
    (a8 : Memref sig .tc .vmem S512x1 .f32) (h8 : a8.IsWhole) (a9 : Memref sig .tc .vmem S512x1 .f32) (h9 : a9.IsWhole)
    (a10 : Memref sig .tc .vmem S512x1 .f32) (h10 : a10.IsWhole) (a11 : Memref sig .tc .vmem S512x1 .f32) (h11 : a11.IsWhole)
    (a12 : Memref sig .tc .vmem S512x1 .f32) (h12 : a12.IsWhole)
    (hc1 : ¬ firstCol i) (hc2 : ¬ lastCol i)
    (x2 x3 : Vec F S512x256 .bf16) (x4 : Vec F S512x1 .i32) (x5 : Vec F S1x512 .i32) (x6 : Vec F S512x1 .i32) (x7 : Vec F S1x512 .i32)
    (s10 s11 s12 : Vec F S512x1 .f32) (E : Set ℕ) (K : PUnit → sProp 𝕄) :
    iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ owns (c : Thread nD τ) a10 fullShare s10 ∗ owns (c : Thread nD τ) a11 fullShare s11 ∗ owns (c : Thread nD τ) a12 fullShare s12
            ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
                ∗ owns (c : Thread nD τ) a10 fullShare (stepNum i x2 x3 x4 x5 x6 x7 s10)
                ∗ owns (c : Thread nD τ) a11 fullShare (stepDen i x2 x3 x4 x5 x6 x7 s11)
                ∗ owns (c : Thread nD τ) a12 fullShare (stepAny i x4 x5 x6 x7 s12)) -∗ K ⟨⟩))
      ⊢ wp frame (wpE (defs₀ (F := F)) Variants.none c none) E (cc1__ntxent_kernel i a2 h2 a3 h3 a4 h4 a5 h5 a6 h6 a7 h7 a8 h8 a9 h9 a10 h10 a11 h11 a12 h12) K := by
  simp only [cc1__ntxent_kernel_eq_skeleton, k1_part1_eq_skeleton, k1_part2_eq_skeleton]
  unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%f11, %hf11, H11⟩, ⟨%f12, %hf12, H12⟩, Hk⟩
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h10.eq_unread hf10
  obtain rfl := h11.eq_unread hf11
  obtain rfl := h12.eq_unread hf12
  sl_exec (disch := first | exact hc1 | exact hc2)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H10]
  · iexists _; isplitr; swap; · iexact H10
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H11]
  · iexists _; isplitr; swap; · iexact H11
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  · iexists _; isplitr; swap; · iexact H12
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)

end Cert.Kernel.PairRegion

end
-- ==== Proof.Word.PairRunFirst.lean ====
/-
  The pair kernel's body at the FIRST tile of a row: whatever the three carried columns held, they are set to
  zero and then advanced by one step.
-/
import proofs.«134439_j29841432773048_1_alg».proof.Proof.Word.PairPre

set_option maxRecDepth 16384

noncomputable section

namespace Cert.Kernel.PairRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging and scratch buffers, the six input tiles at `x2 … x7` and the carried columns at anything,
    the body at the first tile of a row runs to the end, the inputs as they were and each carried column at one
    step from its zero. -/
theorem run_first (c : Dev nD) (i : grid1.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S512x1 .i32) (h6 : a6.IsWhole) (a7 : Memref sig .tc .vmem S1x512 .i32) (h7 : a7.IsWhole)
    (a8 : Memref sig .tc .vmem S512x1 .f32) (h8 : a8.IsWhole) (a9 : Memref sig .tc .vmem S512x1 .f32) (h9 : a9.IsWhole)
    (a10 : Memref sig .tc .vmem S512x1 .f32) (h10 : a10.IsWhole) (a11 : Memref sig .tc .vmem S512x1 .f32) (h11 : a11.IsWhole)
    (a12 : Memref sig .tc .vmem S512x1 .f32) (h12 : a12.IsWhole)
    (hc1 : firstCol i) (hc2 : ¬ lastCol i)
    (x2 x3 : Vec F S512x256 .bf16) (x4 : Vec F S512x1 .i32) (x5 : Vec F S1x512 .i32) (x6 : Vec F S512x1 .i32) (x7 : Vec F S1x512 .i32) (E : Set ℕ) (K : PUnit → sProp 𝕄) :
    iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ (∃ d, owns (c : Thread nD τ) a10 fullShare d) ∗ (∃ d, owns (c : Thread nD τ) a11 fullShare d) ∗ (∃ d, owns (c : Thread nD τ) a12 fullShare d)
            ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
                ∗ owns (c : Thread nD τ) a10 fullShare (stepNum i x2 x3 x4 x5 x6 x7 k1_pay4)
                ∗ owns (c : Thread nD τ) a11 fullShare (stepDen i x2 x3 x4 x5 x6 x7 k1_pay5)
                ∗ owns (c : Thread nD τ) a12 fullShare (stepAny i x4 x5 x6 x7 k1_pay6)) -∗ K ⟨⟩))
      ⊢ wp frame (wpE (defs₀ (F := F)) Variants.none c none) E (cc1__ntxent_kernel i a2 h2 a3 h3 a4 h4 a5 h5 a6 h6 a7 h7 a8 h8 a9 h9 a10 h10 a11 h11 a12 h12) K := by
  simp only [cc1__ntxent_kernel_eq_skeleton, k1_part1_eq_skeleton, k1_part2_eq_skeleton]
  unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%d12, %f12, -, H12⟩, Hk⟩
  obtain rfl := h2.eq_unread hf2
  obtain rfl := h3.eq_unread hf3
  obtain rfl := h4.eq_unread hf4
  obtain rfl := h5.eq_unread hf5
  obtain rfl := h6.eq_unread hf6
  obtain rfl := h7.eq_unread hf7
  sl_exec (disch := first | exact hc1 | exact hc2)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H10]
  · iexists _; isplitr; swap; · iexact H10
    ipureintro
    refine (read_two_whole_stores _ _ zero_off2 _ _ _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H11]
  · iexists _; isplitr; swap; · iexact H11
    ipureintro
    refine (read_two_whole_stores _ _ zero_off2 _ _ _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  · iexists _; isplitr; swap; · iexact H12
    ipureintro
    refine (read_two_whole_stores _ _ zero_off2 _ _ _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)

end Cert.Kernel.PairRegion

end
-- ==== Proof.Word.PairRunLast.lean ====
/-
  The pair kernel's body at the LAST tile of a row: the three carried columns are advanced by one step, and from
  the finished columns the row's loss column and its 0/1 validity column are written to the two output tiles.
-/
import proofs.«134439_j29841432773048_1_alg».proof.Proof.Word.PairPre

set_option maxRecDepth 16384

noncomputable section

namespace Cert.Kernel.PairRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging and scratch buffers, the six input tiles at `x2 … x7`, the carried columns at `s10 s11 s12`
    and the two output tiles at anything, the body at the last tile of a row runs to the end: the inputs as they
    were, each carried column one step on, and the outputs at the loss and validity of the finished columns. -/
theorem run_last (c : Dev nD) (i : grid1.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S512x1 .i32) (h6 : a6.IsWhole) (a7 : Memref sig .tc .vmem S1x512 .i32) (h7 : a7.IsWhole)
    (a8 : Memref sig .tc .vmem S512x1 .f32) (h8 : a8.IsWhole) (a9 : Memref sig .tc .vmem S512x1 .f32) (h9 : a9.IsWhole)
    (a10 : Memref sig .tc .vmem S512x1 .f32) (h10 : a10.IsWhole) (a11 : Memref sig .tc .vmem S512x1 .f32) (h11 : a11.IsWhole)
    (a12 : Memref sig .tc .vmem S512x1 .f32) (h12 : a12.IsWhole)
    (hc1 : ¬ firstCol i) (hc2 : lastCol i)
    (x2 x3 : Vec F S512x256 .bf16) (x4 : Vec F S512x1 .i32) (x5 : Vec F S1x512 .i32) (x6 : Vec F S512x1 .i32) (x7 : Vec F S1x512 .i32)
    (s10 s11 s12 : Vec F S512x1 .f32) (E : Set ℕ) (K : PUnit → sProp 𝕄) :
    iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ (∃ d, owns (c : Thread nD τ) a8 fullShare d) ∗ (∃ d, owns (c : Thread nD τ) a9 fullShare d)
            ∗ owns (c : Thread nD τ) a10 fullShare s10 ∗ owns (c : Thread nD τ) a11 fullShare s11 ∗ owns (c : Thread nD τ) a12 fullShare s12
            ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
                ∗ owns (c : Thread nD τ) a8 fullShare (lossCol (stepNum i x2 x3 x4 x5 x6 x7 s10) (stepDen i x2 x3 x4 x5 x6 x7 s11) (stepAny i x4 x5 x6 x7 s12))
                ∗ owns (c : Thread nD τ) a9 fullShare (validCol (stepAny i x4 x5 x6 x7 s12))
                ∗ owns (c : Thread nD τ) a10 fullShare (stepNum i x2 x3 x4 x5 x6 x7 s10)
                ∗ owns (c : Thread nD τ) a11 fullShare (stepDen i x2 x3 x4 x5 x6 x7 s11)
                ∗ owns (c : Thread nD τ) a12 fullShare (stepAny i x4 x5 x6 x7 s12)) -∗ K ⟨⟩))
      ⊢ wp frame (wpE (defs₀ (F := F)) Variants.none c none) E (cc1__ntxent_kernel i a2 h2 a3 h3 a4 h4 a5 h5 a6 h6 a7 h7 a8 h8 a9 h9 a10 h10 a11 h11 a12 h12) K := by
  simp only [cc1__ntxent_kernel_eq_skeleton, k1_part1_eq_skeleton, k1_part2_eq_skeleton]
  unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h10.eq_unread hf10
  obtain rfl := h11.eq_unread hf11
  obtain rfl := h12.eq_unread hf12
  sl_exec (disch := first | exact hc1 | exact hc2)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]
  · iexists _; isplitr; swap; · iexact H8
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H9]
  · iexists _; isplitr; swap; · iexact H9
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H10]
  · iexists _; isplitr; swap; · iexact H10
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H11]
  · iexists _; isplitr; swap; · iexact H11
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  · iexists _; isplitr; swap; · iexact H12
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)

end Cert.Kernel.PairRegion

end
-- ==== Proof.Word.PairBody.lean ====
/-
  The pair kernel's body obligation: at every grid point, from the invariant and the eight windows' current buffers
  at what they then hold, the body runs to the invariant at the next point and the buffers at what the proof data
  says it leaves. The point is the first, an inner or the last tile of its row of tiles; each case is the body's
  run for that case, with the scratch columns passing through the invariant.
-/
import proofs.«134439_j29841432773048_1_alg».proof.Proof.Word.PairData
import proofs.«134439_j29841432773048_1_alg».proof.Proof.Word.PairRunInner
import proofs.«134439_j29841432773048_1_alg».proof.Proof.Word.PairRunFirst
import proofs.«134439_j29841432773048_1_alg».proof.Proof.Word.PairRunLast

set_option maxRecDepth 16384

noncomputable section

namespace Cert.Kernel.PairRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The column coordinate of point t = 16·i + j is j: the first-tile condition holds where j = 0, -/
theorem first_iff : ∀ t : Fin cfg1.N, firstCol (grid1.coords t) ↔ t.val % 16 = 0 :=
  (by decide +kernel : ∀ t : Fin grid1.N, firstCol (grid1.coords t) ↔ t.val % 16 = 0)
/-- and the last-tile condition where j = 15. -/
theorem last_iff : ∀ t : Fin cfg1.N, lastCol (grid1.coords t) ↔ t.val % 16 = 15 :=
  (by decide +kernel : ∀ t : Fin grid1.N, lastCol (grid1.coords t) ↔ t.val % 16 = 15)

/-! ## The invariant around a point -/

theorem inv_before_first (c : Dev nD) (t : Fin cfg1.N) (h : t.val % 16 = 0) :
    inv V c t.castSucc = iprop(idleRest (F := F) c ∗ scratchAny (F := F) c) := by
  unfold inv; rw [dif_pos (show t.castSucc.val % 16 = 0 from h)]

theorem inv_before_later (c : Dev nD) (t : Fin cfg1.N) (h : ¬ t.val % 16 = 0) :
    inv V c t.castSucc = iprop(idleRest (F := F) c
      ∗ scratchAt c (carried V c (t.val - 1) (Nat.lt_of_le_of_lt (Nat.sub_le _ _) t.isLt))) := by
  unfold inv; rw [dif_neg (show ¬ t.castSucc.val % 16 = 0 from h)]
  rfl

theorem inv_after_inner (c : Dev nD) (t : Fin cfg1.N) (h : ¬ t.val % 16 = 15) :
    inv V c t.succ = iprop(idleRest (F := F) c ∗ scratchAt c (carried V c t.val t.isLt)) := by
  unfold inv; rw [dif_neg (show ¬ t.succ.val % 16 = 0 from by rw [Fin.val_succ]; omega)]
  rfl

theorem inv_after_last (c : Dev nD) (t : Fin cfg1.N) (h : t.val % 16 = 15) :
    inv V c t.succ = iprop(idleRest (F := F) c ∗ scratchAny (F := F) c) := by
  unfold inv; rw [dif_pos (show t.succ.val % 16 = 0 from by rw [Fin.val_succ]; omega)]

/-! ## What the two output windows are left at -/

/-- An output window's buffer after the body: written at the last tile of a row, handed back as found elsewhere. -/
def leavesOut (c : Dev nD) (w : Fin cfg1.W) (t : Fin cfg1.N) : sProp 𝕄 :=
  match cfg1.idle w (cfg1.grid.coords t) with
  | true =>
    match (cfg1.win w).flush t with
    | false => iprop(∃ d, owns (c : Thread nD τ) ((cfg1.win w).stage (cfg1.slots t w)) fullShare ((dat1 V c).before w t d))
    | true => owns (c : Thread nD τ) ((cfg1.win w).stage (cfg1.slots t w)) fullShare ((dat1 V c).after w t)
  | false => owns (c : Thread nD τ) ((cfg1.win w).stage (cfg1.slots t w)) fullShare ((dat1 V c).after w t)

theorem idle6_iff (t : Fin cfg1.N) : cfg1.idle 6 (cfg1.grid.coords t) = !(decide (t.val % 16 = 15)) :=
  (by decide +kernel : ∀ t : Fin grid1.N, cfg1.idle 6 (cfg1.grid.coords t) = !(decide (t.val % 16 = 15))) t
theorem idle7_iff (t : Fin cfg1.N) : cfg1.idle 7 (cfg1.grid.coords t) = !(decide (t.val % 16 = 15)) :=
  (by decide +kernel : ∀ t : Fin grid1.N, cfg1.idle 7 (cfg1.grid.coords t) = !(decide (t.val % 16 = 15))) t

theorem leavesOut6_last (c : Dev nD) (t : Fin cfg1.N) (h : t.val % 16 = 15) :
    leavesOut V c 6 t = owns (c : Thread nD τ) ((cfg1.win 6).stage (cfg1.slots t 6)) fullShare ((dat1 V c).after 6 t) := by
  unfold leavesOut; rw [idle6_iff, decide_eq_true h]; rfl
theorem leavesOut7_last (c : Dev nD) (t : Fin cfg1.N) (h : t.val % 16 = 15) :
    leavesOut V c 7 t = owns (c : Thread nD τ) ((cfg1.win 7).stage (cfg1.slots t 7)) fullShare ((dat1 V c).after 7 t) := by
  unfold leavesOut; rw [idle7_iff, decide_eq_true h]; rfl
theorem leavesOut6_other (c : Dev nD) (t : Fin cfg1.N) (h : ¬ t.val % 16 = 15) :
    leavesOut V c 6 t = iprop(∃ d, owns (c : Thread nD τ) ((cfg1.win 6).stage (cfg1.slots t 6)) fullShare ((dat1 V c).before 6 t d)) := by
  unfold leavesOut
  rw [idle6_iff, decide_eq_false h, show (cfg1.win 6).flush t = false from Bool.eq_false_iff.mpr fun hf => h ((flush1_6 t).mp hf)]
  rfl
theorem leavesOut7_other (c : Dev nD) (t : Fin cfg1.N) (h : ¬ t.val % 16 = 15) :
    leavesOut V c 7 t = iprop(∃ d, owns (c : Thread nD τ) ((cfg1.win 7).stage (cfg1.slots t 7)) fullShare ((dat1 V c).before 7 t d)) := by
  unfold leavesOut
  rw [idle7_iff, decide_eq_false h, show (cfg1.win 7).flush t = false from Bool.eq_false_iff.mpr fun hf => h ((flush1_7 t).mp hf)]
  rfl

/-! ## The obligation at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) ((cfg1.win 0).stage (cfg1.slots t 0)) fullShare ((dat1 V c).before 0 t d))
    ∗ (∃ d, owns (c : Thread nD τ) ((cfg1.win 1).stage (cfg1.slots t 1)) fullShare ((dat1 V c).before 1 t d))
    ∗ (∃ d, owns (c : Thread nD τ) ((cfg1.win 2).stage (cfg1.slots t 2)) fullShare ((dat1 V c).before 2 t d))
    ∗ (∃ d, owns (c : Thread nD τ) ((cfg1.win 3).stage (cfg1.slots t 3)) fullShare ((dat1 V c).before 3 t d))
    ∗ (∃ d, owns (c : Thread nD τ) ((cfg1.win 4).stage (cfg1.slots t 4)) fullShare ((dat1 V c).before 4 t d))
    ∗ (∃ d, owns (c : Thread nD τ) ((cfg1.win 5).stage (cfg1.slots t 5)) fullShare ((dat1 V c).before 5 t d))
    ∗ (∃ d, owns (c : Thread nD τ) ((cfg1.win 6).stage (cfg1.slots t 6)) fullShare ((dat1 V c).before 6 t d))
    ∗ (∃ d, owns (c : Thread nD τ) ((cfg1.win 7).stage (cfg1.slots t 7)) fullShare ((dat1 V c).before 7 t d)))

/-- and what it returns. -/
def bodyPost (c : Dev nD) (t : Fin cfg1.N) : sProp 𝕄 :=
  iprop((dat1 V c).Φ t.succ ∗ (dat1 V c).owesAt () t.succ
    ∗ owns (c : Thread nD τ) ((cfg1.win 0).stage (cfg1.slots t 0)) fullShare ((dat1 V c).after 0 t)
    ∗ owns (c : Thread nD τ) ((cfg1.win 1).stage (cfg1.slots t 1)) fullShare ((dat1 V c).after 1 t)
    ∗ owns (c : Thread nD τ) ((cfg1.win 2).stage (cfg1.slots t 2)) fullShare ((dat1 V c).after 2 t)
    ∗ owns (c : Thread nD τ) ((cfg1.win 3).stage (cfg1.slots t 3)) fullShare ((dat1 V c).after 3 t)
    ∗ owns (c : Thread nD τ) ((cfg1.win 4).stage (cfg1.slots t 4)) fullShare ((dat1 V c).after 4 t)
    ∗ owns (c : Thread nD τ) ((cfg1.win 5).stage (cfg1.slots t 5)) fullShare ((dat1 V c).after 5 t)
    ∗ leavesOut V c 6 t ∗ leavesOut V c 7 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat1 V c).owesAt () t.succ = (dat1 V c).owesAt () t.castSucc from rfl,
    after_0, after_1, after_2, after_3, after_4, after_5,
    show (dat1 V c).Φ t.castSucc = inv V c t.castSucc from rfl, show (dat1 V c).Φ t.succ = inv V c t.succ from rfl]
  by_cases h0 : t.val % 16 = 0
  · -- the first tile of a row
    have h15 : ¬ t.val % 16 = 15 := by omega
    have hc1 : firstCol (grid1.coords t) := (first_iff t).mpr h0
    have hc2 : ¬ lastCol (grid1.coords t) := fun h => h15 ((last_iff t).mp h)
    rw [inv_before_first V c t h0, inv_after_inner V c t h15, leavesOut6_other V c t h15, leavesOut7_other V c t h15,
      carried_first V c t h0]
    unfold scratchAny scratchAt stepCols zeroCols
    iintro ⟨⟨Hrest, Hs10, Hs11, Hs12⟩, Ho, ⟨%d0, H0⟩, ⟨%d1, H1⟩, ⟨%d2, H2⟩, ⟨%d3, H3⟩, ⟨%d4, H4⟩, ⟨%d5, H5⟩, H6, H7⟩
    iapply (run_first c (grid1.coords t) _ _ _ _ _ _ _ _ _ _ _ _ _ _ _ _ _ _ _ _ _ _ hc1 hc2
      (tile V c 0 t) (tile V c 1 t) (tile V c 2 t) (tile V c 3 t) (tile V c 4 t) (tile V c 5 t) Set.univ _)
    isplitl [H0]; · iexact H0
    isplitl [H1]; · iexact H1
    isplitl [H2]; · iexact H2
    isplitl [H3]; · iexact H3
    isplitl [H4]; · iexact H4
    isplitl [H5]; · iexact H5
    isplitl [Hs10]; · iexact Hs10
    isplitl [Hs11]; · iexact Hs11
    isplitl [Hs12]; · iexact Hs12
    iintro ⟨H0, H1, H2, H3, H4, H5, Hs10, Hs11, Hs12⟩
    isplitl [Hrest Hs10 Hs11 Hs12]
    · isplitl [Hrest]; · iexact Hrest
      isplitl [Hs10]; · iexact Hs10
      isplitl [Hs11]; · iexact Hs11
      iexact Hs12
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h15 : t.val % 16 = 15
    · -- the last tile of a row
      have hc1 : ¬ firstCol (grid1.coords t) := fun h => h0 ((first_iff t).mp h)
      have hc2 : lastCol (grid1.coords t) := (last_iff t).mpr h15
      rw [inv_before_later V c t h0, inv_after_last V c t h15, leavesOut6_last V c t h15, leavesOut7_last V c t h15,
        after_6, after_7, carried_next V c t h0]
      unfold scratchAny scratchAt stepCols
      iintro ⟨⟨Hrest, Hs10, Hs11, Hs12⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid1.coords t) _ _ _ _ _ _ _ _ _ _ _ _ _ _ _ _ _ _ _ _ _ _ hc1 hc2
        (tile V c 0 t) (tile V c 1 t) (tile V c 2 t) (tile V c 3 t) (tile V c 4 t) (tile V c 5 t)
        (carried V c (t.val - 1) (Nat.lt_of_le_of_lt (Nat.sub_le _ _) t.isLt)).1 (carried V c (t.val - 1) (Nat.lt_of_le_of_lt (Nat.sub_le _ _) t.isLt)).2.1 (carried V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [Hs10]; · iexact Hs10
      isplitl [Hs11]; · iexact Hs11
      isplitl [Hs12]; · iexact Hs12
      iintro ⟨H0, H1, H2, H3, H4, H5, H6, H7, Hs10, Hs11, Hs12⟩
      isplitl [Hrest Hs10 Hs11 Hs12]
      · isplitl [Hrest]; · iexact Hrest
        isplitl [Hs10]; · iexists _; iexact Hs10
        isplitl [Hs11]; · iexists _; iexact Hs11
        iexists _; iexact Hs12
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- an inner tile
      have hc1 : ¬ firstCol (grid1.coords t) := fun h => h0 ((first_iff t).mp h)
      have hc2 : ¬ lastCol (grid1.coords t) := fun h => h15 ((last_iff t).mp h)
      rw [inv_before_later V c t h0, inv_after_inner V c t h15, leavesOut6_other V c t h15, leavesOut7_other V c t h15,
        carried_next V c t h0]
      unfold scratchAt stepCols
      iintro ⟨⟨Hrest, Hs10, Hs11, Hs12⟩, Ho, ⟨%d0, H0⟩, ⟨%d1, H1⟩, ⟨%d2, H2⟩, ⟨%d3, H3⟩, ⟨%d4, H4⟩, ⟨%d5, H5⟩, H6, H7⟩
      iapply (run_inner c (grid1.coords t) _ _ _ _ _ _ _ _ _ _ _ _ _ _ _ _ _ _ _ _ _ _ hc1 hc2
        (tile V c 0 t) (tile V c 1 t) (tile V c 2 t) (tile V c 3 t) (tile V c 4 t) (tile V c 5 t)
        (carried V c (t.val - 1) (Nat.lt_of_le_of_lt (Nat.sub_le _ _) t.isLt)).1 (carried V c (t.val - 1) (Nat.lt_of_le_of_lt (Nat.sub_le _ _) t.isLt)).2.1 (carried V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [Hs10]; · iexact Hs10
      isplitl [Hs11]; · iexact Hs11
      isplitl [Hs12]; · iexact Hs12
      iintro ⟨H0, H1, H2, H3, H4, H5, Hs10, Hs11, Hs12⟩
      isplitl [Hrest Hs10 Hs11 Hs12]
      · isplitl [Hrest]; · iexact Hrest
        isplitl [Hs10]; · iexact Hs10
        isplitl [Hs11]; · iexact Hs11
        iexact Hs12
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dat1 V c) (defs₀ (F := F)) Variants.none () Set.univ := fun t => by
  rw [bigSep_W1, bigSep_W1]
  exact sound_body V c t

end Cert.Kernel.PairRegion

end
-- ==== Proof.Word.Boundary.lean ====
/-
  The program between its items. @main is: the normalising kernel, four reshapes of the labels and speaker ids, the
  pair kernel, and the closing host lines. This file names what the unscoped buffers hold at each boundary as a
  function of the launch memory: the normalising kernel leaves the unit-norm features in its output array, the pair
  kernel leaves each row's loss and validity in its two, and nothing else changes but what the host lines write.
-/
import proofs.«134439_j29841432773048_1_alg».proof.Proof.Word.NormRegion
import proofs.«134439_j29841432773048_1_alg».proof.Proof.Word.PairBody
import proofs.«134439_j29841432773048_1_alg».proof.Proof.Gen.Kernel.Regions

set_option maxRecDepth 16384

noncomputable section

namespace Cert.Kernel.Whole

open Cert.Kernel Cert.Kernel.Gen Cert.Kernel.NormRegion Cert.Kernel.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The unscoped buffers at launch, read at the TensorCore's references: what the normalising kernel is entered from. -/
abbrev atLaunch : (c : Dev nD) → (b : Ref sig .tc) → Buf (Elt F) ((c : Thread nD τ).loc b) := fun c b => Gen.V0 m c b

/-- The unit-norm features: what the normalising kernel leaves in its output array. -/
def unitFeatures (c : Dev nD) : Buf (Elt F) ((c : Thread nD τ).loc main_v0) := (dat0 (atLaunch m) c).arrAt 1 cfg0.N

/-- The unscoped buffers after the normalising kernel, -/
abbrev afterNorm (c : Dev nD) : Valuation τ sig (Elt F) := Function.update (Gen.V0 m c) main_v0 (unitFeatures m c)
/-- and after the four reshapes: what the pair kernel is entered from. -/
abbrev beforePair (c : Dev nD) : Valuation τ sig (Elt F) := StableHlo.after hostOps1 (afterNorm m c)
/-- The same read at the TensorCore's references. -/
abbrev atPair : (c : Dev nD) → (b : Ref sig .tc) → Buf (Elt F) ((c : Thread nD τ).loc b) := fun c b => beforePair m c b

/-- Each row's loss, -/
def rowLossArr (c : Dev nD) : Buf (Elt F) ((c : Thread nD τ).loc main_v5_0) := (dat1 (atPair m) c).arrAt 6 cfg1.N
/-- and each row's 0/1 validity: what the pair kernel leaves in its two output arrays. -/
def rowValidArr (c : Dev nD) : Buf (Elt F) ((c : Thread nD τ).loc main_v5_1) := (dat1 (atPair m) c).arrAt 7 cfg1.N

/-- What the two kernels leave in the buffers they may change, in the form the program's frame is stated over. -/
def outs : Gen.Outs (F := F) := fun J r c =>
  match J with
  | 1 => Function.update (fun b : Ref sig .tc => m ((c : Thread nD τ).loc b)) main_v0 (unitFeatures m c) r
  | 3 => Function.update (Function.update (fun b : Ref sig .tc => m ((c : Thread nD τ).loc b)) main_v5_0 (rowLossArr m c))
          main_v5_1 (rowValidArr m c) r
  | _ => m ((c : Thread nD τ).loc r)

theorem outs_norm (c : Dev nD) : outs m 1 main_v0 c = unitFeatures m c := by
  unfold outs; exact Function.update_self ..
theorem outs_loss (c : Dev nD) : outs m 3 main_v5_0 c = rowLossArr m c := by
  show Function.update (Function.update (fun b : Ref sig .tc => m ((c : Thread nD τ).loc b)) main_v5_0 (rowLossArr m c))
      main_v5_1 (rowValidArr m c) main_v5_0 = _
  rw [Function.update_of_ne (by decide), Function.update_self]
theorem outs_valid (c : Dev nD) : outs m 3 main_v5_1 c = rowValidArr m c := by
  unfold outs; exact Function.update_self ..

theorem V1_eq (c : Dev nD) : Gen.V1 m (outs m) c = afterNorm m c := by
  show Function.update (Gen.V0 m c) main_v0 (outs m 1 main_v0 c) = _; rw [outs_norm]
theorem V2_eq (c : Dev nD) : Gen.V2 m (outs m) c = beforePair m c := by
  show StableHlo.after hostOps1 (Gen.V1 m (outs m) c) = _; rw [V1_eq]

/-- The unscoped buffers after the pair kernel. -/
abbrev afterPair (c : Dev nD) : Valuation τ sig (Elt F) :=
  Function.update (Function.update (beforePair m c) main_v5_0 (rowLossArr m c)) main_v5_1 (rowValidArr m c)
theorem V3_eq (c : Dev nD) : Gen.V3 m (outs m) c = afterPair m c := by
  show Function.update (Function.update (Gen.V2 m (outs m) c) main_v5_0 (outs m 3 main_v5_0 c)) main_v5_1 (outs m 3 main_v5_1 c) = _
  rw [V2_eq, outs_loss, outs_valid]

/-- Both pipelines' proof data, each over its kernel's entry contents. -/
def pdats : (p : Fin 2) → (c : Dev nD) → Dat τ (Elt F) Unit ℕ (UR sig nD τ) ℕ (cfgs p) c
  | ⟨0, _⟩ => fun c => dat0 (atLaunch m) c
  | ⟨1, _⟩ => fun c => dat1 (atPair m) c

end Cert.Kernel.Whole

end
-- ==== Proof.Word.NormSeg.lean ====
/-
  The normalising kernel as an item of the program: entered with every unscoped buffer at its launch contents,
  left with the output array at the unit-norm features and every other unscoped buffer as it was. Its two arrays
  are distinct whole buffers, so they are taken out of the unscoped buffers at entry and put back at exit as they
  are; the generator register passes through the kernel's invariant untouched; the core owes nothing.
-/
import proofs.«134439_j29841432773048_1_alg».proof.Proof.Word.Boundary
import Idealize.ShloMosaic.Lib.Pipeline.RegionsLoop

set_option maxRecDepth 16384

noncomputable section

namespace Cert.Kernel.Whole

open Cert.Kernel Cert.Kernel.Gen Cert.Kernel.NormRegion Cert.Kernel.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The kernels have no loop variants, -/
abbrev noVariants : Variants := Variants.none
/-- and no core waits on another: no level is assigned. -/
abbrev noLevels : GSem nD τ sig → Finset Unit := fun _ => ∅
abbrev levelOf : GSem nD τ sig → Unit → ℕ := fun _ _ => 0

/-- What rides beside the buffers through every item: the generator register at some state, and the core owing
    nothing. -/
abbrev beside (c : Dev nD) : sProp 𝕄 :=
  iprop((∃ r, prngReg c r) ∗ ∃ W, owes (c : Thread nD τ) (0 : CellTallies nD τ sig Unit) W)

/-- The normalising kernel's exit contents have its arrays at what the pipeline leaves. -/
theorem afterNorm_arr (c : Dev nD) (w : Fin cfg0.W) :
    (pdats m 0 c).arrAt w cfg0.N = (fun b : Ref sig .tc => afterNorm m c b) (Pipeline.arrRef spec0 w) := by
  match w with
  | ⟨0, _⟩ =>
    show (dat0 (atLaunch m) c).arrAt 0 cfg0.N = Function.update (Gen.V0 m c) main_v0 (unitFeatures m c) main_arg0
    rw [Function.update_of_ne (by decide), NormRegion.arr_in]
  | ⟨1, _⟩ =>
    show (dat0 (atLaunch m) c).arrAt 1 cfg0.N = Function.update (Gen.V0 m c) main_v0 (unitFeatures m c) main_v0
    rw [Function.update_self]; rfl

/-- Off the kernel's arrays nothing changed. -/
theorem afterNorm_rest (c : Dev nD) (b : Ref sig .tc) (hb : b ∉ Finset.univ.image (Pipeline.arrRef spec0)) :
    (fun b : Ref sig .tc => afterNorm m c b) b = atLaunch m c b := by
  have hne : b ≠ main_v0 := fun e => hb (Finset.mem_image.mpr ⟨1, Finset.mem_univ _, e.symm⟩)
  show Function.update (Gen.V0 m c) main_v0 (unitFeatures m c) b = _
  rw [Function.update_of_ne (StableHlo.devRef_ne_of_ne hne)]

set_option backward.isDefEq.respectTransparency.types false in
/-- THE NORMALISING KERNEL'S SEGMENT. -/
def normSeg : RegionSeg (pcfgs (F := F)) Gen.adm (pdats m) () defs₀ noVariants noLevels levelOf 0 where
  win := launch0.win.to₀
  block_pos := launch0.block_pos
  stage_whole := launch0.stage_whole
  K := PEmpty
  osem k := k.elim
  ho := Pipeline.OwnSemFacts.none _
  hbody c := (norm_body_obligation (atLaunch m) c).loose
  hwaits := Pipeline.hwaits_of_owed_zero _ _ _ _ noLevels levelOf 0 fun _ _ => rfl
  pre c := iprop(StableHlo.held (c : Thread nD τ) (Pipeline.ucRefs τ sig) (Gen.V0 m c) ∗ beside c)
  post c := iprop(StableHlo.held (c : Thread nD τ) (Pipeline.ucRefs τ sig) (afterNorm m c) ∗ beside c)
  X c := iprop(∃ r, prngReg c r)
  Y c := iprop(∃ r, prngReg c r)
  Z c := Pipeline.unscopedRest (Ix := Unit) (Name := ℕ) (U := UR sig nD τ) (Lvl := ℕ) spec0 c (atLaunch m c)
  hentry c := by
    rw [Pipeline.ownSems0_none]
    have htake := Pipeline.arrays_of_unscopedBufs (p := 0) (pcfgs (F := F)) Gen.adm (pdats m) launch0.win launch0.arr_whole c
      ((pdats m 0 c).share_full fun _ => rfl) (atLaunch m c) fun _ => rfl
    rw [Pipeline.unscopedBufs_held] at htake
    iintro ⟨⟨Hbufs, Hreg, Howes⟩, -, -⟩
    ihave H := htake $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hput := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atLaunch m c) (fun b : Ref sig .tc => afterNorm m c b) ((pdats m 0 c).arrAt · cfg0.N) (afterNorm_arr m c) (afterNorm_rest m c)
    rw [Pipeline.unscopedBufs_held] at hput
    iintro ⟨Harr, Howes, Hreg, Hrest⟩
    imodintro
    isplitl [Harr Hrest]
    · iapply hput; isplitl [Harr] <;> iassumption
    isplitl [Hreg]; · iexact Hreg
    unfold Pipeline.Dat.owesAt Pipeline.owesWithin
    icases Howes with ⟨%W, -, Howes⟩
    iexists W; iexact Howes

end Cert.Kernel.Whole

end
-- ==== Proof.Word.PairDeal.lean ====
/-
  The pair kernel reads the unit-norm features through TWO windows (the row tile and the column tile), so the seven
  distinct buffers behind its eight windows' arrays are fewer than the windows. At entry the features' buffer, held
  whole, is dealt to the two windows half and half; at exit the two halves, still at the entry contents because an
  input is never written, are joined again. The other six arrays go to their one window as they are.
-/
import proofs.«134439_j29841432773048_1_alg».proof.Proof.Word.Boundary
import Idealize.ShloMosaic.Lib.Pipeline.Kit
import Idealize.ShloMosaic.Lib.Pipeline.Launch

set_option maxRecDepth 16384

noncomputable section

namespace Cert.Kernel.Whole

open Cert.Kernel Cert.Kernel.Gen Cert.Kernel.NormRegion Cert.Kernel.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

open Idealize.SL.BI (bigSepL bigSep_eq_bigSepL_of_eq)

variable (Vp : (c : Dev nD) → (b : Ref sig .tc) → Buf (Elt F) ((c : Thread nD τ).loc b))

/-- The distinct buffers behind the pair kernel's arrays, listed. -/
theorem pairBufs_listed (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0)
          ∗ (((c : Thread nD τ).loc main_v1) ↦{fullShare} V main_v1)
          ∗ (((c : Thread nD τ).loc main_v2) ↦{fullShare} V main_v2)
          ∗ (((c : Thread nD τ).loc main_v3) ↦{fullShare} V main_v3)
          ∗ (((c : Thread nD τ).loc main_v4) ↦{fullShare} V main_v4)
          ∗ (((c : Thread nD τ).loc main_v5_0) ↦{fullShare} V main_v5_0)
          ∗ (((c : Thread nD τ).loc main_v5_1) ↦{fullShare} V main_v5_1)) := by
  unfold Pipeline.arrBufs
  exact bigSep_eq_bigSepL_of_eq [main_v0, main_v1, main_v2, main_v3, main_v4, main_v5_0, main_v5_1] (by decide) (by decide) _

/-- The share each window holds of its array: the two windows on the unit-norm features half and half, every other
    window all of its own array. -/
def pairShare : Fin cfg1.W → PosShare TreeShare
  | ⟨0, _⟩ => fullShare.left
  | ⟨1, _⟩ => fullShare.right
  | _ => fullShare

theorem share_eq (c : Dev nD) (w : Fin cfg1.W) : (dat1 Vp c).share w = pairShare w := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The proof data's arrays, window by window, as points-tos of the buffers behind them. -/
theorem arrays_listed (c : Dev nD) (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    ((dat1 Vp c).arrays A : sProp 𝕄)
      = iprop((((c : Thread nD τ).loc main_v0) ↦{fullShare.left} V main_v0)
          ∗ (((c : Thread nD τ).loc main_v0) ↦{fullShare.right} V main_v0)
          ∗ (((c : Thread nD τ).loc main_v1) ↦{fullShare} V main_v1)
          ∗ (((c : Thread nD τ).loc main_v2) ↦{fullShare} V main_v2)
          ∗ (((c : Thread nD τ).loc main_v3) ↦{fullShare} V main_v3)
          ∗ (((c : Thread nD τ).loc main_v4) ↦{fullShare} V main_v4)
          ∗ (((c : Thread nD τ).loc main_v5_0) ↦{fullShare} V main_v5_0)
          ∗ (((c : Thread nD τ).loc main_v5_1) ↦{fullShare} V main_v5_1)) := by
  have h : ((dat1 Vp c).arrays A : sProp 𝕄)
      = bigSep Finset.univ fun w : Fin cfg1.W => (((c : Thread nD τ).loc (Pipeline.arrRef spec1 w)) ↦{pairShare w} V (Pipeline.arrRef spec1 w) : sProp 𝕄) := by
    unfold Dat.arrays
    exact bigSep_congr fun w _ => by rw [(arr_whole1 w).set_eq_univ, share_eq, hA]
  rw [h, bigSep_W1]
  rfl

/-- ENTRY: the buffers, whole at contents `V`, make the proof data's arrays at those contents. -/
theorem deal (c : Dev nD) (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (Pipeline.arrBufs (Ix := Unit) (Name := ℕ) (U := UR sig nD τ) (Lvl := ℕ) spec1 c V : sProp 𝕄) ⊢ (dat1 Vp c).arrays A := by
  rw [pairBufs_listed, arrays_listed Vp c V A hA]
  iintro ⟨H0, H1, H2, H3, H4, H5, H6⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  isplitl [H3]; · iexact H3
  isplitl [H4]; · iexact H4
  isplitl [H5]; · iexact H5
  iexact H6

/-- EXIT: the proof data's arrays at contents that agree with `V` make the buffers whole at `V` again. -/
theorem collect (c : Dev nD) (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (dat1 Vp c).arrays A ⊢ (Pipeline.arrBufs (Ix := Unit) (Name := ℕ) (U := UR sig nD τ) (Lvl := ℕ) spec1 c V : sProp 𝕄) := by
  rw [pairBufs_listed, arrays_listed Vp c V A hA]
  iintro ⟨H0a, H0b, H1, H2, H3, H4, H5, H6⟩
  isplitl [H0a H0b]
  · iapply (pointsTo_share (PosShare.mem_left_op_right fullShare)).2
    isplitl [H0a]; · iexact H0a
    iexact H0b
  isplitl [H1]; · iexact H1
  isplitl [H2]; · iexact H2
  isplitl [H3]; · iexact H3
  isplitl [H4]; · iexact H4
  isplitl [H5]; · iexact H5
  iexact H6

end Cert.Kernel.Whole

end
-- ==== Proof.Word.PairSeg.lean ====
/-
  The pair kernel as an item of the program: entered with every unscoped buffer at what the reshapes left, left
  with its two output arrays at each row's loss and validity and every other unscoped buffer as it was. The
  unit-norm features are dealt to the two windows that read them and collected again; the three scratch columns and
  the first kernel's staging buffers, scoped buffers this pipeline stages nothing in, make the invariant at the
  first point and are given back from it at the last, at anything both times.
-/
import proofs.«134439_j29841432773048_1_alg».proof.Proof.Word.NormSeg
import proofs.«134439_j29841432773048_1_alg».proof.Proof.Word.PairDeal

set_option maxRecDepth 16384

noncomputable section

namespace Cert.Kernel.Whole

open Cert.Kernel Cert.Kernel.Gen Cert.Kernel.NormRegion Cert.Kernel.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The pair kernel's exit contents have its arrays at what the pipeline leaves: an input as entered, the two
    outputs at the rows' loss and validity. -/
theorem afterPair_arr (c : Dev nD) (w : Fin cfg1.W) :
    (pdats m 1 c).arrAt w cfg1.N = (fun b : Ref sig .tc => afterPair m c b) (Pipeline.arrRef spec1 w) := by
  match w with
  | ⟨0, _⟩ =>
    show (dat1 (atPair m) c).arrAt 0 cfg1.N = afterPair m c main_v0
    rw [(dat1 (atPair m) c).arrAt_in 0 rfl _, PairRegion.A_eq]
    show beforePair m c main_v0 = Function.update (Function.update (beforePair m c) main_v5_0 (rowLossArr m c)) main_v5_1 (rowValidArr m c) main_v0
    rw [Function.update_of_ne (by decide), Function.update_of_ne (by decide)]
  | ⟨1, _⟩ =>
    show (dat1 (atPair m) c).arrAt 1 cfg1.N = afterPair m c main_v0
    rw [(dat1 (atPair m) c).arrAt_in 1 rfl _, PairRegion.A_eq]
    show beforePair m c main_v0 = Function.update (Function.update (beforePair m c) main_v5_0 (rowLossArr m c)) main_v5_1 (rowValidArr m c) main_v0
    rw [Function.update_of_ne (by decide), Function.update_of_ne (by decide)]
  | ⟨2, _⟩ =>
    show (dat1 (atPair m) c).arrAt 2 cfg1.N = afterPair m c main_v1
    rw [(dat1 (atPair m) c).arrAt_in 2 rfl _, PairRegion.A_eq]
    show beforePair m c main_v1 = Function.update (Function.update (beforePair m c) main_v5_0 (rowLossArr m c)) main_v5_1 (rowValidArr m c) main_v1
    rw [Function.update_of_ne (by decide), Function.update_of_ne (by decide)]
  | ⟨3, _⟩ =>
    show (dat1 (atPair m) c).arrAt 3 cfg1.N = afterPair m c main_v2
    rw [(dat1 (atPair m) c).arrAt_in 3 rfl _, PairRegion.A_eq]
    show beforePair m c main_v2 = Function.update (Function.update (beforePair m c) main_v5_0 (rowLossArr m c)) main_v5_1 (rowValidArr m c) main_v2
    rw [Function.update_of_ne (by decide), Function.update_of_ne (by decide)]
  | ⟨4, _⟩ =>
    show (dat1 (atPair m) c).arrAt 4 cfg1.N = afterPair m c main_v3
    rw [(dat1 (atPair m) c).arrAt_in 4 rfl _, PairRegion.A_eq]
    show beforePair m c main_v3 = Function.update (Function.update (beforePair m c) main_v5_0 (rowLossArr m c)) main_v5_1 (rowValidArr m c) main_v3
    rw [Function.update_of_ne (by decide), Function.update_of_ne (by decide)]
  | ⟨5, _⟩ =>
    show (dat1 (atPair m) c).arrAt 5 cfg1.N = afterPair m c main_v4
    rw [(dat1 (atPair m) c).arrAt_in 5 rfl _, PairRegion.A_eq]
    show beforePair m c main_v4 = Function.update (Function.update (beforePair m c) main_v5_0 (rowLossArr m c)) main_v5_1 (rowValidArr m c) main_v4
    rw [Function.update_of_ne (by decide), Function.update_of_ne (by decide)]
  | ⟨6, _⟩ =>
    show rowLossArr m c = Function.update (Function.update (beforePair m c) main_v5_0 (rowLossArr m c)) main_v5_1 (rowValidArr m c) main_v5_0
    rw [Function.update_of_ne (by decide), Function.update_self]
  | ⟨7, _⟩ =>
    show rowValidArr m c = Function.update (Function.update (beforePair m c) main_v5_0 (rowLossArr m c)) main_v5_1 (rowValidArr m c) main_v5_1
    rw [Function.update_self]

/-- Off the kernel's arrays nothing changed. -/
theorem afterPair_rest (c : Dev nD) (b : Ref sig .tc) (hb : b ∉ Finset.univ.image (Pipeline.arrRef spec1)) :
    (fun b : Ref sig .tc => afterPair m c b) b = atPair m c b := by
  have h6 : b ≠ main_v5_0 := fun e => hb (Finset.mem_image.mpr ⟨6, Finset.mem_univ _, e.symm⟩)
  have h7 : b ≠ main_v5_1 := fun e => hb (Finset.mem_image.mpr ⟨7, Finset.mem_univ _, e.symm⟩)
  show Function.update (Function.update (beforePair m c) main_v5_0 (rowLossArr m c)) main_v5_1 (rowValidArr m c) b = _
  rw [Function.update_of_ne (StableHlo.devRef_ne_of_ne h7), Function.update_of_ne (StableHlo.devRef_ne_of_ne h6)]

/-- The scratch columns at anything, as the launch lists them. -/
theorem scratchAny_eq (c : Dev nD) :
    (scratchAny (F := F) c : sProp 𝕄)
      = iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ (∃ f : Buf (Elt F) ((c : Thread nD τ).loc cc1_scratch2), ((c : Thread nD τ).loc cc1_scratch2) ↦{fullShare} f)) := by
  unfold scratchAny; simp only [owns_whole]

/-- Before the first point and after the last, the invariant IS the scoped buffers this pipeline stages nothing in:
    made from them, -/
theorem inv_of_scoped (c : Dev nD) (t : Fin (cfg1.N + 1)) (h : t.val % 16 = 0) :
    (Pipeline.scopedRest (Ix := Unit) (Name := ℕ) (U := UR sig nD τ) (Lvl := ℕ) (Val := Elt F) spec1 c : sProp 𝕄) ⊢ (PairRegion.inv (atPair m) c t : sProp 𝕄) := by
  unfold PairRegion.inv; rw [dif_pos h, scratchAny_eq, scopedRest1_eq]; unfold idleRest
  iintro ⟨Ha, Hb, Hc, Hd, Hs0, Hs1, Hs2⟩
  isplitl [Ha Hb Hc Hd]
  · isplitl [Ha]; · iexact Ha
    isplitl [Hb]; · iexact Hb
    isplitl [Hc]; · iexact Hc
    iexact Hd
  isplitl [Hs0]; · iexact Hs0
  isplitl [Hs1]; · iexact Hs1
  iexact Hs2

/-- and giving them back. -/
theorem scoped_of_inv (c : Dev nD) (t : Fin (cfg1.N + 1)) (h : t.val % 16 = 0) :
    (PairRegion.inv (atPair m) c t : sProp 𝕄) ⊢ (Pipeline.scopedRest (Ix := Unit) (Name := ℕ) (U := UR sig nD τ) (Lvl := ℕ) (Val := Elt F) spec1 c : sProp 𝕄) := by
  unfold PairRegion.inv; rw [dif_pos h, scratchAny_eq, scopedRest1_eq]; unfold idleRest
  iintro ⟨⟨Ha, Hb, Hc, Hd⟩, Hs0, Hs1, Hs2⟩
  isplitl [Ha]; · iexact Ha
  isplitl [Hb]; · iexact Hb
  isplitl [Hc]; · iexact Hc
  isplitl [Hd]; · iexact Hd
  isplitl [Hs0]; · iexact Hs0
  isplitl [Hs1]; · iexact Hs1
  iexact Hs2

/-- The unscoped buffers at a valuation: the distinct buffers behind the pair kernel's arrays, and the rest. -/
theorem held_split (c : Dev nD) (W : Valuation τ sig (Elt F)) :
    (StableHlo.held (c : Thread nD τ) (Pipeline.ucRefs τ sig) W : sProp 𝕄)
      = iprop((Pipeline.arrBufs (Ix := Unit) (Name := ℕ) (U := UR sig nD τ) (Lvl := ℕ) spec1 c (fun b : Ref sig .tc => W b) : sProp 𝕄)
          ∗ Pipeline.unscopedRest (Ix := Unit) (Name := ℕ) (U := UR sig nD τ) (Lvl := ℕ) spec1 c (fun b : Ref sig .tc => W b)) := by
  rw [← Pipeline.unscopedBufs_held (Ix := Unit) (Name := ℕ) (U := UR sig nD τ) (Lvl := ℕ) c W]
  exact Pipeline.unscopedBufs_split₀ cfgs 1 winFacts₀1.arr_unscoped c (fun b : Ref sig .tc => W b)

set_option backward.isDefEq.respectTransparency.types false in
/-- THE PAIR KERNEL'S SEGMENT. -/
def pairSeg : RegionSeg (pcfgs (F := F)) Gen.adm (pdats m) () defs₀ noVariants noLevels levelOf 1 where
  win := winFacts₀1
  block_pos := block_pos1
  stage_whole := stage_whole1
  K := PEmpty
  osem k := k.elim
  ho := Pipeline.OwnSemFacts.none _
  hbody c := (PairRegion.body_obligation (atPair m) c).loose
  hwaits := Pipeline.hwaits_of_owed_zero _ _ _ _ noLevels levelOf 1 fun _ _ => rfl
  pre c := iprop(StableHlo.held (c : Thread nD τ) (Pipeline.ucRefs τ sig) (beforePair m c) ∗ beside c)
  post c := iprop(StableHlo.held (c : Thread nD τ) (Pipeline.ucRefs τ sig) (afterPair m c) ∗ beside c)
  X _ := iprop(emp)
  Y _ := iprop(emp)
  Z c := iprop(Pipeline.unscopedRest (Ix := Unit) (Name := ℕ) (U := UR sig nD τ) (Lvl := ℕ) spec1 c (atPair m c) ∗ ∃ r, prngReg c r)
  hentry c := by
    rw [Pipeline.ownSems0_none, held_split]
    iintro ⟨⟨⟨Hbufs, Hrest⟩, Hreg, Howes⟩, -, -⟩
    imodintro
    isplitl [Hbufs]
    · iapply (deal (atPair m) c (atPair m c) ((pdats m 1 c).arrAt · 0) (fun _ => rfl)); iexact Hbufs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr; · ipureintro; exact fun _ _ => Or.inl trivial
      iexact Howes
    isplitr; · iempintro
    isplitl [Hrest]; · iexact Hrest
    iexact Hreg
  hin c := by
    rw [show (pdats m 1 c).Φ 0 = PairRegion.inv (atPair m) c 0 from rfl]
    iintro ⟨-, -, Hscoped⟩
    iapply (inv_of_scoped m c 0 rfl); iexact Hscoped
  hout c := by
    rw [Pipeline.ownSems0_none, show (pdats m 1 c).Φ (Fin.last _) = PairRegion.inv (atPair m) c (Fin.last _) from rfl]
    iintro Hinv
    isplitr; · iempintro
    isplitr; · iempintro
    iapply (scoped_of_inv m c (Fin.last _) (by decide)); iexact Hinv
  hexit c := by
    rw [held_split]
    have hrest : (Pipeline.unscopedRest (Ix := Unit) (Name := ℕ) (U := UR sig nD τ) (Lvl := ℕ) spec1 c (atPair m c) : sProp 𝕄)
        = Pipeline.unscopedRest spec1 c (fun b : Ref sig .tc => afterPair m c b) := by
      unfold Pipeline.unscopedRest
      exact bigSep_congr fun b hb => by rw [afterPair_rest m c b (Finset.mem_sdiff.mp hb).2]
    iintro ⟨Harr, Howes, -, Hrest, Hreg⟩
    imodintro
    isplitl [Harr Hrest]
    · isplitl [Harr]
      · iapply (collect (atPair m) c (fun b : Ref sig .tc => afterPair m c b) ((pdats m 1 c).arrAt · cfg1.N) (afterPair_arr m c)); iexact Harr
      · rw [← hrest]; iexact Hrest
    isplitl [Hreg]; · iexact Hreg
    unfold Pipeline.Dat.owesAt Pipeline.owesWithin
    icases Howes with ⟨%W, -, Howes⟩
    iexists W; iexact Howes

end Cert.Kernel.Whole

end
-- ==== Proof.Word.Frames.lean ====
/-
  The kernel program runs to the end and leaves its arguments alone. @main is the normalising kernel, four
  reshapes, the pair kernel and the closing host lines; the host lines and their chaining are the conditional
  frame's, the two kernels are the two segments, and what rides beside the buffers from item to item is the same
  throughout: the generator register at some state and the core owing nothing.
-/
import proofs.«134439_j29841432773048_1_alg».proof.Proof.Word.PairSeg

set_option maxRecDepth 16384

noncomputable section

namespace Cert.Kernel.Whole

open Cert.Kernel Cert.Kernel.Gen Cert.Kernel.NormRegion Cert.Kernel.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipeline library's, at the staging cells. -/
abbrev launchElt : UR sig nD τ := initOf (Pipeline.cells cfgs cellOf_inj) (Pipeline.launchToks cfgs cellOf_inj)

/-- From the launch element: the library's ghost state, and nothing more per core. -/
theorem launchElt_gives :
    (ownU (launchElt) : sProp 𝕄) ⊢ |={Set.univ}=> iprop(BI.own (emb₁ (launchElt)) ∗ bigSep Finset.univ fun _ : Dev nD => (BI.emp : sProp 𝕄)) := by
  iintro Hu; imodintro
  isplitl [Hu]
  · iapply (show (ownU (launchElt) : sProp 𝕄) ⊢ BI.own (emb₁ (launchElt)) from .rfl); iexact Hu
  iapply (show (BI.emp : sProp 𝕄) ⊢ bigSep Finset.univ (fun _ : Dev nD => (BI.emp : sProp 𝕄)) from by rw [BI.bigSep_emp_const])
  iempintro

/-- What the launch deals each core makes the state that rides beside the buffers. -/
theorem beside_at_launch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noLevels levelOf)
      ⊢ (|={Set.univ}=> bigSep Finset.univ (fun c : Dev nD => beside (F := F) c) : sProp 𝕄) := by
  refine Pipeline.initEach noLevels levelOf fun c => ?_
  iintro ⟨⟨-, Howes, -, Hreg, -⟩, -⟩
  imodintro
  isplitl [Hreg]; · iexists _; iexact Hreg
  iexists ∅; iexact Howes

set_option backward.isDefEq.respectTransparency.types false in
/-- THE FRAME of the kernel program, at any float instance: from any memory with zero counters every weakly fair
    execution of @main terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m (Ix := Unit) (U := UR sig nD τ) (Lvl := ℕ) emb₁ () noVariants noLevels levelOf (fun _ _ => rfl) ρ (outs m) (pdats m)
    (0 : Dev nD → CellTallies nD τ sig Unit) (fun _ => iprop(emp)) launchElt launchElt_gives
    (fun _ c => beside c) (beside_at_launch ρ)
    (fun c => by iintro ⟨-, Howes⟩; iexact Howes)
    (normSeg m) (fun c => .rfl) (fun c => by rw [V1_eq]; exact .rfl)
    (pairSeg m) (fun c => by rw [V2_eq]; exact .rfl) (fun c => by rw [V3_eq]; exact .rfl)

end Cert.Kernel.Whole

end
-- ==== Proof.NormBody.lean ====
/- Row normalisation, the body: the first kernel of the program divides every row of a 1024 x 256
   block by the larger of its Euclidean norm and a small positive constant, and stores the quotient
   in the narrower float format. This module runs that body once, on arbitrary whole staging
   memrefs and for every float instance: it loads the whole input block, and its one store covers
   the whole output block with the normalised block. -/
import proofs.«134439_j29841432773048_1_alg».proof.Proof.Gen.KernelIdeal.Launch
import proofs.«134439_j29841432773048_1_alg».proof.Proof.Gen.KernelIdeal.Skeleton
import proofs.«134439_j29841432773048_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.NormRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body on any whole staging memrefs -/

/-- The offsets of the body's one load and one store are zero on both axes: the rectangle is the
    whole 1024 x 256 block. -/
theorem zero_offsets : (![0, 0] : Fin 2 → Nat) = fun _ => 0 := by
  funext a; match a with | ⟨0, _⟩ => rfl | ⟨1, _⟩ => rfl

set_option maxHeartbeats 1000000 in
/-- THE BODY'S TRIPLE. On whole staging memrefs, the input's at contents `x0` and the output's at
    anything, the body runs to its continuation with the input's memref still at `x0` and the
    output's at the normalised block `k0_pay1 x0`: the body loads the whole input block, computes,
    and its one store covers the whole output block, so nothing of the output's earlier contents
    survives (the load of the output before the store is dead). -/
theorem norm_body_run (c : Dev nD) (i : grid0.Coords)
    (arg1 : Memref sig .tc .vmem S1024x256 .f32) (harg1 : arg1.IsWhole)
    (arg2 : Memref sig .tc .vmem S1024x256 .bf16) (harg2 : arg2.IsWhole)
    (x0 : Vec F S1024x256 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap; · iexact H1
  ipureintro
  -- one store through the whole-block rectangle: what is read back is its payload, and the
  -- payload's argument, a load through the same rectangle, is the input's contents
  refine (View.read_writes_eq_canon _ _ _ ?_).trans ?_
  · intro y
    exact ⟨_, List.mem_singleton_self _, View.mem_set_unit_zero zero_offsets inb_S1024x256_S1024x256_0_0 y⟩
  · rw [View.canon_unit_zero zero_offsets, View.readAt_eq_ld, harg1.read_unread,
      View.ld_unit_zero (S := S1024x256) zero_offsets]

end Cert.KernelIdeal.NormRegion

end
-- ==== Proof.NormRegion.lean ====
/- Row normalisation, the region: what the first kernel's pipeline holds point by point, the
   body's obligation at every point, and the region's result read as ONE function of the array it
   was handed — row r of the result is row r mod 1024 of the normalisation of the block of rows
   that holds r, because the eight blocks of 1024 rows tile the 8192 rows and each output block is
   computed from the input's block at the same rows. Everything is stated for every float instance
   and over arbitrary contents `V` of the unscoped buffers at the region's entry. -/
import proofs.«134439_j29841432773048_1_alg».proof.Proof.NormBody
import Idealize.ShloMosaic.Lib.ValueIdx

set_option maxRecDepth 16384

noncomputable section

namespace Cert.KernelIdeal.NormRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2 idx2_lt0 idx2_lt1)

variable {F : FTy → Type} [FloatOps F] [Named F]

local notation "𝕄" => MT nD τ sig Unit (Elt F) ℕ (UR sig nD τ) ℕ

/-! ## What the region holds, point by point -/

variable (V : (c : Dev nD) → (b : Ref sig .tc) → Buf (Elt F) ((c : Thread nD τ).loc b))

/-- Window `w`'s block at point `t`, read off its array as the region finds it (`V`). -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The region's proof data on core `c`: the arrays as the region finds them; after the body at
    point `t` the input's staging buffer still holds the input's block there and the output's holds
    that block normalised; the invariant is the scoped buffers no window stages and the generator
    register, which the body never touches; nothing is owed; full shares. -/
def dat0 (c : Dev nD) : Dat τ (Elt F) Unit ℕ (UR sig nD τ) ℕ cfg0 c where
  A w := V c (Pipeline.arrRef spec0 w)
  after w t := match w with
    | ⟨0, _⟩ => blockAt V c 0 t
    | ⟨1, _⟩ => k0_pay1 (blockAt V c 0 t)
  Φ _ := Pipeline.ΦA spec0 c
  q _ := fullShare
  owed _ := 0

/-- The proof data's arrays are the region-entry contents. -/
theorem A_eq (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blockAt V c 0 t := by dsimp only [dat0]
theorem after0_1 (c : Dev nD) (t : Fin cfg0.N) : (dat0 V c).after 1 t = k0_pay1 (blockAt V c 0 t) := by dsimp only [dat0]

/-- The input's current staging buffer holds the input's block at every point: the body leaves the
    block in place, the window is never idle and its blocks are never clipped. -/
theorem before0_0 (c : Dev nD) (t : Fin cfg0.N) (d) : (dat0 V c).before 0 t d = blockAt V c 0 t :=
  ((dat0 V c).before_in_eq_fetched 0 rfl (fun _ => rfl) (fun _ _ _ => rfl)
    (fun t => by rw [after0_0]; unfold Dat.blockOf blockAt; rw [A_eq]; try rfl) t d).trans
    (by unfold Dat.fetched Dat.blockOf blockAt; rw [A_eq]; try rfl)

/-! ## The body obligation -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the input's memref holds the input's block there, so the body's triple
    applies; the invariant and the tallies pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (norm_body_run c (grid0.coords t) _ _ _ _ (blockAt V c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem norm_body_obligation (c : Dev nD) :
    BodyObligation (dat0 V c) (defs₀ (F := F)) Variants.none () Set.univ := fun t => by
  rw [bigSep_W0, bigSep_W0]
  exact sound_body V c t

/-! ## The region's result as one function of the array it was handed -/

/-- Rows `1024 b` to `1024 b + 1023` of an 8192 x 256 array, as one 1024 x 256 block. -/
def rowBlock (a : S8192x256.Idx → Elt F .f32) (b : Fin 8) : Vec F S1024x256 .f32 :=
  fun y => a (ix2 (n0 := 8192) (n1 := 256) ⟨b.val * 1024 + (y 0).val, by have := idx2_lt0 y; have := b.isLt; omega⟩ (y 1))

/-- THE NORMALISED ARRAY: entry `(r, k)` is entry `(r mod 1024, k)` of the normalisation of the
    block of rows that holds row `r`, the block number `r / 1024`. -/
def normArr (a : S8192x256.Idx → Elt F .f32) : S8192x256.Idx → Elt F .bf16 := fun i =>
  k0_pay1 (rowBlock a ⟨(i 0).val / 1024, by have := idx2_lt0 i; omega⟩)
    (ix2 (n0 := 1024) (n1 := 256) ⟨(i 0).val % 1024, Nat.mod_lt _ (by decide)⟩ (i 1))

/-- The normalised array at row `1024 b + j₀`, column `j₁`, is the normalised block `b` at `(j₀, j₁)`:
    division and remainder by 1024 recover the block and the row inside it. -/
theorem normArr_at (a : S8192x256.Idx → Elt F .f32) (b : ℕ) (hb : b < 8) (j : S1024x256.Idx) (i : S8192x256.Idx)
    (h0 : (i 0).val = b * 1024 + (j 0).val) (h1 : (i 1).val = (j 1).val)
    (x : Vec F S1024x256 .f32) (hx : x = rowBlock a ⟨b, hb⟩) :
    normArr a i = k0_pay1 x j := by
  subst hx
  have hj0 := idx2_lt0 j
  have hq : (i 0).val / 1024 = b := by omega
  subst hq
  have hj : ix2 (n0 := 1024) (n1 := 256) ⟨(i 0).val % 1024, Nat.mod_lt _ (by decide)⟩ (i 1) = j := by
    funext d
    match d with
    | ⟨0, _⟩ => exact Fin.ext (by show (i 0).val % 1024 = (j 0).val; omega)
    | ⟨1, _⟩ => exact Fin.ext h1
  exact congrArg (k0_pay1 (rowBlock a ⟨(i 0).val / 1024, hb⟩)) hj

/-- The printed index maps over the eight points: both windows' block at point `t` is block `t` of
    rows, all columns. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- WHAT POINT `t` WRITES BACK is block `t` of the normalised array of the input as the region
    finds it: the output's block and the input's block sit at the same rows. -/
theorem flushed_eq (c : Dev nD) (t : Fin cfg0.N) :
    (dat0 V c).flushed 1 t = ((cfg0.win 1).blk t).view.read (Elt F) (normArr (V c main_arg0)) := by
  show (cfg0.win 1).cut (grid0.coords t) ((dat0 V c).after 1 t) = _
  rw [after0_1]
  obtain ⟨e00, e01, e10, e11⟩ := index_facts t
  have hN : t.val < 8 := lt_of_lt_of_eq t.isLt (show cfg0.N = 8 from N_0)
  funext j
  show k0_pay1 (blockAt V c 0 t) j = normArr (V c main_arg0) (((cfg0.win 1).blk t).view.emb j)
  refine (normArr_at (V c main_arg0) t.val hN j (((cfg0.win 1).blk t).view.emb j) ?_ ?_ (blockAt V c 0 t) ?_).symm
  · show win0_1.index t (0 : Fin 2) * 1024 + 1 * (j 0).val = t.val * 1024 + (j 0).val; omega
  · show win0_1.index t (1 : Fin 2) * 256 + 1 * (j 1).val = (j 1).val; omega
  · funext y
    show V c main_arg0 (((cfg0.win 0).blk t).view.emb y) = V c main_arg0 _
    refine congrArg (V c main_arg0) ?_
    funext a; apply Fin.ext
    match a with
    | ⟨0, _⟩ => show win0_0.index t (0 : Fin 2) * 1024 + 1 * (y 0).val = t.val * 1024 + (y 0).val; omega
    | ⟨1, _⟩ => show win0_0.index t (1 : Fin 2) * 256 + 1 * (y 1).val = (y 1).val; omega

/-- An index of the array is in point `t`'s block iff each coordinate is in the block's range on its axis. -/
theorem mem_blk (t : Fin cfg0.N) (i : S8192x256.Idx) :
    i ∈ ((cfg0.win 1).blk t).view.set ↔ ∀ a : Fin 2, win0_1.index t a * S1024x256.size a ≤ (i a).val
      ∧ (i a).val < win0_1.index t a * S1024x256.size a + S1024x256.size a := by
  show i ∈ ((View.whole main_v0).slice (win0_1.rect t)).set ↔ _
  rw [View.set_slice_whole, Rect.mem_set_unit]
  exact Iff.rfl

/-- The eight blocks of 1024 rows tile the 8192 rows: row `r` is in block `r / 1024`. -/
theorem covered (i : S8192x256.Idx) :
    ∃ t : Fin cfg0.N, (cfg0.win 1).flush t = true ∧ i ∈ ((cfg0.win 1).blk t).view.set := by
  have hi0 := idx2_lt0 i
  have hi1 := idx2_lt1 i
  let t : Fin cfg0.N := ⟨(i 0).val / 1024, lt_of_lt_of_eq (by omega) (show (8 : ℕ) = cfg0.N from N_0.symm)⟩
  obtain ⟨e00, e01, e10, e11⟩ := index_facts t
  have ht : t.val = (i 0).val / 1024 := rfl
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 256 ≤ (i 1).val ∧ (i 1).val < win0_1.index t (1 : Fin 2) * 256 + 256; omega

/-- THE REGION'S RESULT: after the last point the output's array is the normalised array of the
    input as the region found it, -/
theorem arr_out (c : Dev nD) : (dat0 V c).arrAt 1 cfg0.N = normArr (V c main_arg0) :=
  (dat0 V c).arrAt_eq_of_cover 1 (normArr (V c main_arg0)) (fun t _ => flushed_eq V c t) covered

/-- and the input's array is as the region found it: an input window is never written back. -/
theorem arr_in (c : Dev nD) : (dat0 V c).arrAt 0 cfg0.N = V c main_arg0 :=
  ((dat0 V c).arrAt_in 0 rfl _).trans (A_eq V c 0)

end Cert.KernelIdeal.NormRegion

end
-- ==== Proof.PairPre.lean ====
/-
  The pair kernel visits the 16 × 16 tiles (i, j) of the N × N similarity matrix, 512 rows by 512 columns each.
  Along a row of tiles it carries three columns of 512 numbers: the sum of exp(similarity · 1/T) over the
  positive pairs met so far, the same sum over the negative pairs, and 0/1 for "a positive pair was met".
  This file names one step of each of the three, as a function of the two feature tiles, the four label and
  speaker tiles and the column carried in, and the two conditions on the column coordinate j under which the
  kernel zeroes the columns (j = 0) and finishes the row (j = 15).
-/
import proofs.«134439_j29841432773048_1_alg».proof.Proof.Gen.KernelIdeal.Launch
import proofs.«134439_j29841432773048_1_alg».proof.Proof.Gen.KernelIdeal.Skeleton
import proofs.«134439_j29841432773048_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.PairRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tile is the first of its row: the column coordinate is 0. -/
abbrev firstCol (i : grid1.Coords) : Prop :=
  (Scalar.cmpi .ne (Scalar.extui (Scalar.cmpi .eq (BitVec.ofNat 32 (i 1).val) 0#32)) 0#32) = 1#1

/-- The tile is the last of its row: the column coordinate is 15. -/
abbrev lastCol (i : grid1.Coords) : Prop := k1_cond2 i = 1#1

/-- exp(similarity · 1/T) on the tile, from the row tile and the column tile of the unit-norm features. -/
abbrev expTile (fi fj : Vec F S512x256 .bf16) : FVec F S512x512 .f32 := k1_pay7 fi fj

/-- The positive pairs of the tile: same label, same speaker, not the diagonal. -/
abbrev posTile (i : grid1.Coords) (lr : Vec F S512x1 .i32) (lc : Vec F S1x512 .i32) (sr : Vec F S512x1 .i32) (sc : Vec F S1x512 .i32) :
    IVec S512x512 1 := k1_pay11 i lr lc sr sc

/-- One step of the positive sum: the column carried in plus the tile's row sums over the positive pairs. -/
def stepNum (i : grid1.Coords) (fi fj : Vec F S512x256 .bf16) (lr : Vec F S512x1 .i32) (lc : Vec F S1x512 .i32)
    (sr : Vec F S512x1 .i32) (sc : Vec F S1x512 .i32) (a : Vec F S512x1 .f32) : Vec F S512x1 .f32 :=
  k1_pay12 (expTile fi fj) (posTile i lr lc sr sc) a

/-- One step of the negative sum: same label, different speaker, not the diagonal. -/
def stepDen (i : grid1.Coords) (fi fj : Vec F S512x256 .bf16) (lr : Vec F S512x1 .i32) (lc : Vec F S1x512 .i32)
    (sr : Vec F S512x1 .i32) (sc : Vec F S1x512 .i32) (a : Vec F S512x1 .f32) : Vec F S512x1 .f32 :=
  k1_pay13 (expTile fi fj) (k1_pay8 lr lc) (k1_pay9 sr sc) (k1_pay10 i) a

/-- One step of "a positive pair was met": the maximum of the column carried in and the tile's 0/1 column. -/
def stepAny (i : grid1.Coords) (lr : Vec F S512x1 .i32) (lc : Vec F S1x512 .i32)
    (sr : Vec F S512x1 .i32) (sc : Vec F S1x512 .i32) (a : Vec F S512x1 .f32) : Vec F S512x1 .f32 :=
  k1_pay14 (posTile i lr lc sr sc) a

/-- The row's loss column from the three finished columns (positive sum, negative sum, met). -/
abbrev lossCol (num den met : Vec F S512x1 .f32) : Vec F S512x1 .f32 := k1_pay2 num den met
/-- The row's 0/1 validity column. -/
abbrev validCol (met : Vec F S512x1 .f32) : Vec F S512x1 .f32 := k1_pay3 met

/-- The offsets ![0, 0] are the zero offsets. -/
theorem zero_off2 : (![0, 0] : Fin 2 → Nat) = fun _ => 0 := by
  funext a; match a with | ⟨0, _⟩ => rfl | ⟨1, _⟩ => rfl

/-- A buffer read back after ONE store through its whole shape holds the stored value, whatever it held before. -/
theorem read_one_whole_store {Val : EltTy → Type} [∀ e, Nonempty (Val e)] {S : Shape} {e : EltTy} {sg : RefSig} {κ : Kind} {sp : Space}
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- After TWO stores through the whole shape the buffer holds the later one's value. -/
theorem read_two_whole_stores {Val : EltTy → Type} [∀ e, Nonempty (Val e)] {S : Shape} {e : EltTy} {sg : RefSig} {κ : Kind} {sp : Space}
    (v : View sg κ sp S e) (f : v.ty.Contents Val) {off off' : Fin S.rank → Nat} (hz : off = fun _ => 0)
    (inb : ∀ a, off a + S.size a ≤ S.size a) (inb' : ∀ a, off' a + S.size a ≤ S.size a) (w w' : S.Idx → Val e) :
    v.read Val (v.writes Val f [(⟨Rect.unit off S.size inb, w⟩ : View.Piece Val S e), ⟨Rect.unit off' S.size inb', w'⟩]) = w := by
  rw [View.read_writes_eq_canon v f _ (fun y => ⟨_, List.mem_cons_self, View.mem_set_unit_zero hz inb y⟩),
    View.canon_cons_unit_zero hz]

end Cert.KernelIdeal.PairRegion

end
-- ==== Proof.PairData.lean ====
/-
  The proof data of the pair kernel's pipeline. At grid point t = 16·i + j the kernel is at tile (i, j). Its six
  inputs are the row tile and the column tile of the unit-norm features and the row and column tiles of the labels
  and of the speaker ids; the three columns it carries along a row of tiles live in scratch buffers, so what they
  hold between two points is part of the invariant: after the body at point t they hold the sums over the column
  tiles 0 … j of row i; before the first tile of a row they may hold anything, because that tile zeroes them.
  The two outputs are written at the last tile of a row only, from the finished columns.
-/
import proofs.«134439_j29841432773048_1_alg».proof.Proof.PairPre
import Idealize.ShloMosaic.Lib.Pipeline.Frame

set_option maxRecDepth 16384

noncomputable section

namespace Cert.KernelIdeal.PairRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried columns: positive sum, negative sum, met. -/
abbrev Cols (F : FTy → Type) [FloatOps F] : Type := Vec F S512x1 .f32 × Vec F S512x1 .f32 × Vec F S512x1 .f32

/-- All three at their zero. -/
def zeroCols : Cols F := (k1_pay4, k1_pay5, k1_pay6)

/-- One step of all three at point `t`, on that point's tiles. -/
def stepCols (c : Dev nD) (t : Fin cfg1.N) (s : Cols F) : Cols F :=
  (stepNum (grid1.coords t) (tile V c 0 t) (tile V c 1 t) (tile V c 2 t) (tile V c 3 t) (tile V c 4 t) (tile V c 5 t) s.1,
   stepDen (grid1.coords t) (tile V c 0 t) (tile V c 1 t) (tile V c 2 t) (tile V c 3 t) (tile V c 4 t) (tile V c 5 t) s.2.1,
   stepAny (grid1.coords t) (tile V c 2 t) (tile V c 3 t) (tile V c 4 t) (tile V c 5 t) s.2.2)

/-- What the three columns hold after the body at position `n`: at the first tile of a row one step from zero,
    elsewhere one step from what the tile before left. -/
def carried (c : Dev nD) : (n : ℕ) → n < cfg1.N → Cols F
  | 0, hn => stepCols V c ⟨0, hn⟩ zeroCols
  | n + 1, hn =>
    if (n + 1) % 16 = 0 then stepCols V c ⟨n + 1, hn⟩ zeroCols
    else stepCols V c ⟨n + 1, hn⟩ (carried c n (Nat.lt_of_succ_lt hn))

theorem carried_first (c : Dev nD) (t : Fin cfg1.N) (h : t.val % 16 = 0) :
    carried V c t.val t.isLt = stepCols V c t zeroCols := by
  obtain ⟨n, hn⟩ := t
  cases n with
  | zero => rfl
  | succ n => exact (if_pos h).trans rfl

theorem carried_next (c : Dev nD) (t : Fin cfg1.N) (h : ¬ t.val % 16 = 0) :
    carried V c t.val t.isLt
      = stepCols V c t (carried V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch columns at given contents, -/
def scratchAt (c : Dev nD) (s : Cols F) : sProp 𝕄 :=
  iprop(owns (c : Thread nD τ) (Memref.whole cc1_scratch0 : Memref sig .tc .vmem S512x1 .f32) fullShare s.1
    ∗ owns (c : Thread nD τ) (Memref.whole cc1_scratch1 : Memref sig .tc .vmem S512x1 .f32) fullShare s.2.1
    ∗ owns (c : Thread nD τ) (Memref.whole cc1_scratch2 : Memref sig .tc .vmem S512x1 .f32) fullShare s.2.2)

/-- and at anything. -/
def scratchAny (c : Dev nD) : sProp 𝕄 :=
  iprop((∃ d, owns (c : Thread nD τ) (Memref.whole cc1_scratch0 : Memref sig .tc .vmem S512x1 .f32) fullShare d)
    ∗ (∃ d, owns (c : Thread nD τ) (Memref.whole cc1_scratch1 : Memref sig .tc .vmem S512x1 .f32) fullShare d)
    ∗ (∃ d, owns (c : Thread nD τ) (Memref.whole cc1_scratch2 : Memref sig .tc .vmem S512x1 .f32) fullShare d))

/-- The other scoped buffers this pipeline stages nothing in (the first kernel's staging buffers), at anything. -/
def idleRest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

theorem pred_lt_of_le {n N : ℕ} (h : n ≤ N) (h0 : ¬ n % 16 = 0) : n - 1 < N := by
  have : n ≠ 0 := fun e => h0 (by rw [e])
  omega

/-- THE INVARIANT before point `t`: within a row of tiles the scratch columns hold what the tile before left;
    before a row's first tile (and after the last point) they hold anything. -/
def inv (c : Dev nD) (t : Fin (cfg1.N + 1)) : sProp 𝕄 :=
  iprop(idleRest (F := F) c ∗
    (if h : t.val % 16 = 0 then scratchAny (F := F) c
     else scratchAt c (carried V c (t.val - 1) (pred_lt_of_le (Nat.le_of_lt_succ t.isLt) h))))

/-- The proof data on core `c`: the arrays as the region finds them; after the body each input's buffer at its tile,
    the outputs' at the loss and validity of the carried columns; the invariant above; nothing owed; the unit-norm
    features, read through two windows, held half and half. -/
def dat1 (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => lossCol (carried V c t.val t.isLt).1 (carried V c t.val t.isLt).2.1 (carried V c t.val t.isLt).2.2
    | ⟨7, _⟩ => validCol (carried V c t.val t.isLt).2.2
  Φ t := inv V c t
  q w := match w with
    | ⟨0, _⟩ => fullShare.left
    | ⟨1, _⟩ => fullShare.right
    | _ => fullShare
  owed _ := 0

theorem A_eq (c : Dev nD) (w : Fin cfg1.W) : (dat1 V c).A w = V c (Pipeline.arrRef spec1 w) := by dsimp only [dat1]

theorem after_0 (c : Dev nD) (t : Fin cfg1.N) : (dat1 V c).after 0 t = tile V c 0 t := by dsimp only [dat1]
theorem after_1 (c : Dev nD) (t : Fin cfg1.N) : (dat1 V c).after 1 t = tile V c 1 t := by dsimp only [dat1]
theorem after_2 (c : Dev nD) (t : Fin cfg1.N) : (dat1 V c).after 2 t = tile V c 2 t := by dsimp only [dat1]
theorem after_3 (c : Dev nD) (t : Fin cfg1.N) : (dat1 V c).after 3 t = tile V c 3 t := by dsimp only [dat1]
theorem after_4 (c : Dev nD) (t : Fin cfg1.N) : (dat1 V c).after 4 t = tile V c 4 t := by dsimp only [dat1]
theorem after_5 (c : Dev nD) (t : Fin cfg1.N) : (dat1 V c).after 5 t = tile V c 5 t := by dsimp only [dat1]
theorem after_6 (c : Dev nD) (t : Fin cfg1.N) :
    (dat1 V c).after 6 t = lossCol (carried V c t.val t.isLt).1 (carried V c t.val t.isLt).2.1 (carried V c t.val t.isLt).2.2 := by dsimp only [dat1]
theorem after_7 (c : Dev nD) (t : Fin cfg1.N) : (dat1 V c).after 7 t = validCol (carried V c t.val t.isLt).2.2 := by dsimp only [dat1]

/-- Input window 0's current buffer holds its tile at every point, fetched there or not. -/
theorem before_0 (c : Dev nD) (t : Fin cfg1.N) (d) : (dat1 V c).before 0 t d = tile V c 0 t :=
  ((dat1 V c).before_in_eq_fetched 0 rfl (fun _ => rfl) (fun _ _ _ => rfl)
    (fun t => by rw [after_0]; unfold Dat.blockOf tile; rw [A_eq]; try rfl) t d).trans
    (by unfold Dat.fetched Dat.blockOf tile; rw [A_eq]; try rfl)
/-- Input window 1's current buffer holds its tile at every point, fetched there or not. -/
theorem before_1 (c : Dev nD) (t : Fin cfg1.N) (d) : (dat1 V c).before 1 t d = tile V c 1 t :=
  ((dat1 V c).before_in_eq_fetched 1 rfl (fun _ => rfl) (fun _ _ _ => rfl)
    (fun t => by rw [after_1]; unfold Dat.blockOf tile; rw [A_eq]; try rfl) t d).trans
    (by unfold Dat.fetched Dat.blockOf tile; rw [A_eq]; try rfl)
/-- Input window 2's current buffer holds its tile at every point, fetched there or not. -/
theorem before_2 (c : Dev nD) (t : Fin cfg1.N) (d) : (dat1 V c).before 2 t d = tile V c 2 t :=
  ((dat1 V c).before_in_eq_fetched 2 rfl (fun _ => rfl) (fun _ _ _ => rfl)
    (fun t => by rw [after_2]; unfold Dat.blockOf tile; rw [A_eq]; try rfl) t d).trans
    (by unfold Dat.fetched Dat.blockOf tile; rw [A_eq]; try rfl)
/-- Input window 3's current buffer holds its tile at every point, fetched there or not. -/
theorem before_3 (c : Dev nD) (t : Fin cfg1.N) (d) : (dat1 V c).before 3 t d = tile V c 3 t :=
  ((dat1 V c).before_in_eq_fetched 3 rfl (fun _ => rfl) (fun _ _ _ => rfl)
    (fun t => by rw [after_3]; unfold Dat.blockOf tile; rw [A_eq]; try rfl) t d).trans
    (by unfold Dat.fetched Dat.blockOf tile; rw [A_eq]; try rfl)
/-- Input window 4's current buffer holds its tile at every point, fetched there or not. -/
theorem before_4 (c : Dev nD) (t : Fin cfg1.N) (d) : (dat1 V c).before 4 t d = tile V c 4 t :=
  ((dat1 V c).before_in_eq_fetched 4 rfl (fun _ => rfl) (fun _ _ _ => rfl)
    (fun t => by rw [after_4]; unfold Dat.blockOf tile; rw [A_eq]; try rfl) t d).trans
    (by unfold Dat.fetched Dat.blockOf tile; rw [A_eq]; try rfl)
/-- Input window 5's current buffer holds its tile at every point, fetched there or not. -/
theorem before_5 (c : Dev nD) (t : Fin cfg1.N) (d) : (dat1 V c).before 5 t d = tile V c 5 t :=
  ((dat1 V c).before_in_eq_fetched 5 rfl (fun _ => rfl) (fun _ _ _ => rfl)
    (fun t => by rw [after_5]; unfold Dat.blockOf tile; rw [A_eq]; try rfl) t d).trans
    (by unfold Dat.fetched Dat.blockOf tile; rw [A_eq]; try rfl)

end Cert.KernelIdeal.PairRegion

end
-- ==== Proof.PairRunInner.lean ====
/-
  The pair kernel's body at a tile that is neither the first nor the last of its row: the three carried columns
  are each advanced by one step and nothing else is written.
-/
import proofs.«134439_j29841432773048_1_alg».proof.Proof.PairPre

set_option maxRecDepth 16384

noncomputable section

namespace Cert.KernelIdeal.PairRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- On whole staging and scratch buffers, the six input tiles at `x2 … x7` and the carried columns at `s10 s11 s12`,
    the body at an inner tile of a row runs to the end, the inputs as they were and each carried column one step on. -/
theorem run_inner (c : Dev nD) (i : grid1.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S512x1 .i32) (h6 : a6.IsWhole) (a7 : Memref sig .tc .vmem S1x512 .i32) (h7 : a7.IsWhole)
    (a8 : Memref sig .tc .vmem S512x1 .f32) (h8 : a8.IsWhole) (a9 : Memref sig .tc .vmem S512x1 .f32) (h9 : a9.IsWhole)
    (a10 : Memref sig .tc .vmem S512x1 .f32) (h10 : a10.IsWhole) (a11 : Memref sig .tc .vmem S512x1 .f32) (h11 : a11.IsWhole)
    (a12 : Memref sig .tc .vmem S512x1 .f32) (h12 : a12.IsWhole)
    (hc1 : ¬ firstCol i) (hc2 : ¬ lastCol i)
    (x2 x3 : Vec F S512x256 .bf16) (x4 : Vec F S512x1 .i32) (x5 : Vec F S1x512 .i32) (x6 : Vec F S512x1 .i32) (x7 : Vec F S1x512 .i32)
    (s10 s11 s12 : Vec F S512x1 .f32) (E : Set ℕ) (K : PUnit → sProp 𝕄) :
    iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ owns (c : Thread nD τ) a10 fullShare s10 ∗ owns (c : Thread nD τ) a11 fullShare s11 ∗ owns (c : Thread nD τ) a12 fullShare s12
            ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
                ∗ owns (c : Thread nD τ) a10 fullShare (stepNum i x2 x3 x4 x5 x6 x7 s10)
                ∗ owns (c : Thread nD τ) a11 fullShare (stepDen i x2 x3 x4 x5 x6 x7 s11)
                ∗ owns (c : Thread nD τ) a12 fullShare (stepAny i x4 x5 x6 x7 s12)) -∗ K ⟨⟩))
      ⊢ wp frame (wpE (defs₀ (F := F)) Variants.none c none) E (cc1__ntxent_kernel i a2 h2 a3 h3 a4 h4 a5 h5 a6 h6 a7 h7 a8 h8 a9 h9 a10 h10 a11 h11 a12 h12) K := by
  simp only [cc1__ntxent_kernel_eq_skeleton, k1_part1_eq_skeleton, k1_part2_eq_skeleton]
  unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%f11, %hf11, H11⟩, ⟨%f12, %hf12, H12⟩, Hk⟩
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h10.eq_unread hf10
  obtain rfl := h11.eq_unread hf11
  obtain rfl := h12.eq_unread hf12
  sl_exec (disch := first | exact hc1 | exact hc2)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H10]
  · iexists _; isplitr; swap; · iexact H10
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H11]
  · iexists _; isplitr; swap; · iexact H11
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  · iexists _; isplitr; swap; · iexact H12
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)

end Cert.KernelIdeal.PairRegion

end
-- ==== Proof.PairRunFirst.lean ====
/-
  The pair kernel's body at the FIRST tile of a row: whatever the three carried columns held, they are set to
  zero and then advanced by one step.
-/
import proofs.«134439_j29841432773048_1_alg».proof.Proof.PairPre

set_option maxRecDepth 16384

noncomputable section

namespace Cert.KernelIdeal.PairRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- On whole staging and scratch buffers, the six input tiles at `x2 … x7` and the carried columns at anything,
    the body at the first tile of a row runs to the end, the inputs as they were and each carried column at one
    step from its zero. -/
theorem run_first (c : Dev nD) (i : grid1.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S512x1 .i32) (h6 : a6.IsWhole) (a7 : Memref sig .tc .vmem S1x512 .i32) (h7 : a7.IsWhole)
    (a8 : Memref sig .tc .vmem S512x1 .f32) (h8 : a8.IsWhole) (a9 : Memref sig .tc .vmem S512x1 .f32) (h9 : a9.IsWhole)
    (a10 : Memref sig .tc .vmem S512x1 .f32) (h10 : a10.IsWhole) (a11 : Memref sig .tc .vmem S512x1 .f32) (h11 : a11.IsWhole)
    (a12 : Memref sig .tc .vmem S512x1 .f32) (h12 : a12.IsWhole)
    (hc1 : firstCol i) (hc2 : ¬ lastCol i)
    (x2 x3 : Vec F S512x256 .bf16) (x4 : Vec F S512x1 .i32) (x5 : Vec F S1x512 .i32) (x6 : Vec F S512x1 .i32) (x7 : Vec F S1x512 .i32) (E : Set ℕ) (K : PUnit → sProp 𝕄) :
    iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ (∃ d, owns (c : Thread nD τ) a10 fullShare d) ∗ (∃ d, owns (c : Thread nD τ) a11 fullShare d) ∗ (∃ d, owns (c : Thread nD τ) a12 fullShare d)
            ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
                ∗ owns (c : Thread nD τ) a10 fullShare (stepNum i x2 x3 x4 x5 x6 x7 k1_pay4)
                ∗ owns (c : Thread nD τ) a11 fullShare (stepDen i x2 x3 x4 x5 x6 x7 k1_pay5)
                ∗ owns (c : Thread nD τ) a12 fullShare (stepAny i x4 x5 x6 x7 k1_pay6)) -∗ K ⟨⟩))
      ⊢ wp frame (wpE (defs₀ (F := F)) Variants.none c none) E (cc1__ntxent_kernel i a2 h2 a3 h3 a4 h4 a5 h5 a6 h6 a7 h7 a8 h8 a9 h9 a10 h10 a11 h11 a12 h12) K := by
  simp only [cc1__ntxent_kernel_eq_skeleton, k1_part1_eq_skeleton, k1_part2_eq_skeleton]
  unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%d12, %f12, -, H12⟩, Hk⟩
  obtain rfl := h2.eq_unread hf2
  obtain rfl := h3.eq_unread hf3
  obtain rfl := h4.eq_unread hf4
  obtain rfl := h5.eq_unread hf5
  obtain rfl := h6.eq_unread hf6
  obtain rfl := h7.eq_unread hf7
  sl_exec (disch := first | exact hc1 | exact hc2)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H10]
  · iexists _; isplitr; swap; · iexact H10
    ipureintro
    refine (read_two_whole_stores _ _ zero_off2 _ _ _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H11]
  · iexists _; isplitr; swap; · iexact H11
    ipureintro
    refine (read_two_whole_stores _ _ zero_off2 _ _ _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  · iexists _; isplitr; swap; · iexact H12
    ipureintro
    refine (read_two_whole_stores _ _ zero_off2 _ _ _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)

end Cert.KernelIdeal.PairRegion

end
-- ==== Proof.PairRunLast.lean ====
/-
  The pair kernel's body at the LAST tile of a row: the three carried columns are advanced by one step, and from
  the finished columns the row's loss column and its 0/1 validity column are written to the two output tiles.
-/
import proofs.«134439_j29841432773048_1_alg».proof.Proof.PairPre

set_option maxRecDepth 16384

noncomputable section

namespace Cert.KernelIdeal.PairRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- On whole staging and scratch buffers, the six input tiles at `x2 … x7`, the carried columns at `s10 s11 s12`
    and the two output tiles at anything, the body at the last tile of a row runs to the end: the inputs as they
    were, each carried column one step on, and the outputs at the loss and validity of the finished columns. -/
theorem run_last (c : Dev nD) (i : grid1.Coords)
    (a2 : Memref sig .tc .vmem S512x256 .bf16) (h2 : a2.IsWhole) (a3 : Memref sig .tc .vmem S512x256 .bf16) (h3 : a3.IsWhole)
    (a4 : Memref sig .tc .vmem S512x1 .i32) (h4 : a4.IsWhole) (a5 : Memref sig .tc .vmem S1x512 .i32) (h5 : a5.IsWhole)
    (a6 : Memref sig .tc .vmem S512x1 .i32) (h6 : a6.IsWhole) (a7 : Memref sig .tc .vmem S1x512 .i32) (h7 : a7.IsWhole)
    (a8 : Memref sig .tc .vmem S512x1 .f32) (h8 : a8.IsWhole) (a9 : Memref sig .tc .vmem S512x1 .f32) (h9 : a9.IsWhole)
    (a10 : Memref sig .tc .vmem S512x1 .f32) (h10 : a10.IsWhole) (a11 : Memref sig .tc .vmem S512x1 .f32) (h11 : a11.IsWhole)
    (a12 : Memref sig .tc .vmem S512x1 .f32) (h12 : a12.IsWhole)
    (hc1 : ¬ firstCol i) (hc2 : lastCol i)
    (x2 x3 : Vec F S512x256 .bf16) (x4 : Vec F S512x1 .i32) (x5 : Vec F S1x512 .i32) (x6 : Vec F S512x1 .i32) (x7 : Vec F S1x512 .i32)
    (s10 s11 s12 : Vec F S512x1 .f32) (E : Set ℕ) (K : PUnit → sProp 𝕄) :
    iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ (∃ d, owns (c : Thread nD τ) a8 fullShare d) ∗ (∃ d, owns (c : Thread nD τ) a9 fullShare d)
            ∗ owns (c : Thread nD τ) a10 fullShare s10 ∗ owns (c : Thread nD τ) a11 fullShare s11 ∗ owns (c : Thread nD τ) a12 fullShare s12
            ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
                ∗ owns (c : Thread nD τ) a8 fullShare (lossCol (stepNum i x2 x3 x4 x5 x6 x7 s10) (stepDen i x2 x3 x4 x5 x6 x7 s11) (stepAny i x4 x5 x6 x7 s12))
                ∗ owns (c : Thread nD τ) a9 fullShare (validCol (stepAny i x4 x5 x6 x7 s12))
                ∗ owns (c : Thread nD τ) a10 fullShare (stepNum i x2 x3 x4 x5 x6 x7 s10)
                ∗ owns (c : Thread nD τ) a11 fullShare (stepDen i x2 x3 x4 x5 x6 x7 s11)
                ∗ owns (c : Thread nD τ) a12 fullShare (stepAny i x4 x5 x6 x7 s12)) -∗ K ⟨⟩))
      ⊢ wp frame (wpE (defs₀ (F := F)) Variants.none c none) E (cc1__ntxent_kernel i a2 h2 a3 h3 a4 h4 a5 h5 a6 h6 a7 h7 a8 h8 a9 h9 a10 h10 a11 h11 a12 h12) K := by
  simp only [cc1__ntxent_kernel_eq_skeleton, k1_part1_eq_skeleton, k1_part2_eq_skeleton]
  unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
  obtain rfl := h2.eq_unread hf2
  obtain rfl := h3.eq_unread hf3
  obtain rfl := h4.eq_unread hf4
  obtain rfl := h5.eq_unread hf5
  obtain rfl := h6.eq_unread hf6
  obtain rfl := h7.eq_unread hf7
  obtain rfl := h10.eq_unread hf10
  obtain rfl := h11.eq_unread hf11
  obtain rfl := h12.eq_unread hf12
  sl_exec (disch := first | exact hc1 | exact hc2)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]
  · iexists _; isplitr; swap; · iexact H8
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H9]
  · iexists _; isplitr; swap; · iexact H9
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H10]
  · iexists _; isplitr; swap; · iexact H10
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  isplitl [H11]
  · iexists _; isplitr; swap; · iexact H11
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)
  · iexists _; isplitr; swap; · iexact H12
    ipureintro
    refine (read_one_whole_store _ _ zero_off2 _ _).trans ?_
    sl_unfold_run_names
    simp only [View.readAt_eq_ld, h2.read_unread, h3.read_unread, h4.read_unread, h5.read_unread, h6.read_unread, h7.read_unread,
      h10.read_unread, h11.read_unread, h12.read_unread, View.ld_unit_zero (S := S512x1) zero_off2, View.ld_unit_zero (S := S1x512) zero_off2, View.ld_unit_zero (S := S512x256) zero_off2,
      View.readCov_unit_zero (S := S512x1) _ zero_off2]
    first | rfl | (unfold stepNum stepDen stepAny; rfl)

end Cert.KernelIdeal.PairRegion

end
-- ==== Proof.PairBody.lean ====
/-
  The pair kernel's body obligation: at every grid point, from the invariant and the eight windows' current buffers
  at what they then hold, the body runs to the invariant at the next point and the buffers at what the proof data
  says it leaves. The point is the first, an inner or the last tile of its row of tiles; each case is the body's
  run for that case, with the scratch columns passing through the invariant.
-/
import proofs.«134439_j29841432773048_1_alg».proof.Proof.PairData
import proofs.«134439_j29841432773048_1_alg».proof.Proof.PairRunInner
import proofs.«134439_j29841432773048_1_alg».proof.Proof.PairRunFirst
import proofs.«134439_j29841432773048_1_alg».proof.Proof.PairRunLast

set_option maxRecDepth 16384

noncomputable section

namespace Cert.KernelIdeal.PairRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The column coordinate of point t = 16·i + j is j: the first-tile condition holds where j = 0, -/
theorem first_iff : ∀ t : Fin cfg1.N, firstCol (grid1.coords t) ↔ t.val % 16 = 0 :=
  (by decide +kernel : ∀ t : Fin grid1.N, firstCol (grid1.coords t) ↔ t.val % 16 = 0)
/-- and the last-tile condition where j = 15. -/
theorem last_iff : ∀ t : Fin cfg1.N, lastCol (grid1.coords t) ↔ t.val % 16 = 15 :=
  (by decide +kernel : ∀ t : Fin grid1.N, lastCol (grid1.coords t) ↔ t.val % 16 = 15)

/-! ## The invariant around a point -/

theorem inv_before_first (c : Dev nD) (t : Fin cfg1.N) (h : t.val % 16 = 0) :
    inv V c t.castSucc = iprop(idleRest (F := F) c ∗ scratchAny (F := F) c) := by
  unfold inv; rw [dif_pos (show t.castSucc.val % 16 = 0 from h)]

theorem inv_before_later (c : Dev nD) (t : Fin cfg1.N) (h : ¬ t.val % 16 = 0) :
    inv V c t.castSucc = iprop(idleRest (F := F) c
      ∗ scratchAt c (carried V c (t.val - 1) (Nat.lt_of_le_of_lt (Nat.sub_le _ _) t.isLt))) := by
  unfold inv; rw [dif_neg (show ¬ t.castSucc.val % 16 = 0 from h)]
  rfl

theorem inv_after_inner (c : Dev nD) (t : Fin cfg1.N) (h : ¬ t.val % 16 = 15) :
    inv V c t.succ = iprop(idleRest (F := F) c ∗ scratchAt c (carried V c t.val t.isLt)) := by
  unfold inv; rw [dif_neg (show ¬ t.succ.val % 16 = 0 from by rw [Fin.val_succ]; omega)]
  rfl

theorem inv_after_last (c : Dev nD) (t : Fin cfg1.N) (h : t.val % 16 = 15) :
    inv V c t.succ = iprop(idleRest (F := F) c ∗ scratchAny (F := F) c) := by
  unfold inv; rw [dif_pos (show t.succ.val % 16 = 0 from by rw [Fin.val_succ]; omega)]

/-! ## What the two output windows are left at -/

/-- An output window's buffer after the body: written at the last tile of a row, handed back as found elsewhere. -/
def leavesOut (c : Dev nD) (w : Fin cfg1.W) (t : Fin cfg1.N) : sProp 𝕄 :=
  match cfg1.idle w (cfg1.grid.coords t) with
  | true =>
    match (cfg1.win w).flush t with
    | false => iprop(∃ d, owns (c : Thread nD τ) ((cfg1.win w).stage (cfg1.slots t w)) fullShare ((dat1 V c).before w t d))
    | true => owns (c : Thread nD τ) ((cfg1.win w).stage (cfg1.slots t w)) fullShare ((dat1 V c).after w t)
  | false => owns (c : Thread nD τ) ((cfg1.win w).stage (cfg1.slots t w)) fullShare ((dat1 V c).after w t)

theorem idle6_iff (t : Fin cfg1.N) : cfg1.idle 6 (cfg1.grid.coords t) = !(decide (t.val % 16 = 15)) :=
  (by decide +kernel : ∀ t : Fin grid1.N, cfg1.idle 6 (cfg1.grid.coords t) = !(decide (t.val % 16 = 15))) t
theorem idle7_iff (t : Fin cfg1.N) : cfg1.idle 7 (cfg1.grid.coords t) = !(decide (t.val % 16 = 15)) :=
  (by decide +kernel : ∀ t : Fin grid1.N, cfg1.idle 7 (cfg1.grid.coords t) = !(decide (t.val % 16 = 15))) t

theorem leavesOut6_last (c : Dev nD) (t : Fin cfg1.N) (h : t.val % 16 = 15) :
    leavesOut V c 6 t = owns (c : Thread nD τ) ((cfg1.win 6).stage (cfg1.slots t 6)) fullShare ((dat1 V c).after 6 t) := by
  unfold leavesOut; rw [idle6_iff, decide_eq_true h]; rfl
theorem leavesOut7_last (c : Dev nD) (t : Fin cfg1.N) (h : t.val % 16 = 15) :
    leavesOut V c 7 t = owns (c : Thread nD τ) ((cfg1.win 7).stage (cfg1.slots t 7)) fullShare ((dat1 V c).after 7 t) := by
  unfold leavesOut; rw [idle7_iff, decide_eq_true h]; rfl
theorem leavesOut6_other (c : Dev nD) (t : Fin cfg1.N) (h : ¬ t.val % 16 = 15) :
    leavesOut V c 6 t = iprop(∃ d, owns (c : Thread nD τ) ((cfg1.win 6).stage (cfg1.slots t 6)) fullShare ((dat1 V c).before 6 t d)) := by
  unfold leavesOut
  rw [idle6_iff, decide_eq_false h, show (cfg1.win 6).flush t = false from Bool.eq_false_iff.mpr fun hf => h ((flush1_6 t).mp hf)]
  rfl
theorem leavesOut7_other (c : Dev nD) (t : Fin cfg1.N) (h : ¬ t.val % 16 = 15) :
    leavesOut V c 7 t = iprop(∃ d, owns (c : Thread nD τ) ((cfg1.win 7).stage (cfg1.slots t 7)) fullShare ((dat1 V c).before 7 t d)) := by
  unfold leavesOut
  rw [idle7_iff, decide_eq_false h, show (cfg1.win 7).flush t = false from Bool.eq_false_iff.mpr fun hf => h ((flush1_7 t).mp hf)]
  rfl

/-! ## The obligation at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) ((cfg1.win 0).stage (cfg1.slots t 0)) fullShare ((dat1 V c).before 0 t d))
    ∗ (∃ d, owns (c : Thread nD τ) ((cfg1.win 1).stage (cfg1.slots t 1)) fullShare ((dat1 V c).before 1 t d))
    ∗ (∃ d, owns (c : Thread nD τ) ((cfg1.win 2).stage (cfg1.slots t 2)) fullShare ((dat1 V c).before 2 t d))
    ∗ (∃ d, owns (c : Thread nD τ) ((cfg1.win 3).stage (cfg1.slots t 3)) fullShare ((dat1 V c).before 3 t d))
    ∗ (∃ d, owns (c : Thread nD τ) ((cfg1.win 4).stage (cfg1.slots t 4)) fullShare ((dat1 V c).before 4 t d))
    ∗ (∃ d, owns (c : Thread nD τ) ((cfg1.win 5).stage (cfg1.slots t 5)) fullShare ((dat1 V c).before 5 t d))
    ∗ (∃ d, owns (c : Thread nD τ) ((cfg1.win 6).stage (cfg1.slots t 6)) fullShare ((dat1 V c).before 6 t d))
    ∗ (∃ d, owns (c : Thread nD τ) ((cfg1.win 7).stage (cfg1.slots t 7)) fullShare ((dat1 V c).before 7 t d)))

/-- and what it returns. -/
def bodyPost (c : Dev nD) (t : Fin cfg1.N) : sProp 𝕄 :=
  iprop((dat1 V c).Φ t.succ ∗ (dat1 V c).owesAt () t.succ
    ∗ owns (c : Thread nD τ) ((cfg1.win 0).stage (cfg1.slots t 0)) fullShare ((dat1 V c).after 0 t)
    ∗ owns (c : Thread nD τ) ((cfg1.win 1).stage (cfg1.slots t 1)) fullShare ((dat1 V c).after 1 t)
    ∗ owns (c : Thread nD τ) ((cfg1.win 2).stage (cfg1.slots t 2)) fullShare ((dat1 V c).after 2 t)
    ∗ owns (c : Thread nD τ) ((cfg1.win 3).stage (cfg1.slots t 3)) fullShare ((dat1 V c).after 3 t)
    ∗ owns (c : Thread nD τ) ((cfg1.win 4).stage (cfg1.slots t 4)) fullShare ((dat1 V c).after 4 t)
    ∗ owns (c : Thread nD τ) ((cfg1.win 5).stage (cfg1.slots t 5)) fullShare ((dat1 V c).after 5 t)
    ∗ leavesOut V c 6 t ∗ leavesOut V c 7 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat1 V c).owesAt () t.succ = (dat1 V c).owesAt () t.castSucc from rfl,
    after_0, after_1, after_2, after_3, after_4, after_5,
    show (dat1 V c).Φ t.castSucc = inv V c t.castSucc from rfl, show (dat1 V c).Φ t.succ = inv V c t.succ from rfl]
  by_cases h0 : t.val % 16 = 0
  · -- the first tile of a row
    have h15 : ¬ t.val % 16 = 15 := by omega
    have hc1 : firstCol (grid1.coords t) := (first_iff t).mpr h0
    have hc2 : ¬ lastCol (grid1.coords t) := fun h => h15 ((last_iff t).mp h)
    rw [inv_before_first V c t h0, inv_after_inner V c t h15, leavesOut6_other V c t h15, leavesOut7_other V c t h15,
      carried_first V c t h0]
    unfold scratchAny scratchAt stepCols zeroCols
    iintro ⟨⟨Hrest, Hs10, Hs11, Hs12⟩, Ho, ⟨%d0, H0⟩, ⟨%d1, H1⟩, ⟨%d2, H2⟩, ⟨%d3, H3⟩, ⟨%d4, H4⟩, ⟨%d5, H5⟩, H6, H7⟩
    iapply (run_first c (grid1.coords t) _ _ _ _ _ _ _ _ _ _ _ _ _ _ _ _ _ _ _ _ _ _ hc1 hc2
      (tile V c 0 t) (tile V c 1 t) (tile V c 2 t) (tile V c 3 t) (tile V c 4 t) (tile V c 5 t) Set.univ _)
    isplitl [H0]; · iexact H0
    isplitl [H1]; · iexact H1
    isplitl [H2]; · iexact H2
    isplitl [H3]; · iexact H3
    isplitl [H4]; · iexact H4
    isplitl [H5]; · iexact H5
    isplitl [Hs10]; · iexact Hs10
    isplitl [Hs11]; · iexact Hs11
    isplitl [Hs12]; · iexact Hs12
    iintro ⟨H0, H1, H2, H3, H4, H5, Hs10, Hs11, Hs12⟩
    isplitl [Hrest Hs10 Hs11 Hs12]
    · isplitl [Hrest]; · iexact Hrest
      isplitl [Hs10]; · iexact Hs10
      isplitl [Hs11]; · iexact Hs11
      iexact Hs12
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h15 : t.val % 16 = 15
    · -- the last tile of a row
      have hc1 : ¬ firstCol (grid1.coords t) := fun h => h0 ((first_iff t).mp h)
      have hc2 : lastCol (grid1.coords t) := (last_iff t).mpr h15
      rw [inv_before_later V c t h0, inv_after_last V c t h15, leavesOut6_last V c t h15, leavesOut7_last V c t h15,
        after_6, after_7, carried_next V c t h0]
      unfold scratchAny scratchAt stepCols
      iintro ⟨⟨Hrest, Hs10, Hs11, Hs12⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid1.coords t) _ _ _ _ _ _ _ _ _ _ _ _ _ _ _ _ _ _ _ _ _ _ hc1 hc2
        (tile V c 0 t) (tile V c 1 t) (tile V c 2 t) (tile V c 3 t) (tile V c 4 t) (tile V c 5 t)
        (carried V c (t.val - 1) (Nat.lt_of_le_of_lt (Nat.sub_le _ _) t.isLt)).1 (carried V c (t.val - 1) (Nat.lt_of_le_of_lt (Nat.sub_le _ _) t.isLt)).2.1 (carried V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [Hs10]; · iexact Hs10
      isplitl [Hs11]; · iexact Hs11
      isplitl [Hs12]; · iexact Hs12
      iintro ⟨H0, H1, H2, H3, H4, H5, H6, H7, Hs10, Hs11, Hs12⟩
      isplitl [Hrest Hs10 Hs11 Hs12]
      · isplitl [Hrest]; · iexact Hrest
        isplitl [Hs10]; · iexists _; iexact Hs10
        isplitl [Hs11]; · iexists _; iexact Hs11
        iexists _; iexact Hs12
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- an inner tile
      have hc1 : ¬ firstCol (grid1.coords t) := fun h => h0 ((first_iff t).mp h)
      have hc2 : ¬ lastCol (grid1.coords t) := fun h => h15 ((last_iff t).mp h)
      rw [inv_before_later V c t h0, inv_after_inner V c t h15, leavesOut6_other V c t h15, leavesOut7_other V c t h15,
        carried_next V c t h0]
      unfold scratchAt stepCols
      iintro ⟨⟨Hrest, Hs10, Hs11, Hs12⟩, Ho, ⟨%d0, H0⟩, ⟨%d1, H1⟩, ⟨%d2, H2⟩, ⟨%d3, H3⟩, ⟨%d4, H4⟩, ⟨%d5, H5⟩, H6, H7⟩
      iapply (run_inner c (grid1.coords t) _ _ _ _ _ _ _ _ _ _ _ _ _ _ _ _ _ _ _ _ _ _ hc1 hc2
        (tile V c 0 t) (tile V c 1 t) (tile V c 2 t) (tile V c 3 t) (tile V c 4 t) (tile V c 5 t)
        (carried V c (t.val - 1) (Nat.lt_of_le_of_lt (Nat.sub_le _ _) t.isLt)).1 (carried V c (t.val - 1) (Nat.lt_of_le_of_lt (Nat.sub_le _ _) t.isLt)).2.1 (carried V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [Hs10]; · iexact Hs10
      isplitl [Hs11]; · iexact Hs11
      isplitl [Hs12]; · iexact Hs12
      iintro ⟨H0, H1, H2, H3, H4, H5, Hs10, Hs11, Hs12⟩
      isplitl [Hrest Hs10 Hs11 Hs12]
      · isplitl [Hrest]; · iexact Hrest
        isplitl [Hs10]; · iexact Hs10
        isplitl [Hs11]; · iexact Hs11
        iexact Hs12
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dat1 V c) (defs₀ (F := F)) Variants.none () Set.univ := fun t => by
  rw [bigSep_W1, bigSep_W1]
  exact sound_body V c t

end Cert.KernelIdeal.PairRegion

end
-- ==== Proof.Boundary.lean ====
/-
  The program between its items. @main is: the normalising kernel, four reshapes of the labels and speaker ids, the
  pair kernel, and the closing host lines. This file names what the unscoped buffers hold at each boundary as a
  function of the launch memory: the normalising kernel leaves the unit-norm features in its output array, the pair
  kernel leaves each row's loss and validity in its two, and nothing else changes but what the host lines write.
-/
import proofs.«134439_j29841432773048_1_alg».proof.Proof.NormRegion
import proofs.«134439_j29841432773048_1_alg».proof.Proof.PairBody
import proofs.«134439_j29841432773048_1_alg».proof.Proof.Gen.KernelIdeal.Regions

set_option maxRecDepth 16384

noncomputable section

namespace Cert.KernelIdeal.Whole

open Cert.KernelIdeal Cert.KernelIdeal.Gen Cert.KernelIdeal.NormRegion Cert.KernelIdeal.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The unscoped buffers at launch, read at the TensorCore's references: what the normalising kernel is entered from. -/
abbrev atLaunch : (c : Dev nD) → (b : Ref sig .tc) → Buf (Elt F) ((c : Thread nD τ).loc b) := fun c b => Gen.V0 m c b

/-- The unit-norm features: what the normalising kernel leaves in its output array. -/
def unitFeatures (c : Dev nD) : Buf (Elt F) ((c : Thread nD τ).loc main_v0) := (dat0 (atLaunch m) c).arrAt 1 cfg0.N

/-- The unscoped buffers after the normalising kernel, -/
abbrev afterNorm (c : Dev nD) : Valuation τ sig (Elt F) := Function.update (Gen.V0 m c) main_v0 (unitFeatures m c)
/-- and after the four reshapes: what the pair kernel is entered from. -/
abbrev beforePair (c : Dev nD) : Valuation τ sig (Elt F) := StableHlo.after hostOps1 (afterNorm m c)
/-- The same read at the TensorCore's references. -/
abbrev atPair : (c : Dev nD) → (b : Ref sig .tc) → Buf (Elt F) ((c : Thread nD τ).loc b) := fun c b => beforePair m c b

/-- Each row's loss, -/
def rowLossArr (c : Dev nD) : Buf (Elt F) ((c : Thread nD τ).loc main_v5_0) := (dat1 (atPair m) c).arrAt 6 cfg1.N
/-- and each row's 0/1 validity: what the pair kernel leaves in its two output arrays. -/
def rowValidArr (c : Dev nD) : Buf (Elt F) ((c : Thread nD τ).loc main_v5_1) := (dat1 (atPair m) c).arrAt 7 cfg1.N

/-- What the two kernels leave in the buffers they may change, in the form the program's frame is stated over. -/
def outs : Gen.Outs (F := F) := fun J r c =>
  match J with
  | 1 => Function.update (fun b : Ref sig .tc => m ((c : Thread nD τ).loc b)) main_v0 (unitFeatures m c) r
  | 3 => Function.update (Function.update (fun b : Ref sig .tc => m ((c : Thread nD τ).loc b)) main_v5_0 (rowLossArr m c))
          main_v5_1 (rowValidArr m c) r
  | _ => m ((c : Thread nD τ).loc r)

theorem outs_norm (c : Dev nD) : outs m 1 main_v0 c = unitFeatures m c := by
  unfold outs; exact Function.update_self ..
theorem outs_loss (c : Dev nD) : outs m 3 main_v5_0 c = rowLossArr m c := by
  show Function.update (Function.update (fun b : Ref sig .tc => m ((c : Thread nD τ).loc b)) main_v5_0 (rowLossArr m c))
      main_v5_1 (rowValidArr m c) main_v5_0 = _
  rw [Function.update_of_ne (by decide), Function.update_self]
theorem outs_valid (c : Dev nD) : outs m 3 main_v5_1 c = rowValidArr m c := by
  unfold outs; exact Function.update_self ..

theorem V1_eq (c : Dev nD) : Gen.V1 m (outs m) c = afterNorm m c := by
  show Function.update (Gen.V0 m c) main_v0 (outs m 1 main_v0 c) = _; rw [outs_norm]
theorem V2_eq (c : Dev nD) : Gen.V2 m (outs m) c = beforePair m c := by
  show StableHlo.after hostOps1 (Gen.V1 m (outs m) c) = _; rw [V1_eq]

/-- The unscoped buffers after the pair kernel. -/
abbrev afterPair (c : Dev nD) : Valuation τ sig (Elt F) :=
  Function.update (Function.update (beforePair m c) main_v5_0 (rowLossArr m c)) main_v5_1 (rowValidArr m c)
theorem V3_eq (c : Dev nD) : Gen.V3 m (outs m) c = afterPair m c := by
  show Function.update (Function.update (Gen.V2 m (outs m) c) main_v5_0 (outs m 3 main_v5_0 c)) main_v5_1 (outs m 3 main_v5_1 c) = _
  rw [V2_eq, outs_loss, outs_valid]

/-- Both pipelines' proof data, each over its kernel's entry contents. -/
def pdats : (p : Fin 2) → (c : Dev nD) → Dat τ (Elt F) Unit ℕ (UR sig nD τ) ℕ (cfgs p) c
  | ⟨0, _⟩ => fun c => dat0 (atLaunch m) c
  | ⟨1, _⟩ => fun c => dat1 (atPair m) c

end Cert.KernelIdeal.Whole

end
-- ==== Proof.NormSeg.lean ====
/-
  The normalising kernel as an item of the program: entered with every unscoped buffer at its launch contents,
  left with the output array at the unit-norm features and every other unscoped buffer as it was. Its two arrays
  are distinct whole buffers, so they are taken out of the unscoped buffers at entry and put back at exit as they
  are; the generator register passes through the kernel's invariant untouched; the core owes nothing.
-/
import proofs.«134439_j29841432773048_1_alg».proof.Proof.Boundary
import Idealize.ShloMosaic.Lib.Pipeline.RegionsLoop

set_option maxRecDepth 16384

noncomputable section

namespace Cert.KernelIdeal.Whole

open Cert.KernelIdeal Cert.KernelIdeal.Gen Cert.KernelIdeal.NormRegion Cert.KernelIdeal.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The kernels have no loop variants, -/
abbrev noVariants : Variants := Variants.none
/-- and no core waits on another: no level is assigned. -/
abbrev noLevels : GSem nD τ sig → Finset Unit := fun _ => ∅
abbrev levelOf : GSem nD τ sig → Unit → ℕ := fun _ _ => 0

/-- What rides beside the buffers through every item: the generator register at some state, and the core owing
    nothing. -/
abbrev beside (c : Dev nD) : sProp 𝕄 :=
  iprop((∃ r, prngReg c r) ∗ ∃ W, owes (c : Thread nD τ) (0 : CellTallies nD τ sig Unit) W)

/-- The normalising kernel's exit contents have its arrays at what the pipeline leaves. -/
theorem afterNorm_arr (c : Dev nD) (w : Fin cfg0.W) :
    (pdats m 0 c).arrAt w cfg0.N = (fun b : Ref sig .tc => afterNorm m c b) (Pipeline.arrRef spec0 w) := by
  match w with
  | ⟨0, _⟩ =>
    show (dat0 (atLaunch m) c).arrAt 0 cfg0.N = Function.update (Gen.V0 m c) main_v0 (unitFeatures m c) main_arg0
    rw [Function.update_of_ne (by decide), NormRegion.arr_in]
  | ⟨1, _⟩ =>
    show (dat0 (atLaunch m) c).arrAt 1 cfg0.N = Function.update (Gen.V0 m c) main_v0 (unitFeatures m c) main_v0
    rw [Function.update_self]; rfl

/-- Off the kernel's arrays nothing changed. -/
theorem afterNorm_rest (c : Dev nD) (b : Ref sig .tc) (hb : b ∉ Finset.univ.image (Pipeline.arrRef spec0)) :
    (fun b : Ref sig .tc => afterNorm m c b) b = atLaunch m c b := by
  have hne : b ≠ main_v0 := fun e => hb (Finset.mem_image.mpr ⟨1, Finset.mem_univ _, e.symm⟩)
  show Function.update (Gen.V0 m c) main_v0 (unitFeatures m c) b = _
  rw [Function.update_of_ne (StableHlo.devRef_ne_of_ne hne)]

set_option backward.isDefEq.respectTransparency.types false in
/-- THE NORMALISING KERNEL'S SEGMENT. -/
def normSeg : RegionSeg (pcfgs (F := F)) Gen.adm (pdats m) () defs₀ noVariants noLevels levelOf 0 where
  win := launch0.win.to₀
  block_pos := launch0.block_pos
  stage_whole := launch0.stage_whole
  K := PEmpty
  osem k := k.elim
  ho := Pipeline.OwnSemFacts.none _
  hbody c := (norm_body_obligation (atLaunch m) c).loose
  hwaits := Pipeline.hwaits_of_owed_zero _ _ _ _ noLevels levelOf 0 fun _ _ => rfl
  pre c := iprop(StableHlo.held (c : Thread nD τ) (Pipeline.ucRefs τ sig) (Gen.V0 m c) ∗ beside c)
  post c := iprop(StableHlo.held (c : Thread nD τ) (Pipeline.ucRefs τ sig) (afterNorm m c) ∗ beside c)
  X c := iprop(∃ r, prngReg c r)
  Y c := iprop(∃ r, prngReg c r)
  Z c := Pipeline.unscopedRest (Ix := Unit) (Name := ℕ) (U := UR sig nD τ) (Lvl := ℕ) spec0 c (atLaunch m c)
  hentry c := by
    rw [Pipeline.ownSems0_none]
    have htake := Pipeline.arrays_of_unscopedBufs (p := 0) (pcfgs (F := F)) Gen.adm (pdats m) launch0.win launch0.arr_whole c
      ((pdats m 0 c).share_full fun _ => rfl) (atLaunch m c) fun _ => rfl
    rw [Pipeline.unscopedBufs_held] at htake
    iintro ⟨⟨Hbufs, Hreg, Howes⟩, -, -⟩
    ihave H := htake $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hput := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atLaunch m c) (fun b : Ref sig .tc => afterNorm m c b) ((pdats m 0 c).arrAt · cfg0.N) (afterNorm_arr m c) (afterNorm_rest m c)
    rw [Pipeline.unscopedBufs_held] at hput
    iintro ⟨Harr, Howes, Hreg, Hrest⟩
    imodintro
    isplitl [Harr Hrest]
    · iapply hput; isplitl [Harr] <;> iassumption
    isplitl [Hreg]; · iexact Hreg
    unfold Pipeline.Dat.owesAt Pipeline.owesWithin
    icases Howes with ⟨%W, -, Howes⟩
    iexists W; iexact Howes

end Cert.KernelIdeal.Whole

end
-- ==== Proof.PairDeal.lean ====
/-
  The pair kernel reads the unit-norm features through TWO windows (the row tile and the column tile), so the seven
  distinct buffers behind its eight windows' arrays are fewer than the windows. At entry the features' buffer, held
  whole, is dealt to the two windows half and half; at exit the two halves, still at the entry contents because an
  input is never written, are joined again. The other six arrays go to their one window as they are.
-/
import proofs.«134439_j29841432773048_1_alg».proof.Proof.Boundary
import Idealize.ShloMosaic.Lib.Pipeline.Kit
import Idealize.ShloMosaic.Lib.Pipeline.Launch

set_option maxRecDepth 16384

noncomputable section

namespace Cert.KernelIdeal.Whole

open Cert.KernelIdeal Cert.KernelIdeal.Gen Cert.KernelIdeal.NormRegion Cert.KernelIdeal.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

open Idealize.SL.BI (bigSepL bigSep_eq_bigSepL_of_eq)

variable (Vp : (c : Dev nD) → (b : Ref sig .tc) → Buf (Elt F) ((c : Thread nD τ).loc b))

/-- The distinct buffers behind the pair kernel's arrays, listed. -/
theorem pairBufs_listed (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0)
          ∗ (((c : Thread nD τ).loc main_v1) ↦{fullShare} V main_v1)
          ∗ (((c : Thread nD τ).loc main_v2) ↦{fullShare} V main_v2)
          ∗ (((c : Thread nD τ).loc main_v3) ↦{fullShare} V main_v3)
          ∗ (((c : Thread nD τ).loc main_v4) ↦{fullShare} V main_v4)
          ∗ (((c : Thread nD τ).loc main_v5_0) ↦{fullShare} V main_v5_0)
          ∗ (((c : Thread nD τ).loc main_v5_1) ↦{fullShare} V main_v5_1)) := by
  unfold Pipeline.arrBufs
  exact bigSep_eq_bigSepL_of_eq [main_v0, main_v1, main_v2, main_v3, main_v4, main_v5_0, main_v5_1] (by decide) (by decide) _

/-- The share each window holds of its array: the two windows on the unit-norm features half and half, every other
    window all of its own array. -/
def pairShare : Fin cfg1.W → PosShare TreeShare
  | ⟨0, _⟩ => fullShare.left
  | ⟨1, _⟩ => fullShare.right
  | _ => fullShare

theorem share_eq (c : Dev nD) (w : Fin cfg1.W) : (dat1 Vp c).share w = pairShare w := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The proof data's arrays, window by window, as points-tos of the buffers behind them. -/
theorem arrays_listed (c : Dev nD) (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    ((dat1 Vp c).arrays A : sProp 𝕄)
      = iprop((((c : Thread nD τ).loc main_v0) ↦{fullShare.left} V main_v0)
          ∗ (((c : Thread nD τ).loc main_v0) ↦{fullShare.right} V main_v0)
          ∗ (((c : Thread nD τ).loc main_v1) ↦{fullShare} V main_v1)
          ∗ (((c : Thread nD τ).loc main_v2) ↦{fullShare} V main_v2)
          ∗ (((c : Thread nD τ).loc main_v3) ↦{fullShare} V main_v3)
          ∗ (((c : Thread nD τ).loc main_v4) ↦{fullShare} V main_v4)
          ∗ (((c : Thread nD τ).loc main_v5_0) ↦{fullShare} V main_v5_0)
          ∗ (((c : Thread nD τ).loc main_v5_1) ↦{fullShare} V main_v5_1)) := by
  have h : ((dat1 Vp c).arrays A : sProp 𝕄)
      = bigSep Finset.univ fun w : Fin cfg1.W => (((c : Thread nD τ).loc (Pipeline.arrRef spec1 w)) ↦{pairShare w} V (Pipeline.arrRef spec1 w) : sProp 𝕄) := by
    unfold Dat.arrays
    exact bigSep_congr fun w _ => by rw [(arr_whole1 w).set_eq_univ, share_eq, hA]
  rw [h, bigSep_W1]
  rfl

/-- ENTRY: the buffers, whole at contents `V`, make the proof data's arrays at those contents. -/
theorem deal (c : Dev nD) (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (Pipeline.arrBufs (Ix := Unit) (Name := ℕ) (U := UR sig nD τ) (Lvl := ℕ) spec1 c V : sProp 𝕄) ⊢ (dat1 Vp c).arrays A := by
  rw [pairBufs_listed, arrays_listed Vp c V A hA]
  iintro ⟨H0, H1, H2, H3, H4, H5, H6⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  isplitl [H3]; · iexact H3
  isplitl [H4]; · iexact H4
  isplitl [H5]; · iexact H5
  iexact H6

/-- EXIT: the proof data's arrays at contents that agree with `V` make the buffers whole at `V` again. -/
theorem collect (c : Dev nD) (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (dat1 Vp c).arrays A ⊢ (Pipeline.arrBufs (Ix := Unit) (Name := ℕ) (U := UR sig nD τ) (Lvl := ℕ) spec1 c V : sProp 𝕄) := by
  rw [pairBufs_listed, arrays_listed Vp c V A hA]
  iintro ⟨H0a, H0b, H1, H2, H3, H4, H5, H6⟩
  isplitl [H0a H0b]
  · iapply (pointsTo_share (PosShare.mem_left_op_right fullShare)).2
    isplitl [H0a]; · iexact H0a
    iexact H0b
  isplitl [H1]; · iexact H1
  isplitl [H2]; · iexact H2
  isplitl [H3]; · iexact H3
  isplitl [H4]; · iexact H4
  isplitl [H5]; · iexact H5
  iexact H6

end Cert.KernelIdeal.Whole

end
-- ==== Proof.PairSeg.lean ====
/-
  The pair kernel as an item of the program: entered with every unscoped buffer at what the reshapes left, left
  with its two output arrays at each row's loss and validity and every other unscoped buffer as it was. The
  unit-norm features are dealt to the two windows that read them and collected again; the three scratch columns and
  the first kernel's staging buffers, scoped buffers this pipeline stages nothing in, make the invariant at the
  first point and are given back from it at the last, at anything both times.
-/
import proofs.«134439_j29841432773048_1_alg».proof.Proof.NormSeg
import proofs.«134439_j29841432773048_1_alg».proof.Proof.PairDeal

set_option maxRecDepth 16384

noncomputable section

namespace Cert.KernelIdeal.Whole

open Cert.KernelIdeal Cert.KernelIdeal.Gen Cert.KernelIdeal.NormRegion Cert.KernelIdeal.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The pair kernel's exit contents have its arrays at what the pipeline leaves: an input as entered, the two
    outputs at the rows' loss and validity. -/
theorem afterPair_arr (c : Dev nD) (w : Fin cfg1.W) :
    (pdats m 1 c).arrAt w cfg1.N = (fun b : Ref sig .tc => afterPair m c b) (Pipeline.arrRef spec1 w) := by
  match w with
  | ⟨0, _⟩ =>
    show (dat1 (atPair m) c).arrAt 0 cfg1.N = afterPair m c main_v0
    rw [(dat1 (atPair m) c).arrAt_in 0 rfl _, PairRegion.A_eq]
    show beforePair m c main_v0 = Function.update (Function.update (beforePair m c) main_v5_0 (rowLossArr m c)) main_v5_1 (rowValidArr m c) main_v0
    rw [Function.update_of_ne (by decide), Function.update_of_ne (by decide)]
  | ⟨1, _⟩ =>
    show (dat1 (atPair m) c).arrAt 1 cfg1.N = afterPair m c main_v0
    rw [(dat1 (atPair m) c).arrAt_in 1 rfl _, PairRegion.A_eq]
    show beforePair m c main_v0 = Function.update (Function.update (beforePair m c) main_v5_0 (rowLossArr m c)) main_v5_1 (rowValidArr m c) main_v0
    rw [Function.update_of_ne (by decide), Function.update_of_ne (by decide)]
  | ⟨2, _⟩ =>
    show (dat1 (atPair m) c).arrAt 2 cfg1.N = afterPair m c main_v1
    rw [(dat1 (atPair m) c).arrAt_in 2 rfl _, PairRegion.A_eq]
    show beforePair m c main_v1 = Function.update (Function.update (beforePair m c) main_v5_0 (rowLossArr m c)) main_v5_1 (rowValidArr m c) main_v1
    rw [Function.update_of_ne (by decide), Function.update_of_ne (by decide)]
  | ⟨3, _⟩ =>
    show (dat1 (atPair m) c).arrAt 3 cfg1.N = afterPair m c main_v2
    rw [(dat1 (atPair m) c).arrAt_in 3 rfl _, PairRegion.A_eq]
    show beforePair m c main_v2 = Function.update (Function.update (beforePair m c) main_v5_0 (rowLossArr m c)) main_v5_1 (rowValidArr m c) main_v2
    rw [Function.update_of_ne (by decide), Function.update_of_ne (by decide)]
  | ⟨4, _⟩ =>
    show (dat1 (atPair m) c).arrAt 4 cfg1.N = afterPair m c main_v3
    rw [(dat1 (atPair m) c).arrAt_in 4 rfl _, PairRegion.A_eq]
    show beforePair m c main_v3 = Function.update (Function.update (beforePair m c) main_v5_0 (rowLossArr m c)) main_v5_1 (rowValidArr m c) main_v3
    rw [Function.update_of_ne (by decide), Function.update_of_ne (by decide)]
  | ⟨5, _⟩ =>
    show (dat1 (atPair m) c).arrAt 5 cfg1.N = afterPair m c main_v4
    rw [(dat1 (atPair m) c).arrAt_in 5 rfl _, PairRegion.A_eq]
    show beforePair m c main_v4 = Function.update (Function.update (beforePair m c) main_v5_0 (rowLossArr m c)) main_v5_1 (rowValidArr m c) main_v4
    rw [Function.update_of_ne (by decide), Function.update_of_ne (by decide)]
  | ⟨6, _⟩ =>
    show rowLossArr m c = Function.update (Function.update (beforePair m c) main_v5_0 (rowLossArr m c)) main_v5_1 (rowValidArr m c) main_v5_0
    rw [Function.update_of_ne (by decide), Function.update_self]
  | ⟨7, _⟩ =>
    show rowValidArr m c = Function.update (Function.update (beforePair m c) main_v5_0 (rowLossArr m c)) main_v5_1 (rowValidArr m c) main_v5_1
    rw [Function.update_self]

/-- Off the kernel's arrays nothing changed. -/
theorem afterPair_rest (c : Dev nD) (b : Ref sig .tc) (hb : b ∉ Finset.univ.image (Pipeline.arrRef spec1)) :
    (fun b : Ref sig .tc => afterPair m c b) b = atPair m c b := by
  have h6 : b ≠ main_v5_0 := fun e => hb (Finset.mem_image.mpr ⟨6, Finset.mem_univ _, e.symm⟩)
  have h7 : b ≠ main_v5_1 := fun e => hb (Finset.mem_image.mpr ⟨7, Finset.mem_univ _, e.symm⟩)
  show Function.update (Function.update (beforePair m c) main_v5_0 (rowLossArr m c)) main_v5_1 (rowValidArr m c) b = _
  rw [Function.update_of_ne (StableHlo.devRef_ne_of_ne h7), Function.update_of_ne (StableHlo.devRef_ne_of_ne h6)]

/-- The scratch columns at anything, as the launch lists them. -/
theorem scratchAny_eq (c : Dev nD) :
    (scratchAny (F := F) c : sProp 𝕄)
      = iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ (∃ f : Buf (Elt F) ((c : Thread nD τ).loc cc1_scratch2), ((c : Thread nD τ).loc cc1_scratch2) ↦{fullShare} f)) := by
  unfold scratchAny; simp only [owns_whole]

/-- Before the first point and after the last, the invariant IS the scoped buffers this pipeline stages nothing in:
    made from them, -/
theorem inv_of_scoped (c : Dev nD) (t : Fin (cfg1.N + 1)) (h : t.val % 16 = 0) :
    (Pipeline.scopedRest (Ix := Unit) (Name := ℕ) (U := UR sig nD τ) (Lvl := ℕ) (Val := Elt F) spec1 c : sProp 𝕄) ⊢ (PairRegion.inv (atPair m) c t : sProp 𝕄) := by
  unfold PairRegion.inv; rw [dif_pos h, scratchAny_eq, scopedRest1_eq]; unfold idleRest
  iintro ⟨Ha, Hb, Hc, Hd, Hs0, Hs1, Hs2⟩
  isplitl [Ha Hb Hc Hd]
  · isplitl [Ha]; · iexact Ha
    isplitl [Hb]; · iexact Hb
    isplitl [Hc]; · iexact Hc
    iexact Hd
  isplitl [Hs0]; · iexact Hs0
  isplitl [Hs1]; · iexact Hs1
  iexact Hs2

/-- and giving them back. -/
theorem scoped_of_inv (c : Dev nD) (t : Fin (cfg1.N + 1)) (h : t.val % 16 = 0) :
    (PairRegion.inv (atPair m) c t : sProp 𝕄) ⊢ (Pipeline.scopedRest (Ix := Unit) (Name := ℕ) (U := UR sig nD τ) (Lvl := ℕ) (Val := Elt F) spec1 c : sProp 𝕄) := by
  unfold PairRegion.inv; rw [dif_pos h, scratchAny_eq, scopedRest1_eq]; unfold idleRest
  iintro ⟨⟨Ha, Hb, Hc, Hd⟩, Hs0, Hs1, Hs2⟩
  isplitl [Ha]; · iexact Ha
  isplitl [Hb]; · iexact Hb
  isplitl [Hc]; · iexact Hc
  isplitl [Hd]; · iexact Hd
  isplitl [Hs0]; · iexact Hs0
  isplitl [Hs1]; · iexact Hs1
  iexact Hs2

/-- The unscoped buffers at a valuation: the distinct buffers behind the pair kernel's arrays, and the rest. -/
theorem held_split (c : Dev nD) (W : Valuation τ sig (Elt F)) :
    (StableHlo.held (c : Thread nD τ) (Pipeline.ucRefs τ sig) W : sProp 𝕄)
      = iprop((Pipeline.arrBufs (Ix := Unit) (Name := ℕ) (U := UR sig nD τ) (Lvl := ℕ) spec1 c (fun b : Ref sig .tc => W b) : sProp 𝕄)
          ∗ Pipeline.unscopedRest (Ix := Unit) (Name := ℕ) (U := UR sig nD τ) (Lvl := ℕ) spec1 c (fun b : Ref sig .tc => W b)) := by
  rw [← Pipeline.unscopedBufs_held (Ix := Unit) (Name := ℕ) (U := UR sig nD τ) (Lvl := ℕ) c W]
  exact Pipeline.unscopedBufs_split₀ cfgs 1 winFacts₀1.arr_unscoped c (fun b : Ref sig .tc => W b)

set_option backward.isDefEq.respectTransparency.types false in
/-- THE PAIR KERNEL'S SEGMENT. -/
def pairSeg : RegionSeg (pcfgs (F := F)) Gen.adm (pdats m) () defs₀ noVariants noLevels levelOf 1 where
  win := winFacts₀1
  block_pos := block_pos1
  stage_whole := stage_whole1
  K := PEmpty
  osem k := k.elim
  ho := Pipeline.OwnSemFacts.none _
  hbody c := (PairRegion.body_obligation (atPair m) c).loose
  hwaits := Pipeline.hwaits_of_owed_zero _ _ _ _ noLevels levelOf 1 fun _ _ => rfl
  pre c := iprop(StableHlo.held (c : Thread nD τ) (Pipeline.ucRefs τ sig) (beforePair m c) ∗ beside c)
  post c := iprop(StableHlo.held (c : Thread nD τ) (Pipeline.ucRefs τ sig) (afterPair m c) ∗ beside c)
  X _ := iprop(emp)
  Y _ := iprop(emp)
  Z c := iprop(Pipeline.unscopedRest (Ix := Unit) (Name := ℕ) (U := UR sig nD τ) (Lvl := ℕ) spec1 c (atPair m c) ∗ ∃ r, prngReg c r)
  hentry c := by
    rw [Pipeline.ownSems0_none, held_split]
    iintro ⟨⟨⟨Hbufs, Hrest⟩, Hreg, Howes⟩, -, -⟩
    imodintro
    isplitl [Hbufs]
    · iapply (deal (atPair m) c (atPair m c) ((pdats m 1 c).arrAt · 0) (fun _ => rfl)); iexact Hbufs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr; · ipureintro; exact fun _ _ => Or.inl trivial
      iexact Howes
    isplitr; · iempintro
    isplitl [Hrest]; · iexact Hrest
    iexact Hreg
  hin c := by
    rw [show (pdats m 1 c).Φ 0 = PairRegion.inv (atPair m) c 0 from rfl]
    iintro ⟨-, -, Hscoped⟩
    iapply (inv_of_scoped m c 0 rfl); iexact Hscoped
  hout c := by
    rw [Pipeline.ownSems0_none, show (pdats m 1 c).Φ (Fin.last _) = PairRegion.inv (atPair m) c (Fin.last _) from rfl]
    iintro Hinv
    isplitr; · iempintro
    isplitr; · iempintro
    iapply (scoped_of_inv m c (Fin.last _) (by decide)); iexact Hinv
  hexit c := by
    rw [held_split]
    have hrest : (Pipeline.unscopedRest (Ix := Unit) (Name := ℕ) (U := UR sig nD τ) (Lvl := ℕ) spec1 c (atPair m c) : sProp 𝕄)
        = Pipeline.unscopedRest spec1 c (fun b : Ref sig .tc => afterPair m c b) := by
      unfold Pipeline.unscopedRest
      exact bigSep_congr fun b hb => by rw [afterPair_rest m c b (Finset.mem_sdiff.mp hb).2]
    iintro ⟨Harr, Howes, -, Hrest, Hreg⟩
    imodintro
    isplitl [Harr Hrest]
    · isplitl [Harr]
      · iapply (collect (atPair m) c (fun b : Ref sig .tc => afterPair m c b) ((pdats m 1 c).arrAt · cfg1.N) (afterPair_arr m c)); iexact Harr
      · rw [← hrest]; iexact Hrest
    isplitl [Hreg]; · iexact Hreg
    unfold Pipeline.Dat.owesAt Pipeline.owesWithin
    icases Howes with ⟨%W, -, Howes⟩
    iexists W; iexact Howes

end Cert.KernelIdeal.Whole

end
-- ==== Proof.Frames.lean ====
/-
  The kernel program runs to the end and leaves its arguments alone. @main is the normalising kernel, four
  reshapes, the pair kernel and the closing host lines; the host lines and their chaining are the conditional
  frame's, the two kernels are the two segments, and what rides beside the buffers from item to item is the same
  throughout: the generator register at some state and the core owing nothing.
-/
import proofs.«134439_j29841432773048_1_alg».proof.Proof.PairSeg

set_option maxRecDepth 16384

noncomputable section

namespace Cert.KernelIdeal.Whole

open Cert.KernelIdeal Cert.KernelIdeal.Gen Cert.KernelIdeal.NormRegion Cert.KernelIdeal.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The launch element: the pipeline library's, at the staging cells. -/
abbrev launchElt : UR sig nD τ := initOf (Pipeline.cells cfgs cellOf_inj) (Pipeline.launchToks cfgs cellOf_inj)

/-- From the launch element: the library's ghost state, and nothing more per core. -/
theorem launchElt_gives :
    (ownU (launchElt) : sProp 𝕄) ⊢ |={Set.univ}=> iprop(BI.own (emb₁ (launchElt)) ∗ bigSep Finset.univ fun _ : Dev nD => (BI.emp : sProp 𝕄)) := by
  iintro Hu; imodintro
  isplitl [Hu]
  · iapply (show (ownU (launchElt) : sProp 𝕄) ⊢ BI.own (emb₁ (launchElt)) from .rfl); iexact Hu
  iapply (show (BI.emp : sProp 𝕄) ⊢ bigSep Finset.univ (fun _ : Dev nD => (BI.emp : sProp 𝕄)) from by rw [BI.bigSep_emp_const])
  iempintro

/-- What the launch deals each core makes the state that rides beside the buffers. -/
theorem beside_at_launch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noLevels levelOf)
      ⊢ (|={Set.univ}=> bigSep Finset.univ (fun c : Dev nD => beside (F := F) c) : sProp 𝕄) := by
  refine Pipeline.initEach noLevels levelOf fun c => ?_
  iintro ⟨⟨-, Howes, -, Hreg, -⟩, -⟩
  imodintro
  isplitl [Hreg]; · iexists _; iexact Hreg
  iexists ∅; iexact Howes

set_option backward.isDefEq.respectTransparency.types false in
/-- THE FRAME of the kernel program, at any float instance: from any memory with zero counters every weakly fair
    execution of @main terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m (Ix := Unit) (U := UR sig nD τ) (Lvl := ℕ) emb₁ () noVariants noLevels levelOf (fun _ _ => rfl) ρ (outs m) (pdats m)
    (0 : Dev nD → CellTallies nD τ sig Unit) (fun _ => iprop(emp)) launchElt launchElt_gives
    (fun _ c => beside c) (beside_at_launch ρ)
    (fun c => by iintro ⟨-, Howes⟩; iexact Howes)
    (normSeg m) (fun c => .rfl) (fun c => by rw [V1_eq]; exact .rfl)
    (pairSeg m) (fun c => by rw [V2_eq]; exact .rfl) (fun c => by rw [V3_eq]; exact .rfl)

end Cert.KernelIdeal.Whole

end
-- ==== Proof.WholeRun.lean ====
/-
  The kernel program's run with every unscoped buffer named at the end. The same items as the frame, the same two
  segments and the same state beside the buffers; the last thread state holds every unscoped buffer at the last
  boundary's contents, so the final memory is read there at the result as well as at the arguments.
-/
import proofs.«134439_j29841432773048_1_alg».proof.Proof.Frames

set_option maxRecDepth 16384

noncomputable section

namespace Cert.KernelIdeal.Whole

open Cert.KernelIdeal Cert.KernelIdeal.Gen Cert.KernelIdeal.NormRegion Cert.KernelIdeal.PairRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The unscoped buffers after the closing host lines: the last boundary. -/
abbrev atEnd (c : Dev nD) : Valuation τ sig (Elt F) := Gen.V5 m (outs m) c

/-- An unscoped TensorCore reference is among those the thread state holds. -/
theorem mem_unscoped (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    with the result buffer at the last boundary's contents and the three argument arrays as launched. -/
theorem run : θ_run defs (onTc (τ := τ) (main (F := F))) ⟨m, fun _ => 0, ρ⟩ (fun r => ∀ c : Dev nD,
      r.2.mem ((c.tc : Thread nD τ).loc main_v11) = atEnd m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ noVariants noLevels levelOf m ρ main
    (Gen.segs m (outs m) noVariants noLevels levelOf (fun _ c => beside c) () (pdats m) (normSeg m) (pairSeg m))
    (fun c Q => by
      rewrite [main_chain c, Seg.run_eq_chain,
        show (Gen.segs m (outs m) noVariants noLevels levelOf (fun _ c => beside c) () (pdats m) (normSeg m) (pairSeg m) c).map Seg.prog = [
          Prog.lift (.customCall (Pipeline.entry 0) ()),
          StableHlo.seq hostOps1,
          Prog.lift (.customCall (Pipeline.entry 1) ()),
          StableHlo.seq hostOps2,
          StableHlo.seq hostOps2_1 ] from rfl]
      exact .rfl)
    (fun c => by simp only [Gen.segs, Seg.pipes_host, Seg.pipes_region, Seg.pipes_nil]; decide)
    (0 : Dev nD → CellTallies nD τ sig Unit) (fun _ _ => rfl) (fun _ => iprop(emp)) launchElt launchElt_gives
    (T₀ := fun c => iprop(StableHlo.held (c : Thread nD τ) (Pipeline.ucRefs τ sig) (Gen.V0 m c) ∗ beside c))
    (Tₙ := fun c => StableHlo.held (c : Thread nD τ) (Pipeline.ucRefs τ sig) (atEnd m c))
    (hch := fun c => ⟨.rfl,
      (show iprop(StableHlo.held (c : Thread nD τ) (Pipeline.ucRefs τ sig) (afterNorm m c) ∗ beside c) ⊢ (iprop(StableHlo.held (c : Thread nD τ) (Pipeline.ucRefs τ sig) (Gen.V1 m (outs m) c) ∗ beside c) : sProp 𝕄) from by rw [V1_eq]),
      (show iprop(StableHlo.held (c : Thread nD τ) (Pipeline.ucRefs τ sig) (Gen.V2 m (outs m) c) ∗ beside c) ⊢ (iprop(StableHlo.held (c : Thread nD τ) (Pipeline.ucRefs τ sig) (beforePair m c) ∗ beside c) : sProp 𝕄) from by rw [V2_eq]),
      (show iprop(StableHlo.held (c : Thread nD τ) (Pipeline.ucRefs τ sig) (afterPair m c) ∗ beside c) ⊢ (iprop(StableHlo.held (c : Thread nD τ) (Pipeline.ucRefs τ sig) (Gen.V3 m (outs m) c) ∗ beside c) : sProp 𝕄) from by rw [V3_eq]),
      .rfl,
      sep_mono .rfl (show (beside (F := F) c : sProp 𝕄) ⊢ iprop(∃ W, owes (c : Thread nD τ) (0 : CellTallies nD τ sig Unit) W) from by
        iintro ⟨-, Howes⟩; iexact Howes)⟩)
    (hinit := ?_)
    (QY := fun c s => ∀ b ∈ Pipeline.ucRefs τ sig, s.mem (((c : Thread nD τ)).1, b) = atEnd m c b)
    (hfin := fun c s' => ?_)
    (hQ := fun s h c => ⟨h c _ (mem_unscoped main_v11 (by decide)),
      (h c _ (mem_unscoped main_arg0 (by decide))).trans (Gen.V5_main_arg0 m (outs m) c),
      (h c _ (mem_unscoped main_arg1 (by decide))).trans (Gen.V5_main_arg1 m (outs m) c),
      (h c _ (mem_unscoped main_arg2 (by decide))).trans (Gen.V5_main_arg2 m (outs m) c)⟩)
  · -- the launch: each core's unscoped buffers are held at the launch contents, beside the generator register and an empty debt
    refine Pipeline.initEach noLevels levelOf fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hheld, -, Howes, -, Hreg, -⟩, -⟩
    imodintro
    isplitl [Hheld]; · iexact Hheld
    isplitl [Hreg]; · iexists _; iexact Hreg
    iexists ∅; iexact Howes
  · -- the end: every unscoped buffer read off the last thread state
    iintro ⟨Hheld, HSI⟩
    unfold StableHlo.held
    imodintro
    iapply (pointsTo_read_all (Pipeline.ucRefs τ sig) (fun b => (((c : Thread nD τ)).1, b)) (atEnd m c) s')
    isplitl [Hheld] <;> iassumption

end Cert.KernelIdeal.Whole

end
-- ==== Proof.RefRun.lean ====
/-
  The run of the reference program, read back in five stretches.

  The reference is a straight line of 86 host operations. Run from any memory, every weakly fair
  execution ends with each buffer at the fold of the operations over the launch contents. Read as ONE
  composed term of the three argument arrays that fold is deep (the 8192 x 8192 similarity stage sits
  under a dozen later stages, each of which names it more than once), so it is read here in five
  stretches instead, each over an ARBITRARY valuation of the buffers:

    A  the features scaled to unit rows, their Gram matrix, and its exponential over the temperature;
    B  the two pair masks (same label and same / other speaker, off the diagonal);
    C  the masked row sums, the denominator, and the "has a positive partner" bit of each row;
    D  the per-row losses before masking and the count of the rows that have a positive partner;
    E  the masked losses, their sum, and the guarded mean.

  Each stretch's results are small terms of the buffers it reads, every other buffer keeps its
  contents, and the five compose to `resultOf` of the three argument arrays: a term built from the
  named stages below, which a value proof then reads one stage at a time.
-/
import proofs.«134439_j29841432773048_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as pure functions of array contents -/

/-- Each row's Euclidean norm, clamped from below, as a column. -/
def clampedNorm (x : (⟨S8192x256, .f32⟩ : BufTy).Contents (Elt F)) : (⟨S8192x1, .f32⟩ : BufTy).Contents (Elt F) :=
  maximumf (Host.sqrt (broadcastInDim S8192x1 ![0] bcast_S8192_S8192x1_0 (Host.reduceAdd (mulf x x) (constant S_ .f32 0x00000000#32) reducesTo_S8192x256_S8192_d1 h_S_))) (broadcastInDim S8192x1 ![] bcast_S_S8192x1 (constant S_ .f32 0x2B8CBCCC#32))

/-- The features with every row divided by its clamped norm. -/
def unitRows (x : (⟨S8192x256, .f32⟩ : BufTy).Contents (Elt F)) : (⟨S8192x256, .f32⟩ : BufTy).Contents (Elt F) :=
  Host.divf x (broadcastInDim S8192x256 ![0, 1] bcast_S8192x1_S8192x256_0_1 (clampedNorm x))

/-- The exponential of the unit rows' Gram matrix over the temperature. -/
def expSim (x : (⟨S8192x256, .f32⟩ : BufTy).Contents (Elt F)) : (⟨S8192x8192, .f32⟩ : BufTy).Contents (Elt F) :=
  Host.exp (Host.divf (Host.dotGeneral dot_S8192x256_S256x8192_S8192x8192_1_0_0_1_n_n none (unitRows x) (transpose S256x8192 [1, 0] (unitRows x) transposes_S8192x256_S256x8192_1_0)) (broadcastInDim S8192x8192 ![] bcast_S_S8192x8192 (constant S_ .f32 0x3F4CCCCD#32)))

/-- The pairs of rows whose tags agree: the tags as a column against the tags as a row. -/
def sameTag (a : (⟨S8192, .i32⟩ : BufTy).Contents (Elt F)) : (⟨S8192x8192, .i1⟩ : BufTy).Contents (Elt F) :=
  cmpi .eq (broadcastInDim S8192x8192 ![0, 1] bcast_S8192x1_S8192x8192_0_1 (broadcastInDim S8192x1 ![0] bcast_S8192_S8192x1_0 a)) (broadcastInDim S8192x8192 ![0, 1] bcast_S1x8192_S8192x8192_0_1 (broadcastInDim S1x8192 ![1] bcast_S8192_S1x8192_1 a))

/-- The pairs of a row with itself. -/
def diagonal : (⟨S8192x8192, .i1⟩ : BufTy).Contents (Elt F) :=
  cmpi .eq (addi (iotaInDim S8192x8192 32 0) (broadcastInDim S8192x8192 ![] bcast_S_S8192x8192 (constantI S_ 32 0#32))) (iotaInDim S8192x8192 32 1)

/-- Same label, same speaker, another row. -/
def posMask (lb sp : (⟨S8192, .i32⟩ : BufTy).Contents (Elt F)) : (⟨S8192x8192, .i1⟩ : BufTy).Contents (Elt F) :=
  andi (andi (sameTag (F := F) lb) (sameTag (F := F) sp)) (noti (diagonal (F := F)))

/-- Same label, another speaker, another row. -/
def negMask (lb sp : (⟨S8192, .i32⟩ : BufTy).Contents (Elt F)) : (⟨S8192x8192, .i1⟩ : BufTy).Contents (Elt F) :=
  andi (andi (sameTag (F := F) lb) (noti (sameTag (F := F) sp))) (noti (diagonal (F := F)))

/-- Each row's sum of the entries a mask keeps. -/
def maskedRowSum (mask : (⟨S8192x8192, .i1⟩ : BufTy).Contents (Elt F)) (e : (⟨S8192x8192, .f32⟩ : BufTy).Contents (Elt F)) : (⟨S8192, .f32⟩ : BufTy).Contents (Elt F) :=
  Host.reduceAdd (select mask e (broadcastInDim S8192x8192 ![] bcast_S_S8192x8192 (id (constant S_ .f32 0x00000000#32)))) (constant S_ .f32 0x00000000#32) reducesTo_S8192x8192_S8192_d1 h_S_

/-- Each row's denominator: negative mass plus positive mass plus epsilon. -/
def denominator (mp mn : (⟨S8192x8192, .i1⟩ : BufTy).Contents (Elt F)) (e : (⟨S8192x8192, .f32⟩ : BufTy).Contents (Elt F)) : (⟨S8192, .f32⟩ : BufTy).Contents (Elt F) :=
  addf (addf (maskedRowSum mn e) (maskedRowSum mp e)) (broadcastInDim S8192 ![] bcast_S_S8192 (constant S_ .f32 0x33D6BF95#32))

/-- Each row's "some entry of the mask is set". -/
def anyInRow (mask : (⟨S8192x8192, .i1⟩ : BufTy).Contents (Elt F)) : (⟨S8192, .i1⟩ : BufTy).Contents (Elt F) :=
  Host.reduce IntOp.ori mask (constantI S_ 1 0#1) reducesTo_S8192x8192_S8192_d1 h_S_

/-- Minus the logarithm of numerator over denominator, both replaced by one where the row does not count. -/
def rawLoss (valid : (⟨S8192, .i1⟩ : BufTy).Contents (Elt F)) (num den : (⟨S8192, .f32⟩ : BufTy).Contents (Elt F)) : (⟨S8192, .f32⟩ : BufTy).Contents (Elt F) :=
  Host.negf (Host.log (Host.divf (select valid num (broadcastInDim S8192 ![] bcast_S_S8192 (id (constant S_ .f32 0x3F800000#32)))) (select valid den (broadcastInDim S8192 ![] bcast_S_S8192 (id (constant S_ .f32 0x3F800000#32))))))

/-- A column kept where the row counts, zero where it does not. -/
def maskLoss (valid : (⟨S8192, .i1⟩ : BufTy).Contents (Elt F)) (raw : (⟨S8192, .f32⟩ : BufTy).Contents (Elt F)) : (⟨S8192, .f32⟩ : BufTy).Contents (Elt F) :=
  select valid raw (broadcastInDim S8192 ![] bcast_S_S8192 (id (constant S_ .f32 0x00000000#32)))

/-- Each row's loss. -/
def rowLosses (valid : (⟨S8192, .i1⟩ : BufTy).Contents (Elt F)) (num den : (⟨S8192, .f32⟩ : BufTy).Contents (Elt F)) : (⟨S8192, .f32⟩ : BufTy).Contents (Elt F) :=
  maskLoss valid (rawLoss valid num den)

/-- The number of rows that count, as a 32-bit integer sum of the bits. -/
def countValid (valid : (⟨S8192, .i1⟩ : BufTy).Contents (Elt F)) : (⟨S_, .i32⟩ : BufTy).Contents (Elt F) :=
  Host.reduce IntOp.addi (extui 32 valid natLt_1_32) (constantI S_ 32 0#32) reducesTo_S8192_S_d0 h_S_

/-- The sum of the losses over the larger of the count and one, where the count is positive; zero else. -/
def guardedMean (cnt : (⟨S_, .i32⟩ : BufTy).Contents (Elt F)) (losses : (⟨S8192, .f32⟩ : BufTy).Contents (Elt F)) : (⟨S_, .f32⟩ : BufTy).Contents (Elt F) :=
  select (cmpi .sgt cnt (constantI S_ 32 0#32)) (Host.divf (Host.reduceAdd losses (constant S_ .f32 0x00000000#32) reducesTo_S8192_S_d0 h_S_) (sitofp .f32 (maxsi cnt (constantI S_ 32 1#32)))) (id (constant S_ .f32 0x00000000#32))

/-- THE RESULT as a term of the three argument arrays. -/
def resultOf (x : (⟨S8192x256, .f32⟩ : BufTy).Contents (Elt F)) (lb sp : (⟨S8192, .i32⟩ : BufTy).Contents (Elt F)) : (⟨S_, .f32⟩ : BufTy).Contents (Elt F) :=
  guardedMean (countValid (F := F) (anyInRow (F := F) (posMask (F := F) lb sp)))
    (rowLosses (anyInRow (F := F) (posMask (F := F) lb sp)) (maskedRowSum (posMask (F := F) lb sp) (expSim x))
      (denominator (posMask (F := F) lb sp) (negMask (F := F) lb sp) (expSim x)))

/-! ## The operations -/

/-- Stretch A: operations 1 … 16 (the norm function's five inline, then through the exponential). -/
abbrev opsA : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x256 ![0, 1] bcast_S8192x1_S8192x256_0_1 : (⟨S8192x1, .f32⟩ : BufTy).Contents (Elt F) → (⟨S8192x256, .f32⟩ : BufTy).Contents (Elt F)),
    binary main_arg0 main_v3 main_v4 (Host.divf : (⟨S8192x256, .f32⟩ : BufTy).Contents (Elt F) → (⟨S8192x256, .f32⟩ : BufTy).Contents (Elt F) → (⟨S8192x256, .f32⟩ : BufTy).Contents (Elt F)),
    unary main_v4 main_v5 ((transpose S256x8192 [1, 0] · transposes_S8192x256_S256x8192_1_0) : (⟨S8192x256, .f32⟩ : BufTy).Contents (Elt F) → (⟨S256x8192, .f32⟩ : BufTy).Contents (Elt F)),
    binary main_v4 main_v5 main_v6 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_0 (constant S_ .f32 0x3F4CCCCD#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)),
    unary main_v8 main_v9 (Host.exp : (⟨S8192x8192, .f32⟩ : BufTy).Contents (Elt F) → (⟨S8192x8192, .f32⟩ : BufTy).Contents (Elt F)) ]

/-- Stretch B: operations 17 … 39 (the masks). -/
abbrev opsB : List (HloOp τ sig (Elt F)) :=
  [ unary main_arg1 main_v10 (broadcastInDim S8192x1 ![0] bcast_S8192_S8192x1_0 : (⟨S8192, .i32⟩ : BufTy).Contents (Elt F) → (⟨S8192x1, .i32⟩ : BufTy).Contents (Elt F)),
    unary main_arg1 main_v11 (broadcastInDim S1x8192 ![1] bcast_S8192_S1x8192_1 : (⟨S8192, .i32⟩ : BufTy).Contents (Elt F) → (⟨S1x8192, .i32⟩ : BufTy).Contents (Elt F)),
    unary main_v10 main_v12 (broadcastInDim S8192x8192 ![0, 1] bcast_S8192x1_S8192x8192_0_1 : (⟨S8192x1, .i32⟩ : BufTy).Contents (Elt F) → (⟨S8192x8192, .i32⟩ : BufTy).Contents (Elt F)),
    unary main_v11 main_v13 (broadcastInDim S8192x8192 ![0, 1] bcast_S1x8192_S8192x8192_0_1 : (⟨S1x8192, .i32⟩ : BufTy).Contents (Elt F) → (⟨S8192x8192, .i32⟩ : BufTy).Contents (Elt F)),
    binary main_v12 main_v13 main_v14 (cmpi .eq : (⟨S8192x8192, .i32⟩ : BufTy).Contents (Elt F) → (⟨S8192x8192, .i32⟩ : BufTy).Contents (Elt F) → (⟨S8192x8192, .i1⟩ : BufTy).Contents (Elt F)),
    unary main_arg2 main_v15 (broadcastInDim S8192x1 ![0] bcast_S8192_S8192x1_0 : (⟨S8192, .i32⟩ : BufTy).Contents (Elt F) → (⟨S8192x1, .i32⟩ : BufTy).Contents (Elt F)),
    unary main_arg2 main_v16 (broadcastInDim S1x8192 ![1] bcast_S8192_S1x8192_1 : (⟨S8192, .i32⟩ : BufTy).Contents (Elt F) → (⟨S1x8192, .i32⟩ : BufTy).Contents (Elt F)),
    unary main_v15 main_v17 (broadcastInDim S8192x8192 ![0, 1] bcast_S8192x1_S8192x8192_0_1 : (⟨S8192x1, .i32⟩ : BufTy).Contents (Elt F) → (⟨S8192x8192, .i32⟩ : BufTy).Contents (Elt F)),
    unary main_v16 main_v18 (broadcastInDim S8192x8192 ![0, 1] bcast_S1x8192_S8192x8192_0_1 : (⟨S1x8192, .i32⟩ : BufTy).Contents (Elt F) → (⟨S8192x8192, .i32⟩ : BufTy).Contents (Elt F)),
    binary main_v17 main_v18 main_v19 (cmpi .eq : (⟨S8192x8192, .i32⟩ : BufTy).Contents (Elt F) → (⟨S8192x8192, .i32⟩ : BufTy).Contents (Elt F) → (⟨S8192x8192, .i1⟩ : BufTy).Contents (Elt F)),
    nullary main_v20 (iotaInDim S8192x8192 32 0),
    nullary main_v21 (iotaInDim S8192x8192 32 1),
    nullary main_c (constantI S_ 32 0#32),
    unary main_c main_v22 (broadcastInDim S8192x8192 ![] bcast_S_S8192x8192 : (⟨S_, .i32⟩ : BufTy).Contents (Elt F) → (⟨S8192x8192, .i32⟩ : BufTy).Contents (Elt F)),
    binary main_v20 main_v22 main_v23 (addi : (⟨S8192x8192, .i32⟩ : BufTy).Contents (Elt F) → (⟨S8192x8192, .i32⟩ : BufTy).Contents (Elt F) → (⟨S8192x8192, .i32⟩ : BufTy).Contents (Elt F)),
    binary main_v23 main_v21 main_v24 (cmpi .eq : (⟨S8192x8192, .i32⟩ : BufTy).Contents (Elt F) → (⟨S8192x8192, .i32⟩ : BufTy).Contents (Elt F) → (⟨S8192x8192, .i1⟩ : BufTy).Contents (Elt F)),
    binary main_v14 main_v19 main_v25 (andi : (⟨S8192x8192, .i1⟩ : BufTy).Contents (Elt F) → (⟨S8192x8192, .i1⟩ : BufTy).Contents (Elt F) → (⟨S8192x8192, .i1⟩ : BufTy).Contents (Elt F)),
    unary main_v24 main_v26 (noti : (⟨S8192x8192, .i1⟩ : BufTy).Contents (Elt F) → (⟨S8192x8192, .i1⟩ : BufTy).Contents (Elt F)),
    binary main_v25 main_v26 main_v27 (andi : (⟨S8192x8192, .i1⟩ : BufTy).Contents (Elt F) → (⟨S8192x8192, .i1⟩ : BufTy).Contents (Elt F) → (⟨S8192x8192, .i1⟩ : BufTy).Contents (Elt F)),
    unary main_v19 main_v28 (noti : (⟨S8192x8192, .i1⟩ : BufTy).Contents (Elt F) → (⟨S8192x8192, .i1⟩ : BufTy).Contents (Elt F)),
    binary main_v14 main_v28 main_v29 (andi : (⟨S8192x8192, .i1⟩ : BufTy).Contents (Elt F) → (⟨S8192x8192, .i1⟩ : BufTy).Contents (Elt F) → (⟨S8192x8192, .i1⟩ : BufTy).Contents (Elt F)),
    unary main_v24 main_v30 (noti : (⟨S8192x8192, .i1⟩ : BufTy).Contents (Elt F) → (⟨S8192x8192, .i1⟩ : BufTy).Contents (Elt F)),
    binary main_v29 main_v30 main_v31 (andi : (⟨S8192x8192, .i1⟩ : BufTy).Contents (Elt F) → (⟨S8192x8192, .i1⟩ : BufTy).Contents (Elt F) → (⟨S8192x8192, .i1⟩ : BufTy).Contents (Elt F)) ]

/-- Stretch C: operations 40 … 57 (the two masked sums, the denominator, the row bits). -/
abbrev opsC : List (HloOp τ sig (Elt F)) :=
  [ nullary main_cst_1 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v27) (TRef.of (T := ⟨S8192x8192, .f32⟩) main_v9) (TRef.of (T := ⟨S8192x8192, .f32⟩) main_call1_v1) (TRef.of (T := ⟨S8192x8192, .f32⟩) main_v32) select,
    nullary main_cst_2 (constant S_ .f32 0x00000000#32),
    binary main_v32 main_cst_2 main_v33 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v31) (TRef.of (T := ⟨S8192x8192, .f32⟩) main_v9) (TRef.of (T := ⟨S8192x8192, .f32⟩) main_call2_v1) (TRef.of (T := ⟨S8192x8192, .f32⟩) main_v34) select,
    nullary main_cst_4 (constant S_ .f32 0x00000000#32),
    binary main_v34 main_cst_4 main_v35 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v35 main_v33 main_v36 (addf : (⟨S8192, .f32⟩ : BufTy).Contents (Elt F) → (⟨S8192, .f32⟩ : BufTy).Contents (Elt F) → (⟨S8192, .f32⟩ : BufTy).Contents (Elt F)),
    nullary main_cst_5 (constant S_ .f32 0x33D6BF95#32),
    unary main_cst_5 main_v37 (broadcastInDim S8192 ![] bcast_S_S8192 : (⟨S_, .f32⟩ : BufTy).Contents (Elt F) → (⟨S8192, .f32⟩ : BufTy).Contents (Elt F)),
    binary main_v36 main_v37 main_v38 (addf : (⟨S8192, .f32⟩ : BufTy).Contents (Elt F) → (⟨S8192, .f32⟩ : BufTy).Contents (Elt F) → (⟨S8192, .f32⟩ : BufTy).Contents (Elt F)),
    nullary main_c_6 (constantI S_ 1 0#1),
    binary main_v27 main_c_6 main_v39 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)) ]

/-- Stretch D: operations 58 … 71 (the losses before masking, the count). -/
abbrev opsD : List (HloOp τ sig (Elt F)) :=
  [ nullary main_cst_7 (constant S_ .f32 0x3F800000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v39) (TRef.of (T := ⟨S8192, .f32⟩) main_v33) (TRef.of (T := ⟨S8192, .f32⟩) main_call3_v1) (TRef.of (T := ⟨S8192, .f32⟩) main_v40) select,
    nullary main_cst_8 (constant S_ .f32 0x3F800000#32),
    TRef.unary (TRef.of (T := ⟨S_, .f32⟩) main_cst_8) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v39) (TRef.of (T := ⟨S8192, .f32⟩) main_v38) (TRef.of (T := ⟨S8192, .f32⟩) main_call4_v1) (TRef.of (T := ⟨S8192, .f32⟩) main_v41) select,
    binary main_v40 main_v41 main_v42 (Host.divf : (⟨S8192, .f32⟩ : BufTy).Contents (Elt F) → (⟨S8192, .f32⟩ : BufTy).Contents (Elt F) → (⟨S8192, .f32⟩ : BufTy).Contents (Elt F)),
    unary main_v42 main_v43 (Host.log : (⟨S8192, .f32⟩ : BufTy).Contents (Elt F) → (⟨S8192, .f32⟩ : BufTy).Contents (Elt F)),
    unary main_v43 main_v44 (Host.negf : (⟨S8192, .f32⟩ : BufTy).Contents (Elt F) → (⟨S8192, .f32⟩ : BufTy).Contents (Elt F)),
    unary main_v39 main_v45 ((extui 32 · natLt_1_32) : (⟨S8192, .i1⟩ : BufTy).Contents (Elt F) → (⟨S8192, .i32⟩ : BufTy).Contents (Elt F)),
    nullary main_c_9 (constantI S_ 32 0#32),
    binary main_v45 main_c_9 main_v46 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)) ]

/-- Stretch E: operations 72 … 86 (the masked losses, their sum, the guarded mean). -/
abbrev opsE : List (HloOp τ sig (Elt F)) :=
  [ nullary main_cst_10 (constant S_ .f32 0x00000000#32),
    TRef.unary (TRef.of (T := ⟨S_, .f32⟩) main_cst_10) (TRef.of (T := ⟨S_, .f32⟩) main_call5_v0) id,
    TRef.unary (TRef.of (T := ⟨S_, .f32⟩) main_call5_v0) (TRef.of (T := ⟨S8192, .f32⟩) main_call5_v1) (broadcastInDim S8192 ![] bcast_S_S8192),
    TRef.ternary (TRef.of (T := ⟨S8192, .i1⟩) main_v39) (TRef.of (T := ⟨S8192, .f32⟩) main_v44) (TRef.of (T := ⟨S8192, .f32⟩) main_call5_v1) (TRef.of (T := ⟨S8192, .f32⟩) main_v47) select,
    nullary main_cst_11 (constant S_ .f32 0x00000000#32),
    binary main_v47 main_cst_11 main_v48 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_c_12 (constantI S_ 32 0#32),
    binary main_v46 main_c_12 main_v49 (cmpi .sgt : (⟨S_, .i32⟩ : BufTy).Contents (Elt F) → (⟨S_, .i32⟩ : BufTy).Contents (Elt F) → (⟨S_, .i1⟩ : BufTy).Contents (Elt F)),
    nullary main_c_13 (constantI S_ 32 1#32),
    binary main_v46 main_c_13 main_v50 (maxsi : (⟨S_, .i32⟩ : BufTy).Contents (Elt F) → (⟨S_, .i32⟩ : BufTy).Contents (Elt F) → (⟨S_, .i32⟩ : BufTy).Contents (Elt F)),
    unary main_v50 main_v51 (sitofp .f32 : (⟨S_, .i32⟩ : BufTy).Contents (Elt F) → (⟨S_, .f32⟩ : BufTy).Contents (Elt F)),
    binary main_v48 main_v51 main_v52 (Host.divf : (⟨S_, .f32⟩ : BufTy).Contents (Elt F) → (⟨S_, .f32⟩ : BufTy).Contents (Elt F) → (⟨S_, .f32⟩ : BufTy).Contents (Elt F)),
    nullary main_cst_14 (constant S_ .f32 0x00000000#32),
    TRef.unary (TRef.of (T := ⟨S_, .f32⟩) main_cst_14) (TRef.of (T := ⟨S_, .f32⟩) main_call6_v0) id,
    TRef.ternary (TRef.of (T := ⟨S_, .i1⟩) main_v49) (TRef.of (T := ⟨S_, .f32⟩) main_v52) (TRef.of (T := ⟨S_, .f32⟩) main_call6_v0) (TRef.of (T := ⟨S_, .f32⟩) main_v53) select ]

/-- @main's 86 operations, in order (a called function's operations stand in its call's place). -/
abbrev ops : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x256 ![0, 1] bcast_S8192x1_S8192x256_0_1 : (⟨S8192x1, .f32⟩ : BufTy).Contents (Elt F) → (⟨S8192x256, .f32⟩ : BufTy).Contents (Elt F)),
    binary main_arg0 main_v3 main_v4 (Host.divf : (⟨S8192x256, .f32⟩ : BufTy).Contents (Elt F) → (⟨S8192x256, .f32⟩ : BufTy).Contents (Elt F) → (⟨S8192x256, .f32⟩ : BufTy).Contents (Elt F)),
    unary main_v4 main_v5 ((transpose S256x8192 [1, 0] · transposes_S8192x256_S256x8192_1_0) : (⟨S8192x256, .f32⟩ : BufTy).Contents (Elt F) → (⟨S256x8192, .f32⟩ : BufTy).Contents (Elt F)),
    binary main_v4 main_v5 main_v6 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_0 (constant S_ .f32 0x3F4CCCCD#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)),
    unary main_v8 main_v9 (Host.exp : (⟨S8192x8192, .f32⟩ : BufTy).Contents (Elt F) → (⟨S8192x8192, .f32⟩ : BufTy).Contents (Elt F)),
    unary main_arg1 main_v10 (broadcastInDim S8192x1 ![0] bcast_S8192_S8192x1_0 : (⟨S8192, .i32⟩ : BufTy).Contents (Elt F) → (⟨S8192x1, .i32⟩ : BufTy).Contents (Elt F)),
    unary main_arg1 main_v11 (broadcastInDim S1x8192 ![1] bcast_S8192_S1x8192_1 : (⟨S8192, .i32⟩ : BufTy).Contents (Elt F) → (⟨S1x8192, .i32⟩ : BufTy).Contents (Elt F)),
    unary main_v10 main_v12 (broadcastInDim S8192x8192 ![0, 1] bcast_S8192x1_S8192x8192_0_1 : (⟨S8192x1, .i32⟩ : BufTy).Contents (Elt F) → (⟨S8192x8192, .i32⟩ : BufTy).Contents (Elt F)),
    unary main_v11 main_v13 (broadcastInDim S8192x8192 ![0, 1] bcast_S1x8192_S8192x8192_0_1 : (⟨S1x8192, .i32⟩ : BufTy).Contents (Elt F) → (⟨S8192x8192, .i32⟩ : BufTy).Contents (Elt F)),
    binary main_v12 main_v13 main_v14 (cmpi .eq : (⟨S8192x8192, .i32⟩ : BufTy).Contents (Elt F) → (⟨S8192x8192, .i32⟩ : BufTy).Contents (Elt F) → (⟨S8192x8192, .i1⟩ : BufTy).Contents (Elt F)),
    unary main_arg2 main_v15 (broadcastInDim S8192x1 ![0] bcast_S8192_S8192x1_0 : (⟨S8192, .i32⟩ : BufTy).Contents (Elt F) → (⟨S8192x1, .i32⟩ : BufTy).Contents (Elt F)),
    unary main_arg2 main_v16 (broadcastInDim S1x8192 ![1] bcast_S8192_S1x8192_1 : (⟨S8192, .i32⟩ : BufTy).Contents (Elt F) → (⟨S1x8192, .i32⟩ : BufTy).Contents (Elt F)),
    unary main_v15 main_v17 (broadcastInDim S8192x8192 ![0, 1] bcast_S8192x1_S8192x8192_0_1 : (⟨S8192x1, .i32⟩ : BufTy).Contents (Elt F) → (⟨S8192x8192, .i32⟩ : BufTy).Contents (Elt F)),
    unary main_v16 main_v18 (broadcastInDim S8192x8192 ![0, 1] bcast_S1x8192_S8192x8192_0_1 : (⟨S1x8192, .i32⟩ : BufTy).Contents (Elt F) → (⟨S8192x8192, .i32⟩ : BufTy).Contents (Elt F)),
    binary main_v17 main_v18 main_v19 (cmpi .eq : (⟨S8192x8192, .i32⟩ : BufTy).Contents (Elt F) → (⟨S8192x8192, .i32⟩ : BufTy).Contents (Elt F) → (⟨S8192x8192, .i1⟩ : BufTy).Contents (Elt F)),
    nullary main_v20 (iotaInDim S8192x8192 32 0),
    nullary main_v21 (iotaInDim S8192x8192 32 1),
    nullary main_c (constantI S_ 32 0#32),
    unary main_c main_v22 (broadcastInDim S8192x8192 ![] bcast_S_S8192x8192 : (⟨S_, .i32⟩ : BufTy).Contents (Elt F) → (⟨S8192x8192, .i32⟩ : BufTy).Contents (Elt F)),
    binary main_v20 main_v22 main_v23 (addi : (⟨S8192x8192, .i32⟩ : BufTy).Contents (Elt F) → (⟨S8192x8192, .i32⟩ : BufTy).Contents (Elt F) → (⟨S8192x8192, .i32⟩ : BufTy).Contents (Elt F)),
    binary main_v23 main_v21 main_v24 (cmpi .eq : (⟨S8192x8192, .i32⟩ : BufTy).Contents (Elt F) → (⟨S8192x8192, .i32⟩ : BufTy).Contents (Elt F) → (⟨S8192x8192, .i1⟩ : BufTy).Contents (Elt F)),
    binary main_v14 main_v19 main_v25 (andi : (⟨S8192x8192, .i1⟩ : BufTy).Contents (Elt F) → (⟨S8192x8192, .i1⟩ : BufTy).Contents (Elt F) → (⟨S8192x8192, .i1⟩ : BufTy).Contents (Elt F)),
    unary main_v24 main_v26 (noti : (⟨S8192x8192, .i1⟩ : BufTy).Contents (Elt F) → (⟨S8192x8192, .i1⟩ : BufTy).Contents (Elt F)),
    binary main_v25 main_v26 main_v27 (andi : (⟨S8192x8192, .i1⟩ : BufTy).Contents (Elt F) → (⟨S8192x8192, .i1⟩ : BufTy).Contents (Elt F) → (⟨S8192x8192, .i1⟩ : BufTy).Contents (Elt F)),
    unary main_v19 main_v28 (noti : (⟨S8192x8192, .i1⟩ : BufTy).Contents (Elt F) → (⟨S8192x8192, .i1⟩ : BufTy).Contents (Elt F)),
    binary main_v14 main_v28 main_v29 (andi : (⟨S8192x8192, .i1⟩ : BufTy).Contents (Elt F) → (⟨S8192x8192, .i1⟩ : BufTy).Contents (Elt F) → (⟨S8192x8192, .i1⟩ : BufTy).Contents (Elt F)),
    unary main_v24 main_v30 (noti : (⟨S8192x8192, .i1⟩ : BufTy).Contents (Elt F) → (⟨S8192x8192, .i1⟩ : BufTy).Contents (Elt F)),
    binary main_v29 main_v30 main_v31 (andi : (⟨S8192x8192, .i1⟩ : BufTy).Contents (Elt F) → (⟨S8192x8192, .i1⟩ : BufTy).Contents (Elt F) → (⟨S8192x8192, .i1⟩ : BufTy).Contents (Elt F)),
    nullary main_cst_1 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v27) (TRef.of (T := ⟨S8192x8192, .f32⟩) main_v9) (TRef.of (T := ⟨S8192x8192, .f32⟩) main_call1_v1) (TRef.of (T := ⟨S8192x8192, .f32⟩) main_v32) select,
    nullary main_cst_2 (constant S_ .f32 0x00000000#32),
    binary main_v32 main_cst_2 main_v33 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v31) (TRef.of (T := ⟨S8192x8192, .f32⟩) main_v9) (TRef.of (T := ⟨S8192x8192, .f32⟩) main_call2_v1) (TRef.of (T := ⟨S8192x8192, .f32⟩) main_v34) select,
    nullary main_cst_4 (constant S_ .f32 0x00000000#32),
    binary main_v34 main_cst_4 main_v35 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v35 main_v33 main_v36 (addf : (⟨S8192, .f32⟩ : BufTy).Contents (Elt F) → (⟨S8192, .f32⟩ : BufTy).Contents (Elt F) → (⟨S8192, .f32⟩ : BufTy).Contents (Elt F)),
    nullary main_cst_5 (constant S_ .f32 0x33D6BF95#32),
    unary main_cst_5 main_v37 (broadcastInDim S8192 ![] bcast_S_S8192 : (⟨S_, .f32⟩ : BufTy).Contents (Elt F) → (⟨S8192, .f32⟩ : BufTy).Contents (Elt F)),
    binary main_v36 main_v37 main_v38 (addf : (⟨S8192, .f32⟩ : BufTy).Contents (Elt F) → (⟨S8192, .f32⟩ : BufTy).Contents (Elt F) → (⟨S8192, .f32⟩ : BufTy).Contents (Elt F)),
    nullary main_c_6 (constantI S_ 1 0#1),
    binary main_v27 main_c_6 main_v39 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_cst_7 (constant S_ .f32 0x3F800000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v39) (TRef.of (T := ⟨S8192, .f32⟩) main_v33) (TRef.of (T := ⟨S8192, .f32⟩) main_call3_v1) (TRef.of (T := ⟨S8192, .f32⟩) main_v40) select,
    nullary main_cst_8 (constant S_ .f32 0x3F800000#32),
    TRef.unary (TRef.of (T := ⟨S_, .f32⟩) main_cst_8) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v39) (TRef.of (T := ⟨S8192, .f32⟩) main_v38) (TRef.of (T := ⟨S8192, .f32⟩) main_call4_v1) (TRef.of (T := ⟨S8192, .f32⟩) main_v41) select,
    binary main_v40 main_v41 main_v42 (Host.divf : (⟨S8192, .f32⟩ : BufTy).Contents (Elt F) → (⟨S8192, .f32⟩ : BufTy).Contents (Elt F) → (⟨S8192, .f32⟩ : BufTy).Contents (Elt F)),
    unary main_v42 main_v43 (Host.log : (⟨S8192, .f32⟩ : BufTy).Contents (Elt F) → (⟨S8192, .f32⟩ : BufTy).Contents (Elt F)),
    unary main_v43 main_v44 (Host.negf : (⟨S8192, .f32⟩ : BufTy).Contents (Elt F) → (⟨S8192, .f32⟩ : BufTy).Contents (Elt F)),
    unary main_v39 main_v45 ((extui 32 · natLt_1_32) : (⟨S8192, .i1⟩ : BufTy).Contents (Elt F) → (⟨S8192, .i32⟩ : BufTy).Contents (Elt F)),
    nullary main_c_9 (constantI S_ 32 0#32),
    binary main_v45 main_c_9 main_v46 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_cst_10 (constant S_ .f32 0x00000000#32),
    TRef.unary (TRef.of (T := ⟨S_, .f32⟩) main_cst_10) (TRef.of (T := ⟨S_, .f32⟩) main_call5_v0) id,
    TRef.unary (TRef.of (T := ⟨S_, .f32⟩) main_call5_v0) (TRef.of (T := ⟨S8192, .f32⟩) main_call5_v1) (broadcastInDim S8192 ![] bcast_S_S8192),
    TRef.ternary (TRef.of (T := ⟨S8192, .i1⟩) main_v39) (TRef.of (T := ⟨S8192, .f32⟩) main_v44) (TRef.of (T := ⟨S8192, .f32⟩) main_call5_v1) (TRef.of (T := ⟨S8192, .f32⟩) main_v47) select,
    nullary main_cst_11 (constant S_ .f32 0x00000000#32),
    binary main_v47 main_cst_11 main_v48 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_c_12 (constantI S_ 32 0#32),
    binary main_v46 main_c_12 main_v49 (cmpi .sgt : (⟨S_, .i32⟩ : BufTy).Contents (Elt F) → (⟨S_, .i32⟩ : BufTy).Contents (Elt F) → (⟨S_, .i1⟩ : BufTy).Contents (Elt F)),
    nullary main_c_13 (constantI S_ 32 1#32),
    binary main_v46 main_c_13 main_v50 (maxsi : (⟨S_, .i32⟩ : BufTy).Contents (Elt F) → (⟨S_, .i32⟩ : BufTy).Contents (Elt F) → (⟨S_, .i32⟩ : BufTy).Contents (Elt F)),
    unary main_v50 main_v51 (sitofp .f32 : (⟨S_, .i32⟩ : BufTy).Contents (Elt F) → (⟨S_, .f32⟩ : BufTy).Contents (Elt F)),
    binary main_v48 main_v51 main_v52 (Host.divf : (⟨S_, .f32⟩ : BufTy).Contents (Elt F) → (⟨S_, .f32⟩ : BufTy).Contents (Elt F) → (⟨S_, .f32⟩ : BufTy).Contents (Elt F)),
    nullary main_cst_14 (constant S_ .f32 0x00000000#32),
    TRef.unary (TRef.of (T := ⟨S_, .f32⟩) main_cst_14) (TRef.of (T := ⟨S_, .f32⟩) main_call6_v0) id,
    TRef.ternary (TRef.of (T := ⟨S_, .i1⟩) main_v49) (TRef.of (T := ⟨S_, .f32⟩) main_v52) (TRef.of (T := ⟨S_, .f32⟩) main_call6_v0) (TRef.of (T := ⟨S_, .f32⟩) main_v53) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., binary_bufs_sub .., unary_bufs_sub .., binary_bufs_sub .., unary_bufs_sub .., binary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., binary_bufs_sub .., nullary_bufs_sub .., unary_bufs_sub .., binary_bufs_sub .., nullary_bufs_sub .., binary_bufs_sub .., nullary_bufs_sub .., unary_bufs_sub .., unary_bufs_sub .., ternary_bufs_sub .., nullary_bufs_sub .., unary_bufs_sub .., unary_bufs_sub .., ternary_bufs_sub .., binary_bufs_sub .., unary_bufs_sub .., unary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., binary_bufs_sub .., nullary_bufs_sub .., unary_bufs_sub .., ternary_bufs_sub ..⟩

/-- The whole line is the five stretches one after the other. -/
theorem ops_split : (ops : List (HloOp τ sig (Elt F))) = opsA ++ (opsB ++ (opsC ++ (opsD ++ opsE))) := rfl

/-- Running two lines one after the other is running the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Each stretch over an arbitrary valuation -/

section Stretches

variable (W : Valuation τ sig (Elt F))

set_option maxHeartbeats 4000000 in
theorem A_expSim : after opsA W (Proc.devRef .tc main_v9) = expSim (W (Proc.devRef .tc main_arg0)) := by
  after_results_simp <;> rfl
set_option maxHeartbeats 4000000 in
theorem A_keep_arg1 : after opsA W (Proc.devRef .tc main_arg1) = W (Proc.devRef .tc main_arg1) := by
  after_results_simp <;> rfl
set_option maxHeartbeats 4000000 in
theorem A_keep_arg2 : after opsA W (Proc.devRef .tc main_arg2) = W (Proc.devRef .tc main_arg2) := by
  after_results_simp <;> rfl

set_option maxHeartbeats 4000000 in
theorem B_posMask : after opsB W (Proc.devRef .tc main_v27)
    = posMask (F := F) (W (Proc.devRef .tc main_arg1)) (W (Proc.devRef .tc main_arg2)) := by
  after_results_simp <;> rfl
set_option maxHeartbeats 4000000 in
theorem B_negMask : after opsB W (Proc.devRef .tc main_v31)
    = negMask (F := F) (W (Proc.devRef .tc main_arg1)) (W (Proc.devRef .tc main_arg2)) := by
  after_results_simp <;> rfl
set_option maxHeartbeats 4000000 in
theorem B_keep_v9 : after opsB W (Proc.devRef .tc main_v9) = W (Proc.devRef .tc main_v9) := by
  after_results_simp <;> rfl

set_option maxHeartbeats 4000000 in
theorem C_num : after opsC W (Proc.devRef .tc main_v33)
    = maskedRowSum (W (Proc.devRef .tc main_v27)) (W (Proc.devRef .tc main_v9)) := by
  after_results_simp <;> rfl
set_option maxHeartbeats 4000000 in
theorem C_den : after opsC W (Proc.devRef .tc main_v38)
    = denominator (W (Proc.devRef .tc main_v27)) (W (Proc.devRef .tc main_v31)) (W (Proc.devRef .tc main_v9)) := by
  after_results_simp <;> rfl
set_option maxHeartbeats 4000000 in
theorem C_valid : after opsC W (Proc.devRef .tc main_v39) = anyInRow (F := F) (W (Proc.devRef .tc main_v27)) := by
  after_results_simp <;> rfl

set_option maxHeartbeats 4000000 in
theorem D_rawLoss : after opsD W (Proc.devRef .tc main_v44)
    = rawLoss (W (Proc.devRef .tc main_v39)) (W (Proc.devRef .tc main_v33)) (W (Proc.devRef .tc main_v38)) := by
  after_results_simp <;> rfl
set_option maxHeartbeats 4000000 in
theorem D_count : after opsD W (Proc.devRef .tc main_v46) = countValid (F := F) (W (Proc.devRef .tc main_v39)) := by
  after_results_simp <;> rfl
set_option maxHeartbeats 4000000 in
theorem D_keep_v39 : after opsD W (Proc.devRef .tc main_v39) = W (Proc.devRef .tc main_v39) := by
  after_results_simp <;> rfl

set_option maxHeartbeats 4000000 in
theorem E_result : after opsE W (Proc.devRef .tc main_v53)
    = guardedMean (W (Proc.devRef .tc main_v46)) (maskLoss (W (Proc.devRef .tc main_v39)) (W (Proc.devRef .tc main_v44))) := by
  after_results_simp <;> rfl

end Stretches

/-- The result buffer after the whole line, from any valuation. -/
theorem result_after (V : Valuation τ sig (Elt F)) :
    after ops V (Proc.devRef .tc main_v53)
      = resultOf (V (Proc.devRef .tc main_arg0)) (V (Proc.devRef .tc main_arg1)) (V (Proc.devRef .tc main_arg2)) := by
  rw [ops_split, after_app, after_app, after_app, after_app, E_result, D_count, D_keep_v39, D_rawLoss, C_valid, C_num, C_den,
    B_posMask, B_negMask, B_keep_v9, A_expSim, A_keep_arg1, A_keep_arg2]
  rfl

/-! ## The run -/

set_option maxRecDepth 8192 in
set_option maxHeartbeats 34400000 in
/-- On every device, for any float values, from any memory with zero counters: every weakly fair execution of
    the reference terminates with the result buffer at `resultOf` of the three argument arrays, and the
    arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
        = resultOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v53).trans (result_after (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.RefRun

end
-- ==== Proof.RefLayout.lean ====
/-
  The reference's layout and reduction operations read at an index, on its own literal shapes.

  The reference lays a column out as an [8192,1] array, a row as a [1,8192] one, stretches either to
  8192 x 8192 (or an [8192,1] column to 8192 x 256), spreads a scalar over an array, transposes the
  8192 x 256 features, contracts them with their transpose, and reduces along rows. Read at an index
  built from its coordinates each of these is the operand at the evident index: the lemmas below say
  so once, for any element type, so that the value proof never meets a layout operation again.
  The sums are stated at the exact-real instance, where the host's float sum is the plain sum; the
  two integer reductions (a row's "or", and the sum of the widened bits) are read as "some entry is
  set" and as the number of set entries.
-/
import proofs.«134439_j29841432773048_1_alg».proof.Proof.Gen.ReferenceIdeal
import Idealize.ShloMosaic.Lib.Pipeline.Value
import Idealize.ShloMosaic.Lib.ValueIdx
import Idealize.ShloMosaic.Lib.Affine
import Idealize.ShloMosaic.Lib.IndicatorCount
import Idealize.ShloMosaic.PureOps.Ideal.Laws

noncomputable section

open scoped BigOperators

namespace Cert.RefLayout

open Cert.ReferenceIdeal Cert.ReferenceIdeal.Gen Idealize.ShloMosaic Idealize.ShloMosaic.ValueIdx

variable {α : Type}

/-! ## Broadcasts -/

/-- A vector laid out as a column: entry (r, 0) is entry r. -/
theorem asColumn_apply (y : S8192.Idx → α) (r : Fin 8192) (z : Fin 1) :
    broadcastInDim S8192x1 ![0] bcast_S8192_S8192x1_0 y (ix2 r z) = y (ix1 r) :=
  broadcastInDim_apply _ bcast_S8192_S8192x1_0 y (ix2 r z) (ix1 r) (fun a => match a with
    | ⟨0, _⟩ => by show r.val = if (8192 : Nat) = 1 then 0 else r.val; rw [if_neg (by decide)])

/-- A vector laid out as a row: entry (0, c) is entry c. -/
theorem asRow_apply (y : S8192.Idx → α) (z : Fin 1) (c : Fin 8192) :
    broadcastInDim S1x8192 ![1] bcast_S8192_S1x8192_1 y (ix2 z c) = y (ix1 c) :=
  broadcastInDim_apply _ bcast_S8192_S1x8192_1 y (ix2 z c) (ix1 c) (fun a => match a with
    | ⟨0, _⟩ => by show c.val = if (8192 : Nat) = 1 then 0 else c.val; rw [if_neg (by decide)])

/-- A column stretched along 256 columns: entry (r, k) is the column's entry (r, 0). -/
theorem columnAcross256_apply (y : S8192x1.Idx → α) (r : Fin 8192) (k : Fin 256) :
    broadcastInDim S8192x256 ![0, 1] bcast_S8192x1_S8192x256_0_1 y (ix2 r k) = y (ix2 r (0 : Fin 1)) :=
  broadcastInDim_apply _ bcast_S8192x1_S8192x256_0_1 y (ix2 r k) (ix2 r (0 : Fin 1)) (fun a => match a with
    | ⟨0, _⟩ => by show r.val = if (8192 : Nat) = 1 then 0 else r.val; rw [if_neg (by decide)]
    | ⟨1, _⟩ => by show 0 = if (1 : Nat) = 1 then 0 else k.val; rw [if_pos rfl])

/-- A column stretched along 8192 columns: entry (r, c) is the column's entry (r, 0). -/
theorem columnAcross_apply (y : S8192x1.Idx → α) (r c : Fin 8192) :
    broadcastInDim S8192x8192 ![0, 1] bcast_S8192x1_S8192x8192_0_1 y (ix2 r c) = y (ix2 r (0 : Fin 1)) :=
  broadcastInDim_apply _ bcast_S8192x1_S8192x8192_0_1 y (ix2 r c) (ix2 r (0 : Fin 1)) (fun a => match a with
    | ⟨0, _⟩ => by show r.val = if (8192 : Nat) = 1 then 0 else r.val; rw [if_neg (by decide)]
    | ⟨1, _⟩ => by show 0 = if (1 : Nat) = 1 then 0 else c.val; rw [if_pos rfl])

/-- A row stretched along 8192 rows: entry (r, c) is the row's entry (0, c). -/
theorem rowDown_apply (y : S1x8192.Idx → α) (r c : Fin 8192) :
    broadcastInDim S8192x8192 ![0, 1] bcast_S1x8192_S8192x8192_0_1 y (ix2 r c) = y (ix2 (0 : Fin 1) c) :=
  broadcastInDim_apply _ bcast_S1x8192_S8192x8192_0_1 y (ix2 r c) (ix2 (0 : Fin 1) c) (fun a => match a with
    | ⟨0, _⟩ => by show 0 = if (1 : Nat) = 1 then 0 else r.val; rw [if_pos rfl]
    | ⟨1, _⟩ => by show c.val = if (8192 : Nat) = 1 then 0 else c.val; rw [if_neg (by decide)])

/-- A scalar spread over a column. -/
theorem scalarToColumn_apply (y : S_.Idx → α) (j : S8192x1.Idx) :
    broadcastInDim S8192x1 ![] bcast_S_S8192x1 y j = y ix0 :=
  broadcastInDim_apply _ bcast_S_S8192x1 y j ix0 (fun a => a.elim0)

/-- A scalar spread over a vector. -/
theorem scalarToVector_apply (y : S_.Idx → α) (j : S8192.Idx) :
    broadcastInDim S8192 ![] bcast_S_S8192 y j = y ix0 :=
  broadcastInDim_apply _ bcast_S_S8192 y j ix0 (fun a => a.elim0)

/-- A scalar spread over the square. -/
theorem scalarToSquare_apply (y : S_.Idx → α) (j : S8192x8192.Idx) :
    broadcastInDim S8192x8192 ![] bcast_S_S8192x8192 y j = y ix0 :=
  broadcastInDim_apply _ bcast_S_S8192x8192 y j ix0 (fun a => a.elim0)

/-- The transpose of the features: entry (k, c) is entry (c, k). -/
theorem transposed_apply (y : S8192x256.Idx → α) (k : Fin 256) (c : Fin 8192) :
    transpose S256x8192 [1, 0] y transposes_S8192x256_S256x8192_1_0 (ix2 k c) = y (ix2 c k) :=
  transpose_apply [1, 0] y transposes_S8192x256_S256x8192_1_0 (ix2 k c) (ix2 c k) (fun b => match b with
    | ⟨0, _⟩ => rfl
    | ⟨1, _⟩ => rfl)

/-! ## Float sums and the contraction, at the exact-real instance -/

/-- A row sum of an 8192 x 256 array: the initial value plus the sum over the 256 columns. -/
theorem rowSum256_apply (y : FVec Ideal S8192x256 .f32) (init : FVec Ideal S_ .f32) (r : Fin 8192) :
    Host.reduceAdd y init reducesTo_S8192x256_S8192_d1 h_S_ (ix1 r) = init ix0 + ∑ k : Fin 256, y (ix2 r k) := by
  simp only [Host.reduceAdd, Ideal.hostReduceAdd_def]
  rw [Ideal.hostReduceAdd_single reducesTo_S8192x256_S8192_d1 (by decide)]
  refine congrArg₂ (· + ·) (congrArg init (eq_ix0 _)) (Finset.sum_congr rfl fun k _ => ?_)
  exact congrArg y (funext fun a => Fin.ext (by match a with | ⟨0, _⟩ => rfl | ⟨1, _⟩ => rfl))

/-- A row sum of an 8192 x 8192 array: the initial value plus the sum over the 8192 columns. -/
theorem rowSum_apply (y : FVec Ideal S8192x8192 .f32) (init : FVec Ideal S_ .f32) (r : Fin 8192) :
    Host.reduceAdd y init reducesTo_S8192x8192_S8192_d1 h_S_ (ix1 r) = init ix0 + ∑ c : Fin 8192, y (ix2 r c) := by
  simp only [Host.reduceAdd, Ideal.hostReduceAdd_def]
  rw [Ideal.hostReduceAdd_single reducesTo_S8192x8192_S8192_d1 (by decide)]
  refine congrArg₂ (· + ·) (congrArg init (eq_ix0 _)) (Finset.sum_congr rfl fun k _ => ?_)
  exact congrArg y (funext fun a => Fin.ext (by match a with | ⟨0, _⟩ => rfl | ⟨1, _⟩ => rfl))

/-- A rank-one index set is its one coordinate's range … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The scalar shape has one index. -/
instance : Subsingleton S_.Idx := ⟨fun a b => funext fun d => d.elim0⟩

/-- The sum of a whole vector: the initial value plus the sum over its 8192 entries. -/
theorem totalSum_apply (y : FVec Ideal S8192 .f32) (init : FVec Ideal S_ .f32) (j : S_.Idx) :
    Host.reduceAdd y init reducesTo_S8192_S_d0 h_S_ j = init ix0 + ∑ r : Fin 8192, y (ix1 r) := by
  simp only [Host.reduceAdd, Ideal.hostReduceAdd_def]
  rw [Ideal.hostReduceAdd_total reducesTo_S8192_S_d0 (fun b => b.elim0)]
  exact congrArg₂ (· + ·) (congrArg init (eq_ix0 _)) (sum_idx1 y)

/-- The contraction's operand indices, coordinate by coordinate: the left one is (row of the result,
    contracted coordinate), the right one (contracted coordinate, column of the result). -/
theorem contr_lhs_0 (i : S8192x8192.Idx) (q : dot_S8192x256_S256x8192_S8192x8192_1_0_0_1_n_n.contr.Idx) : (dot_S8192x256_S256x8192_S8192x8192_1_0_0_1_n_n.lhsIdx i q 0).val = (i 0).val := by
  unfold DotDims.lhsIdx
  rw [dif_neg (show ¬(0 : Fin S8192x256.rank) ∈ dot_S8192x256_S256x8192_S8192x8192_1_0_0_1_n_n.lhsBatch by decide),
    dif_pos (show (0 : Fin S8192x256.rank) ∈ dot_S8192x256_S256x8192_S8192x8192_1_0_0_1_n_n.lhsNonContracting by decide)]
  rfl
theorem contr_lhs_1 (i : S8192x8192.Idx) (q : dot_S8192x256_S256x8192_S8192x8192_1_0_0_1_n_n.contr.Idx) : (dot_S8192x256_S256x8192_S8192x8192_1_0_0_1_n_n.lhsIdx i q 1).val = (q ⟨0, by decide⟩).val :=
  dot_S8192x256_S256x8192_S8192x8192_1_0_0_1_n_n.lhsIdx_val_of_single rfl i q
theorem contr_rhs_0 (i : S8192x8192.Idx) (q : dot_S8192x256_S256x8192_S8192x8192_1_0_0_1_n_n.contr.Idx) : (dot_S8192x256_S256x8192_S8192x8192_1_0_0_1_n_n.rhsIdx i q 0).val = (q ⟨0, by decide⟩).val :=
  dot_S8192x256_S256x8192_S8192x8192_1_0_0_1_n_n.rhsIdx_val_of_single rfl i q
theorem contr_rhs_1 (i : S8192x8192.Idx) (q : dot_S8192x256_S256x8192_S8192x8192_1_0_0_1_n_n.contr.Idx) : (dot_S8192x256_S256x8192_S8192x8192_1_0_0_1_n_n.rhsIdx i q 1).val = (i 1).val := by
  unfold DotDims.rhsIdx
  rw [dif_neg (show ¬(1 : Fin S256x8192.rank) ∈ dot_S8192x256_S256x8192_S8192x8192_1_0_0_1_n_n.rhsBatch by decide),
    dif_pos (show (1 : Fin S256x8192.rank) ∈ dot_S8192x256_S256x8192_S8192x8192_1_0_0_1_n_n.rhsNonContracting by decide)]
  rfl

/-- The contraction of an 8192 x 256 array with a 256 x 8192 one: entry (r, c) is the sum over k of
    (r, k) times (k, c). -/
theorem contraction_apply (l : FVec Ideal S8192x256 .f32) (rr : FVec Ideal S256x8192 .f32) (r c : Fin 8192) :
    Host.dotGeneral dot_S8192x256_S256x8192_S8192x8192_1_0_0_1_n_n none l rr (ix2 r c) = ∑ k : Fin 256, l (ix2 r k) * rr (ix2 k c) := by
  simp only [Host.dotGeneral]
  rw [Ideal.dotGeneral_apply, ← Equiv.sum_comp (contrEquiv1 dot_S8192x256_S256x8192_S8192x8192_1_0_0_1_n_n 256 rfl rfl).symm]
  refine Finset.sum_congr rfl fun k _ => ?_
  have hk := contrEquiv1_symm_val dot_S8192x256_S256x8192_S8192x8192_1_0_0_1_n_n 256 rfl rfl k
  have el : dot_S8192x256_S256x8192_S8192x8192_1_0_0_1_n_n.lhsIdx (ix2 r c) ((contrEquiv1 dot_S8192x256_S256x8192_S8192x8192_1_0_0_1_n_n 256 rfl rfl).symm k) = ix2 r k :=
    funext fun a => Fin.ext (by
      match a with
      | ⟨0, _⟩ => exact contr_lhs_0 _ _
      | ⟨1, _⟩ => exact (contr_lhs_1 _ _).trans hk)
  have er : dot_S8192x256_S256x8192_S8192x8192_1_0_0_1_n_n.rhsIdx (ix2 r c) ((contrEquiv1 dot_S8192x256_S256x8192_S8192x8192_1_0_0_1_n_n 256 rfl rfl).symm k) = ix2 k c :=
    funext fun a => Fin.ext (by
      match a with
      | ⟨0, _⟩ => exact (contr_rhs_0 _ _).trans hk
      | ⟨1, _⟩ => exact contr_rhs_1 _ _)
  rw [el, er]

/-! ## The two integer reductions -/

/-- A fold by "or" from the zero bit is set exactly when some folded bit is. -/
theorem fold_ori_eq_one {ι : Type} (p : ι → BitVec 1) (S : Finset ι) :
    S.fold IntOp.ori (0#1) p = 1#1 ↔ ∃ k ∈ S, p k = 1#1 := by
  classical
  induction S using Finset.induction_on with
  | empty => simp
  | insert a S ha ih =>
    rw [Finset.fold_insert ha, IntOp.ori_eq_one, ih]
    constructor
    · rintro (h | ⟨k, hk, h⟩)
      · exact ⟨a, Finset.mem_insert_self _ _, h⟩
      · exact ⟨k, Finset.mem_insert_of_mem hk, h⟩
    · rintro ⟨k, hk, h⟩
      rcases Finset.mem_insert.1 hk with rfl | hk
      · exact Or.inl h
      · exact Or.inr ⟨k, hk, h⟩

/-- A row's "or": set exactly when some entry of the row is. -/
theorem rowAny_eq_one (mask : IVec S8192x8192 1) (r : Fin 8192) :
    Host.reduce IntOp.ori mask (constantI S_ 1 0#1) reducesTo_S8192x8192_S8192_d1 h_S_ (ix1 r) = 1#1
      ↔ ∃ c : Fin 8192, mask (ix2 r c) = 1#1 := by
  rw [Host.reduce_eq_fold_single IntOp.ori mask _ reducesTo_S8192x8192_S8192_d1 (by decide) h_S_ (ix1 r)]
  refine (fold_ori_eq_one (ι := Fin 8192) _ Finset.univ).trans ?_
  constructor
  · rintro ⟨k, _, h⟩
    refine ⟨k, ?_⟩
    rw [← h]
    exact congrArg mask (funext fun a => Fin.ext (by match a with | ⟨0, _⟩ => rfl | ⟨1, _⟩ => rfl))
  · rintro ⟨c, h⟩
    refine ⟨c, Finset.mem_univ _, ?_⟩
    rw [← h]
    exact congrArg mask (funext fun a => Fin.ext (by match a with | ⟨0, _⟩ => rfl | ⟨1, _⟩ => rfl))

/-- Counting the indices of a vector that satisfy a predicate is counting the coordinates. -/
theorem card_filter_idx1 {n : Nat} (p : (⟨1, ![n]⟩ : Shape).Idx → Prop) [DecidablePred p] :
    (Finset.univ.filter p).card = (Finset.univ.filter fun r : Fin n => p (ix1 r)).card := by
  rw [Finset.card_filter, Finset.card_filter]
  exact sum_idx1 fun i => if p i then 1 else 0

/-- The 32-bit sum of a vector of bits, each widened: the number of set bits, as a word. -/
theorem bitCount_apply (valid : IVec S8192 1) (j : S_.Idx) :
    Host.reduce IntOp.addi (extui 32 valid natLt_1_32) (constantI S_ 32 0#32) reducesTo_S8192_S_d0 h_S_ j
      = BitVec.ofNat 32 (Finset.univ.filter fun r : Fin 8192 => valid (ix1 r) = 1#1).card := by
  rw [Host.reduce_eq_fold IntOp.addi _ _ reducesTo_S8192_S_d0 h_S_ j,
    Finset.filter_true_of_mem (fun i _ => Subsingleton.elim _ _)]
  refine (IndicatorCount.fold_addi_setWidth_eq_card (w := 32) (fun i : S8192.Idx => valid i) Finset.univ).trans ?_
  exact congrArg (BitVec.ofNat 32) (card_filter_idx1 fun i : S8192.Idx => valid i = 1#1)

end Cert.RefLayout

end
-- ==== Proof.Spec.lean ====
/-
  The quantity both programs compute, written once as a function of the three argument arrays and
  of nothing else: a supervised contrastive loss over N = 8192 feature rows of D = 256 entries, each
  row carrying two integer tags (an emotion label and a speaker id).

  Every row is scaled to unit length (its Euclidean norm clamped from below), the similarity of two
  rows is the inner product of the scaled rows, and a pair of distinct rows with the same label
  weighs in with the exponential of its similarity over the temperature: among a row's POSITIVE
  partners when the speakers agree too, among its NEGATIVE partners when they differ. A row that has
  a positive partner contributes minus the logarithm of (positive mass) / (negative mass + positive
  mass + epsilon); the result is the mean contribution over the rows that have one, and 0 when there
  is none.

  All arithmetic is the exact one of the extended reals (a float is a real number or an infinity,
  division and the transcendental functions are the ideal instance's), and the three float literals
  stay the words the programs carry: nothing here evaluates them.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The feature matrix: 8192 rows of 256 extended reals. -/
abbrev Features : Type := (⟨2, ![8192, 256]⟩ : Shape).Idx → EReal
/-- One 32-bit tag per row. -/
abbrev Tags : Type := (⟨1, ![8192]⟩ : Shape).Idx → BitVec 32

/-- The lower clamp of a row's norm, the word of 1e-12. -/
abbrev normFloor : EReal := Ideal.ofBits .f32 0x2B8CBCCC#32
/-- The temperature, the word of 0.8. -/
abbrev temperature : EReal := Ideal.ofBits .f32 0x3F4CCCCD#32
/-- The epsilon added to the denominator, the word of 1e-7. -/
abbrev epsilon : EReal := Ideal.ofBits .f32 0x33D6BF95#32

/-- The sum of the squares of row `r`. -/
def sqNorm (X : Features) (r : Fin 8192) : EReal := ∑ k : Fin 256, X (ix2 r k) * X (ix2 r k)

/-- The clamped Euclidean norm of row `r`. -/
def rowNorm (X : Features) (r : Fin 8192) : EReal := max (Ideal.sqrt (sqNorm X r)) normFloor

/-- Entry `k` of row `r` scaled to unit length. -/
def unitRow (X : Features) (r : Fin 8192) (k : Fin 256) : EReal := Ideal.div (X (ix2 r k)) (rowNorm X r)

/-- The inner product of the scaled rows `r` and `c`. -/
def similarity (X : Features) (r c : Fin 8192) : EReal := ∑ k : Fin 256, unitRow X r k * unitRow X c k

/-- The weight of the pair (r, c): the exponential of its similarity over the temperature. -/
def weight (X : Features) (r c : Fin 8192) : EReal := Ideal.exp (Ideal.div (similarity X r c) temperature)

/-- `c` is a positive partner of `r`: same label, same speaker, another row. -/
def positivePair (Lb Sp : Tags) (r c : Fin 8192) : Prop :=
  Lb (ix1 r) = Lb (ix1 c) ∧ Sp (ix1 r) = Sp (ix1 c) ∧ r ≠ c

/-- `c` is a negative partner of `r`: same label, another speaker, another row. -/
def negativePair (Lb Sp : Tags) (r c : Fin 8192) : Prop :=
  Lb (ix1 r) = Lb (ix1 c) ∧ Sp (ix1 r) ≠ Sp (ix1 c) ∧ r ≠ c

instance (Lb Sp : Tags) (r c : Fin 8192) : Decidable (positivePair Lb Sp r c) := by
  unfold positivePair; infer_instance
instance (Lb Sp : Tags) (r c : Fin 8192) : Decidable (negativePair Lb Sp r c) := by
  unfold negativePair; infer_instance

/-- Row `r` has a positive partner: the rows that count. -/
def hasPositive (Lb Sp : Tags) (r : Fin 8192) : Prop := ∃ c : Fin 8192, positivePair Lb Sp r c

instance (Lb Sp : Tags) (r : Fin 8192) : Decidable (hasPositive Lb Sp r) := by
  unfold hasPositive; infer_instance

/-- The total weight of row `r`'s positive partners. -/
def positiveMass (X : Features) (Lb Sp : Tags) (r : Fin 8192) : EReal :=
  ∑ c : Fin 8192, if positivePair Lb Sp r c then weight X r c else 0

/-- The total weight of row `r`'s negative partners. -/
def negativeMass (X : Features) (Lb Sp : Tags) (r : Fin 8192) : EReal :=
  ∑ c : Fin 8192, if negativePair Lb Sp r c then weight X r c else 0

/-- What row `r` contributes: minus the logarithm of its positive mass over all its mass plus epsilon,
    and nothing when it has no positive partner. -/
def rowLoss (X : Features) (Lb Sp : Tags) (r : Fin 8192) : EReal :=
  if hasPositive Lb Sp r then
    -Ideal.log (Ideal.div (positiveMass X Lb Sp r)
      ((negativeMass X Lb Sp r + positiveMass X Lb Sp r) + epsilon))
  else 0

/-- The number of rows that count, as an extended real: a sum of ones. -/
def validCount (Lb Sp : Tags) : EReal := ∑ r : Fin 8192, if hasPositive Lb Sp r then (1 : EReal) else 0

/-- The sum of all rows' contributions. -/
def totalLoss (X : Features) (Lb Sp : Tags) : EReal := ∑ r : Fin 8192, rowLoss X Lb Sp r

/-- THE RESULT: the mean contribution of the rows that count, 0 when none does. -/
def result (X : Features) (Lb Sp : Tags) : EReal :=
  if 0 < validCount Lb Sp then Ideal.div (totalLoss X Lb Sp) (max (validCount Lb Sp) 1) else 0

/-- The number of rows that count, as a natural number. -/
def validCard (Lb Sp : Tags) : ℕ := (Finset.univ.filter fun r : Fin 8192 => hasPositive Lb Sp r).card

/-- At most every row counts. -/
theorem validCard_le (Lb Sp : Tags) : validCard Lb Sp ≤ 8192 := by
  unfold validCard
  exact (Finset.card_le_univ _).trans (by simp)

/-- The sum of ones is that number. -/
theorem validCount_eq_card (Lb Sp : Tags) : validCount Lb Sp = ((validCard Lb Sp : ℕ) : EReal) := by
  unfold validCount validCard
  exact Finset.sum_boole _ _

/-- Some row counts exactly when the sum of ones is positive. -/
theorem validCount_pos_iff (Lb Sp : Tags) : 0 < validCount Lb Sp ↔ 0 < validCard Lb Sp := by
  rw [validCount_eq_card]
  exact_mod_cast Iff.rfl

end Cert.Spec

end
-- ==== Proof.RefValue.lean ====
/-
  The reference's result IS the specified loss.

  The run of the reference ends with its result buffer at `resultOf` of the three argument arrays, a
  term of named stages. Each stage is read here at an index, at the exact-real instance, and found
  to be the matching piece of the specification: the clamped row norm, the unit rows, the weight of a
  pair, the two pair predicates, the two masses, the "has a positive partner" bit, a row's loss, and
  finally the guarded mean, where the reference's 32-bit count of the rows that count (at most 8192
  of them, so nothing wraps) is the specification's sum of ones.
-/
import proofs.«134439_j29841432773048_1_alg».proof.Proof.RefRun
import proofs.«134439_j29841432773048_1_alg».proof.Proof.RefLayout
import proofs.«134439_j29841432773048_1_alg».proof.Proof.Spec

noncomputable section

open scoped BigOperators

namespace Cert.RefValue

open Cert.ReferenceIdeal Cert.ReferenceIdeal.Gen Idealize.ShloMosaic Idealize.ShloMosaic.ValueIdx Cert.RefRun Cert.RefLayout

/-! ## The float stages -/

/-- The clamped norm column at row `r` is the specification's clamped norm of row `r`. -/
theorem clampedNorm_apply (x : FVec Ideal S8192x256 .f32) (r : Fin 8192) (z : Fin 1) :
    clampedNorm (F := Ideal) x (ix2 r z) = Spec.rowNorm x r := by
  unfold clampedNorm
  show max (Ideal.sqrt (broadcastInDim (s := S8192) S8192x1 ![0] bcast_S8192_S8192x1_0 _ (ix2 r z)))
    (broadcastInDim (s := S_) S8192x1 ![] bcast_S_S8192x1 _ (ix2 r z)) = _
  rw [asColumn_apply, scalarToColumn_apply, rowSum256_apply]
  show max (Ideal.sqrt (Ideal.ofBits .f32 0x00000000#32 + ∑ k : Fin 256, x (ix2 r k) * x (ix2 r k)))
    (Ideal.ofBits .f32 0x2B8CBCCC#32) = _
  rw [Ideal.ofBits_zero_f32, zero_add]
  rfl

/-- The unit rows at (r, k). -/
theorem unitRows_apply (x : FVec Ideal S8192x256 .f32) (r : Fin 8192) (k : Fin 256) :
    unitRows (F := Ideal) x (ix2 r k) = Spec.unitRow x r k := by
  unfold unitRows
  show Ideal.div (x (ix2 r k)) (broadcastInDim (s := S8192x1) S8192x256 ![0, 1] bcast_S8192x1_S8192x256_0_1 _ (ix2 r k)) = _
  rw [columnAcross256_apply, clampedNorm_apply]
  rfl

/-- The exponential of the scaled similarity at (r, c) is the pair's weight. -/
theorem expSim_apply (x : FVec Ideal S8192x256 .f32) (r c : Fin 8192) :
    expSim (F := Ideal) x (ix2 r c) = Spec.weight x r c := by
  unfold expSim
  show Ideal.exp (Ideal.div (Host.dotGeneral (F := Ideal) dot_S8192x256_S256x8192_S8192x8192_1_0_0_1_n_n none _ _ (ix2 r c))
    (broadcastInDim (s := S_) S8192x8192 ![] bcast_S_S8192x8192 _ (ix2 r c))) = _
  rw [contraction_apply, scalarToSquare_apply]
  have hs : (∑ k : Fin 256, unitRows (F := Ideal) x (ix2 r k)
      * transpose S256x8192 [1, 0] (unitRows (F := Ideal) x) transposes_S8192x256_S256x8192_1_0 (ix2 k c))
      = Spec.similarity x r c :=
    Finset.sum_congr rfl fun k _ => by rw [transposed_apply, unitRows_apply, unitRows_apply]
  rw [hs]
  rfl

/-! ## The masks -/

/-- Two rows' tags agree exactly where the comparison's bit is set. -/
theorem sameTag_eq_one (a : IVec S8192 32) (r c : Fin 8192) :
    sameTag (F := Ideal) a (ix2 r c) = 1#1 ↔ a (ix1 r) = a (ix1 c) := by
  unfold sameTag
  show IntOp.cmpi .eq (broadcastInDim (s := S8192x1) S8192x8192 ![0, 1] bcast_S8192x1_S8192x8192_0_1 _ (ix2 r c))
    (broadcastInDim (s := S1x8192) S8192x8192 ![0, 1] bcast_S1x8192_S8192x8192_0_1 _ (ix2 r c)) = 1#1 ↔ _
  rw [columnAcross_apply, rowDown_apply, asColumn_apply, asRow_apply]
  exact IntOp.cmpi_eq

/-- The diagonal's bit is set exactly at (r, r). -/
theorem diagonal_eq_one (r c : Fin 8192) : diagonal (F := Ideal) (ix2 r c) = 1#1 ↔ r = c := by
  unfold diagonal
  show IntOp.cmpi .eq (IntOp.addi (BitVec.ofNat 32 r.val) (broadcastInDim (s := S_) S8192x8192 ![] bcast_S_S8192x8192 _ (ix2 r c)))
    (BitVec.ofNat 32 c.val) = 1#1 ↔ _
  rw [scalarToSquare_apply, IntOp.cmpi_eq]
  show BitVec.ofNat 32 r.val + 0#32 = BitVec.ofNat 32 c.val ↔ _
  rw [BitVec.add_zero]
  constructor
  · intro h
    have e := congrArg BitVec.toNat h
    rw [BitVec.toNat_ofNat, BitVec.toNat_ofNat, Nat.mod_eq_of_lt (Nat.lt_of_lt_of_le r.isLt (by decide)),
      Nat.mod_eq_of_lt (Nat.lt_of_lt_of_le c.isLt (by decide))] at e
    exact Fin.ext e
  · rintro rfl
    rfl

/-- The positive mask's bit is the specification's positive pair. -/
theorem posMask_eq_one (lb sp : IVec S8192 32) (r c : Fin 8192) :
    posMask (F := Ideal) lb sp (ix2 r c) = 1#1 ↔ Spec.positivePair lb sp r c := by
  unfold posMask
  show IntOp.andi (IntOp.andi (sameTag (F := Ideal) lb (ix2 r c)) (sameTag (F := Ideal) sp (ix2 r c)))
    (~~~(diagonal (F := Ideal) (ix2 r c))) = 1#1 ↔ _
  rw [IntOp.andi_eq_one, IntOp.andi_eq_one, IntOp.not_eq_one, sameTag_eq_one, sameTag_eq_one, diagonal_eq_one]
  exact and_assoc

/-- The negative mask's bit is the specification's negative pair. -/
theorem negMask_eq_one (lb sp : IVec S8192 32) (r c : Fin 8192) :
    negMask (F := Ideal) lb sp (ix2 r c) = 1#1 ↔ Spec.negativePair lb sp r c := by
  unfold negMask
  show IntOp.andi (IntOp.andi (sameTag (F := Ideal) lb (ix2 r c)) (~~~(sameTag (F := Ideal) sp (ix2 r c))))
    (~~~(diagonal (F := Ideal) (ix2 r c))) = 1#1 ↔ _
  rw [IntOp.andi_eq_one, IntOp.andi_eq_one, IntOp.not_eq_one, IntOp.not_eq_one, sameTag_eq_one, sameTag_eq_one,
    diagonal_eq_one]
  exact and_assoc

/-! ## The masked sums, the row bits, the losses -/

/-- A masked row sum is the sum of the entries whose pair the mask's predicate holds of. -/
theorem maskedRowSum_apply (mask : IVec S8192x8192 1) (e : FVec Ideal S8192x8192 .f32)
    (P : Fin 8192 → Fin 8192 → Prop) [∀ r c, Decidable (P r c)] (w : Fin 8192 → Fin 8192 → EReal)
    (hm : ∀ r c, mask (ix2 r c) = 1#1 ↔ P r c) (he : ∀ r c, e (ix2 r c) = w r c) (r : Fin 8192) :
    maskedRowSum (F := Ideal) mask e (ix1 r) = ∑ c : Fin 8192, if P r c then w r c else 0 := by
  unfold maskedRowSum
  rw [rowSum_apply]
  show Ideal.ofBits .f32 0x00000000#32 + _ = _
  rw [Ideal.ofBits_zero_f32, zero_add]
  refine Finset.sum_congr rfl fun c _ => ?_
  show (if mask (ix2 r c) = 1#1 then e (ix2 r c)
    else broadcastInDim (s := S_) S8192x8192 ![] bcast_S_S8192x8192 _ (ix2 r c)) = _
  rw [scalarToSquare_apply, he]
  show (if mask (ix2 r c) = 1#1 then w r c else Ideal.ofBits .f32 0x00000000#32) = _
  rw [Ideal.ofBits_zero_f32]
  exact if_congr (hm r c) rfl rfl

/-- The denominator at row `r`. -/
theorem denominator_apply (mp mn : IVec S8192x8192 1) (e : FVec Ideal S8192x8192 .f32) (r : Fin 8192) :
    denominator (F := Ideal) mp mn e (ix1 r)
      = (maskedRowSum (F := Ideal) mn e (ix1 r) + maskedRowSum (F := Ideal) mp e (ix1 r)) + Spec.epsilon := by
  unfold denominator
  show (_ + _) + broadcastInDim (s := S_) S8192 ![] bcast_S_S8192 _ (ix1 r) = _
  rw [scalarToVector_apply]
  rfl

/-- A row's bit is set exactly when the row has a positive partner. -/
theorem anyInRow_eq_one (lb sp : IVec S8192 32) (r : Fin 8192) :
    anyInRow (F := Ideal) (posMask (F := Ideal) lb sp) (ix1 r) = 1#1 ↔ Spec.hasPositive lb sp r := by
  unfold anyInRow
  rw [rowAny_eq_one]
  exact exists_congr fun c => posMask_eq_one lb sp r c

/-- A row's loss: minus the logarithm of numerator over denominator where its bit is set, zero where not. -/
theorem rowLosses_apply (valid : IVec S8192 1) (num den : FVec Ideal S8192 .f32) (r : Fin 8192)
    (P : Prop) [Decidable P] (hv : valid (ix1 r) = 1#1 ↔ P) :
    rowLosses (F := Ideal) valid num den (ix1 r)
      = if P then -Ideal.log (Ideal.div (num (ix1 r)) (den (ix1 r))) else 0 := by
  unfold rowLosses maskLoss rawLoss
  show (if valid (ix1 r) = 1#1 then
      -Ideal.log (Ideal.div
        (if valid (ix1 r) = 1#1 then num (ix1 r) else broadcastInDim (s := S_) S8192 ![] bcast_S_S8192 _ (ix1 r))
        (if valid (ix1 r) = 1#1 then den (ix1 r) else broadcastInDim (s := S_) S8192 ![] bcast_S_S8192 _ (ix1 r)))
    else broadcastInDim (s := S_) S8192 ![] bcast_S_S8192 _ (ix1 r)) = _
  by_cases h : P
  · rw [if_pos (hv.mpr h), if_pos (hv.mpr h), if_pos (hv.mpr h), if_pos h]
  · rw [if_neg (mt hv.mp h), if_neg h, scalarToVector_apply]
    exact Ideal.ofBits_zero_f32

/-! ## The count and the guarded mean -/

/-- A count of at most 8192, as a 32-bit word, reads back as itself. -/
theorem countWord_toInt (n : ℕ) (hn : n ≤ 8192) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The guarded mean over the reference's count: the sum of the losses over the larger of the count and
    one when some row counts, zero when none does. -/
theorem guardedMean_apply (valid : IVec S8192 1) (losses : FVec Ideal S8192 .f32) (n : ℕ)
    (hn : (Finset.univ.filter fun r : Fin 8192 => valid (ix1 r) = 1#1).card = n) (hle : n ≤ 8192) :
    guardedMean (F := Ideal) (countValid (F := Ideal) valid) losses ix0
      = if 0 < n then Ideal.div (∑ r : Fin 8192, losses (ix1 r)) (max ((n : ℕ) : EReal) 1) else 0 := by
  unfold guardedMean countValid
  show (if IntOp.cmpi .sgt (Host.reduce IntOp.addi (extui 32 valid natLt_1_32) (constantI S_ 32 0#32) reducesTo_S8192_S_d0 h_S_ ix0) 0#32 = 1#1
    then Ideal.div (Host.reduceAdd losses (constant S_ .f32 0x00000000#32) reducesTo_S8192_S_d0 h_S_ ix0)
      (((IntOp.maxsi (Host.reduce IntOp.addi (extui 32 valid natLt_1_32) (constantI S_ 32 0#32) reducesTo_S8192_S_d0 h_S_ ix0) 1#32).toInt : ℝ) : EReal)
    else Ideal.ofBits .f32 0x00000000#32) = _
  rw [bitCount_apply, hn, totalSum_apply]
  show (if IntOp.cmpi .sgt (BitVec.ofNat 32 n) 0#32 = 1#1
    then Ideal.div (Ideal.ofBits .f32 0x00000000#32 + ∑ r : Fin 8192, losses (ix1 r))
      (((IntOp.maxsi (BitVec.ofNat 32 n) 1#32).toInt : ℝ) : EReal)
    else Ideal.ofBits .f32 0x00000000#32) = _
  rw [Ideal.ofBits_zero_f32, zero_add]
  have hpos : IntOp.cmpi .sgt (BitVec.ofNat 32 n) 0#32 = 1#1 ↔ 0 < n := by
    rw [IntOp.cmpi_sgt, countWord_toInt n hle]
    show (0 : ℤ) < (n : ℤ) ↔ _
    exact Int.natCast_pos
  refine (if_congr hpos ?_ rfl)
  -- the divisor: the larger of the count and one
  refine congrArg (Ideal.div (∑ r : Fin 8192, losses (ix1 r))) ?_
  have hmax : (IntOp.maxsi (BitVec.ofNat 32 n) 1#32).toInt = ((max n 1 : ℕ) : ℤ) := by
    unfold IntOp.maxsi
    by_cases h1 : (1#32 : BitVec 32).slt (BitVec.ofNat 32 n)
    · rw [if_pos h1, countWord_toInt n hle]
      have : (1 : ℤ) < (n : ℤ) := by
        have := BitVec.slt_iff_toInt_lt.mp h1
        rw [countWord_toInt n hle] at this
        exact this
      have : 1 < n := by exact_mod_cast this
      rw [max_eq_left (by omega)]
    · rw [if_neg h1]
      have : ¬ ((1 : ℤ) < (n : ℤ)) := by
        intro h
        apply h1
        rw [BitVec.slt_iff_toInt_lt, countWord_toInt n hle]
        exact h
      have : n ≤ 1 := by
        by_contra hc
        exact this (by exact_mod_cast (Nat.lt_of_not_le hc))
      rw [max_eq_right this]
      rfl
  rw [hmax, Int.cast_natCast]
  show ((((max n 1 : ℕ)) : ℝ) : EReal) = max ((n : ℕ) : EReal) 1
  rcases le_total n 1 with h | h
  · rw [max_eq_right h, max_eq_right]
    · simp
    · rw [← EReal.coe_coe_eq_natCast]
      exact_mod_cast h
  · rw [max_eq_left h, max_eq_left]
    · rfl
    · rw [← EReal.coe_coe_eq_natCast]
      exact_mod_cast h

/-! ## The result -/

/-- THE REFERENCE IS THE SPECIFICATION: the term its run ends at is, at its one index, the specified loss
    of the three argument arrays. -/
theorem resultOf_eq (X : FVec Ideal S8192x256 .f32) (Lb Sp : IVec S8192 32) (j : S_.Idx) :
    resultOf (F := Ideal) X Lb Sp j = Spec.result X Lb Sp := by
  rw [eq_ix0 j]
  unfold resultOf
  have hcard : (Finset.univ.filter fun r : Fin 8192 =>
      anyInRow (F := Ideal) (posMask (F := Ideal) Lb Sp) (ix1 r) = 1#1).card = Spec.validCard Lb Sp := by
    unfold Spec.validCard
    exact congrArg Finset.card (Finset.filter_congr fun r _ => anyInRow_eq_one Lb Sp r)
  rw [guardedMean_apply _ _ (Spec.validCard Lb Sp) hcard (Spec.validCard_le Lb Sp)]
  unfold Spec.result
  rw [Spec.validCount_eq_card]
  have hpos : 0 < Spec.validCard Lb Sp ↔ (0 : EReal) < ((Spec.validCard Lb Sp : ℕ) : EReal) := by
    rw [← EReal.coe_coe_eq_natCast]
    exact_mod_cast Iff.rfl
  refine if_congr hpos ?_ rfl
  refine congrArg (fun t => Ideal.div t (max ((Spec.validCard Lb Sp : ℕ) : EReal) 1)) ?_
  unfold Spec.totalLoss
  refine Finset.sum_congr rfl fun r _ => ?_
  rw [rowLosses_apply _ _ _ r (Spec.hasPositive Lb Sp r) (anyInRow_eq_one Lb Sp r), denominator_apply,
    maskedRowSum_apply _ _ (Spec.positivePair Lb Sp) (Spec.weight X) (posMask_eq_one Lb Sp) (expSim_apply X) r,
    maskedRowSum_apply _ _ (Spec.negativePair Lb Sp) (Spec.weight X) (negMask_eq_one Lb Sp) (expSim_apply X) r]
  rfl

/-! ## The run, with the result named by the specification -/

open Idealize.ShloMosaic.TcCoe Idealize.SL.Sem Idealize.ShloMosaic.StableHlo in
/-- Every weakly fair execution of the reference, from any memory with zero counters, terminates with
    its result buffer holding the specified loss of the three argument arrays at its one index, and
    the arguments unchanged. -/
theorem ref_run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ j, r.2.mem ((c.tc : Thread nD τ).loc main_v53) j
        = Spec.result (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨fun j => (congrFun (h c).1 j).trans (resultOf_eq _ _ _ j), (h c).2⟩)
    (ref_run (F := Ideal) m ρ)

end Cert.RefValue

end
-- ==== Proof.PairTiles.lean ====
/-
  The pair kernel's tiles as pieces of the whole arrays.

  At grid point t = 16·i + j the kernel is at tile (i, j) of the 16 × 16 tiling. Its row inputs (the
  unit-norm features' rows, the label column, the speaker column) are cut at rows 512·i … 512·i + 511,
  its column inputs (the features' rows again, the label row, the speaker row) at 512·j … 512·j + 511:
  a block's coordinate is the block index times the block size plus the coordinate inside the block.
  The six lemmas below read each tile at a local index as the whole array at the global one.
-/
import proofs.«134439_j29841432773048_1_alg».proof.Proof.PairData
import Idealize.ShloMosaic.Lib.ValueIdx

set_option maxRecDepth 16384

noncomputable section

namespace Cert.KernelIdeal.PairRows

open Cert.KernelIdeal Cert.KernelIdeal.Gen Cert.KernelIdeal.PairRegion
open Idealize.ShloMosaic Idealize.ShloMosaic.TcCoe Idealize.ShloMosaic.Tactic
open Idealize.SL Idealize.SL.Sem
open Idealize.ShloMosaic.Pipeline (Dat Cfg Window)
open Idealize.ShloMosaic.ValueIdx (ix2 eq_ix2)

variable {F : FTy → Type} [FloatOps F] [Named F]

variable (V : (c : Dev nD) → (b : Ref sig .tc) → Buf (Elt F) ((c : Thread nD τ).loc b))

/-- The grid has 256 points. -/
theorem point_lt (t : Fin cfg1.N) : t.val < 256 := lt_of_lt_of_eq t.isLt (show cfg1.N = 256 from N_1)

/-- The printed index maps over the 256 points: the row windows sit at block t / 16 of the rows, the
    column windows at block t mod 16, and the point's own coordinates are (t / 16, t mod 16). -/
theorem index_facts : ∀ t : Fin cfg1.N,
    (win1_0.index t (0 : Fin 2) = t.val / 16 ∧ win1_0.index t (1 : Fin 2) = 0)
    ∧ (win1_1.index t (0 : Fin 2) = t.val % 16 ∧ win1_1.index t (1 : Fin 2) = 0)
    ∧ (win1_2.index t (0 : Fin 2) = t.val / 16 ∧ win1_2.index t (1 : Fin 2) = 0)
    ∧ (win1_3.index t (0 : Fin 2) = 0 ∧ win1_3.index t (1 : Fin 2) = t.val % 16)
    ∧ (win1_4.index t (0 : Fin 2) = t.val / 16 ∧ win1_4.index t (1 : Fin 2) = 0)
    ∧ (win1_5.index t (0 : Fin 2) = 0 ∧ win1_5.index t (1 : Fin 2) = t.val % 16)
    ∧ ((grid1.coords t 0).val = t.val / 16 ∧ (grid1.coords t 1).val = t.val % 16) :=
  (by decide +kernel : ∀ t : Fin grid1.N,
    (win1_0.index t (0 : Fin 2) = t.val / 16 ∧ win1_0.index t (1 : Fin 2) = 0)
    ∧ (win1_1.index t (0 : Fin 2) = t.val % 16 ∧ win1_1.index t (1 : Fin 2) = 0)
    ∧ (win1_2.index t (0 : Fin 2) = t.val / 16 ∧ win1_2.index t (1 : Fin 2) = 0)
    ∧ (win1_3.index t (0 : Fin 2) = 0 ∧ win1_3.index t (1 : Fin 2) = t.val % 16)
    ∧ (win1_4.index t (0 : Fin 2) = t.val / 16 ∧ win1_4.index t (1 : Fin 2) = 0)
    ∧ (win1_5.index t (0 : Fin 2) = 0 ∧ win1_5.index t (1 : Fin 2) = t.val % 16)
    ∧ ((grid1.coords t 0).val = t.val / 16 ∧ (grid1.coords t 1).val = t.val % 16))

/-- The point's tile coordinates. -/
theorem coords_row (t : Fin cfg1.N) : (grid1.coords t 0).val = t.val / 16 := (index_facts t).2.2.2.2.2.2.1
theorem coords_col (t : Fin cfg1.N) : (grid1.coords t 1).val = t.val % 16 := (index_facts t).2.2.2.2.2.2.2

/-- Global row 512·g + a of an array of 8192 rows, for a block g of the 16 and a row a inside it. -/
abbrev gIdx (g : ℕ) (hg : g < 16) (a : Fin 512) : Fin 8192 := ⟨512 * g + a.val, by have := a.isLt; omega⟩

theorem div16_lt (t : Fin cfg1.N) : t.val / 16 < 16 := by have := point_lt t; omega
theorem mod16_lt (t : Fin cfg1.N) : t.val % 16 < 16 := Nat.mod_lt _ (by decide)

/-- The row tile of the features at (a, k) is the features at row 512·(t / 16) + a. -/
theorem tile0_at (c : Dev nD) (t : Fin cfg1.N) (a : Fin 512) (k : Fin 256) :
    tile V c 0 t (ix2 a k) = V c main_v0 (ix2 (gIdx (t.val / 16) (div16_lt t) a) k) := by
  obtain ⟨⟨e0, e1⟩, -⟩ := index_facts t
  show V c main_v0 (((cfg1.win 0).blk t).view.emb (ix2 a k)) = V c main_v0 _
  refine congrArg (V c main_v0) ?_
  funext d; apply Fin.ext
  match d with
  | ⟨0, _⟩ => show win1_0.index t (0 : Fin 2) * 512 + 1 * a.val = 512 * (t.val / 16) + a.val; omega
  | ⟨1, _⟩ => show win1_0.index t (1 : Fin 2) * 256 + 1 * k.val = k.val; omega

/-- The column tile of the features at (b, k) is the features at row 512·(t mod 16) + b. -/
theorem tile1_at (c : Dev nD) (t : Fin cfg1.N) (b : Fin 512) (k : Fin 256) :
    tile V c 1 t (ix2 b k) = V c main_v0 (ix2 (gIdx (t.val % 16) (mod16_lt t) b) k) := by
  obtain ⟨-, ⟨e0, e1⟩, -⟩ := index_facts t
  show V c main_v0 (((cfg1.win 1).blk t).view.emb (ix2 b k)) = V c main_v0 _
  refine congrArg (V c main_v0) ?_
  funext d; apply Fin.ext
  match d with
  | ⟨0, _⟩ => show win1_1.index t (0 : Fin 2) * 512 + 1 * b.val = 512 * (t.val % 16) + b.val; omega
  | ⟨1, _⟩ => show win1_1.index t (1 : Fin 2) * 256 + 1 * k.val = k.val; omega

/-- The label column's tile at (a, 0) is the label column at row 512·(t / 16) + a. -/
theorem tile2_at (c : Dev nD) (t : Fin cfg1.N) (a : Fin 512) :
    tile V c 2 t (ix2 a (0 : Fin 1)) = V c main_v1 (ix2 (gIdx (t.val / 16) (div16_lt t) a) (0 : Fin 1)) := by
  obtain ⟨-, -, ⟨e0, e1⟩, -⟩ := index_facts t
  show V c main_v1 (((cfg1.win 2).blk t).view.emb (ix2 a (0 : Fin 1))) = V c main_v1 _
  refine congrArg (V c main_v1) ?_
  funext d; apply Fin.ext
  match d with
  | ⟨0, _⟩ => show win1_2.index t (0 : Fin 2) * 512 + 1 * a.val = 512 * (t.val / 16) + a.val; omega
  | ⟨1, _⟩ => show win1_2.index t (1 : Fin 2) * 1 + 1 * 0 = 0; omega

/-- The label row's tile at (0, b) is the label row at column 512·(t mod 16) + b. -/
theorem tile3_at (c : Dev nD) (t : Fin cfg1.N) (b : Fin 512) :
    tile V c 3 t (ix2 (0 : Fin 1) b) = V c main_v2 (ix2 (0 : Fin 1) (gIdx (t.val % 16) (mod16_lt t) b)) := by
  obtain ⟨-, -, -, ⟨e0, e1⟩, -⟩ := index_facts t
  show V c main_v2 (((cfg1.win 3).blk t).view.emb (ix2 (0 : Fin 1) b)) = V c main_v2 _
  refine congrArg (V c main_v2) ?_
  funext d; apply Fin.ext
  match d with
  | ⟨0, _⟩ => show win1_3.index t (0 : Fin 2) * 1 + 1 * 0 = 0; omega
  | ⟨1, _⟩ => show win1_3.index t (1 : Fin 2) * 512 + 1 * b.val = 512 * (t.val % 16) + b.val; omega

/-- The speaker column's tile at (a, 0) is the speaker column at row 512·(t / 16) + a. -/
theorem tile4_at (c : Dev nD) (t : Fin cfg1.N) (a : Fin 512) :
    tile V c 4 t (ix2 a (0 : Fin 1)) = V c main_v3 (ix2 (gIdx (t.val / 16) (div16_lt t) a) (0 : Fin 1)) := by
  obtain ⟨-, -, -, -, ⟨e0, e1⟩, -⟩ := index_facts t
  show V c main_v3 (((cfg1.win 4).blk t).view.emb (ix2 a (0 : Fin 1))) = V c main_v3 _
  refine congrArg (V c main_v3) ?_
  funext d; apply Fin.ext
  match d with
  | ⟨0, _⟩ => show win1_4.index t (0 : Fin 2) * 512 + 1 * a.val = 512 * (t.val / 16) + a.val; omega
  | ⟨1, _⟩ => show win1_4.index t (1 : Fin 2) * 1 + 1 * 0 = 0; omega

/-- The speaker row's tile at (0, b) is the speaker row at column 512·(t mod 16) + b. -/
theorem tile5_at (c : Dev nD) (t : Fin cfg1.N) (b : Fin 512) :
    tile V c 5 t (ix2 (0 : Fin 1) b) = V c main_v4 (ix2 (0 : Fin 1) (gIdx (t.val % 16) (mod16_lt t) b)) := by
  obtain ⟨-, -, -, -, -, ⟨e0, e1⟩, -⟩ := index_facts t
  show V c main_v4 (((cfg1.win 5).blk t).view.emb (ix2 (0 : Fin 1) b)) = V c main_v4 _
  refine congrArg (V c main_v4) ?_
  funext d; apply Fin.ext
  match d with
  | ⟨0, _⟩ => show win1_5.index t (0 : Fin 2) * 1 + 1 * 0 = 0; omega
  | ⟨1, _⟩ => show win1_5.index t (1 : Fin 2) * 512 + 1 * b.val = 512 * (t.val % 16) + b.val; omega

end Cert.KernelIdeal.PairRows

end
-- ==== Proof.PairOut.lean ====
/- What the pair kernel leaves in its two output arrays. The kernel visits the tiles of the pair
   matrix row of tiles by row of tiles; only at the last tile of a row of tiles, when the three
   carried columns are finished, does it write the 512 losses and the 512 validities of that row of
   tiles back. So after the region, entry r of either array is entry r mod 512 of the column
   finished at the end of the row of tiles number r / 512 — the grid point 16 (r / 512) + 15 —, and
   the sixteen blocks of 512 rows tile the 8192 rows. Stated for every float instance and over
   arbitrary contents of the unscoped buffers at the region's entry. -/
import proofs.«134439_j29841432773048_1_alg».proof.Proof.PairData
import Idealize.ShloMosaic.Lib.Pipeline.Value
import Idealize.ShloMosaic.Lib.ValueIdx

set_option maxRecDepth 16384

noncomputable section

namespace Cert.KernelIdeal.PairOut

open Cert.KernelIdeal Cert.KernelIdeal.Gen Cert.KernelIdeal.PairRegion
open Idealize.ShloMosaic Idealize.ShloMosaic.TcCoe
open Idealize.SL.Sem
open Idealize.ShloMosaic.Pipeline (Dat Cfg Window)
open Idealize.ShloMosaic.ValueIdx (ix2 eq_ix2 idx2_lt0 idx2_lt1)

variable {F : FTy → Type} [FloatOps F] [Named F]

variable (V : (c : Dev nD) → (b : Ref sig .tc) → Buf (Elt F) ((c : Thread nD τ).loc b))

/-! ## The finished columns of a row -/

/-- The carried columns depend on the position only, not on the proof that it is a grid point. -/
theorem carried_congr (c : Dev nD) {n n' : ℕ} (e : n = n') (h : n < cfg1.N) (h' : n' < cfg1.N) :
    carried V c n h = carried V c n' h' := by
  subst e; rfl

/-- The three columns finished at the end of the row of tiles that holds row `r`: what the body
    leaves at grid point 16 (r / 512) + 15. -/
def rowCols (c : Dev nD) (r : ℕ) (hr : r < 8192) : Cols F :=
  carried V c (16 * (r / 512) + 15) (lt_of_lt_of_eq (by omega) (show (256 : ℕ) = cfg1.N from N_1.symm))

/-- THE LOSSES: entry r is entry r mod 512 of the loss column of r's row of tiles. -/
def lossArr (c : Dev nD) : S8192x1.Idx → Elt F .f32 := fun i =>
  lossCol (rowCols V c (i 0).val (idx2_lt0 i)).1 (rowCols V c (i 0).val (idx2_lt0 i)).2.1 (rowCols V c (i 0).val (idx2_lt0 i)).2.2
    (ix2 (n0 := 512) (n1 := 1) ⟨(i 0).val % 512, Nat.mod_lt _ (by decide)⟩ (i 1))

/-- THE VALIDITIES: entry r is entry r mod 512 of the validity column of r's row of tiles. -/
def validArr (c : Dev nD) : S8192x1.Idx → Elt F .f32 := fun i =>
  validCol (rowCols V c (i 0).val (idx2_lt0 i)).2.2
    (ix2 (n0 := 512) (n1 := 1) ⟨(i 0).val % 512, Nat.mod_lt _ (by decide)⟩ (i 1))

/-- The printed index maps over the 256 points: both output windows' block at point `t` is the
    block of rows number `t / 16`, the one column. -/
theorem out_index_facts : ∀ t : Fin cfg1.N, win1_6.index t (0 : Fin 2) = t.val / 16 ∧ win1_6.index t (1 : Fin 2) = 0
    ∧ win1_7.index t (0 : Fin 2) = t.val / 16 ∧ win1_7.index t (1 : Fin 2) = 0 :=
  (by decide +kernel : ∀ t : Fin grid1.N, win1_6.index t (0 : Fin 2) = t.val / 16 ∧ win1_6.index t (1 : Fin 2) = 0
    ∧ win1_7.index t (0 : Fin 2) = t.val / 16 ∧ win1_7.index t (1 : Fin 2) = 0)

/-! ## Window 6: the rows' losses -/

/-- The array at an index of point `t`'s block, for a point that ends a row of tiles: the row's
    finished column at the index inside the block. -/
theorem lossArr_at (c : Dev nD) (t : ℕ) (ht : t < cfg1.N) (h15 : t % 16 = 15) (j : S512x1.Idx) (i : S8192x1.Idx)
    (h0 : (i 0).val = t / 16 * 512 + (j 0).val) (h1 : (i 1).val = (j 1).val) :
    lossArr V c i = lossCol (carried V c t ht).1 (carried V c t ht).2.1 (carried V c t ht).2.2 j := by
  have hj0 := idx2_lt0 j
  have hN : t < 256 := lt_of_lt_of_eq ht N_1
  have hr : rowCols V c (i 0).val (idx2_lt0 i) = carried V c t ht := carried_congr V c (by omega) _ ht
  have hj : ix2 (n0 := 512) (n1 := 1) ⟨(i 0).val % 512, Nat.mod_lt _ (by decide)⟩ (i 1) = j := by
    funext d
    match d with
    | ⟨0, _⟩ => exact Fin.ext (by show (i 0).val % 512 = (j 0).val; omega)
    | ⟨1, _⟩ => exact Fin.ext h1
  unfold lossArr
  rw [hr]
  exact congrArg (lossCol (carried V c t ht).1 (carried V c t ht).2.1 (carried V c t ht).2.2) hj

/-- WHAT A POINT THAT ENDS A ROW OF TILES WRITES BACK is its block of the array. -/
theorem flushed6_eq (c : Dev nD) (t : Fin cfg1.N) (hf : (cfg1.win 6).flush t = true) :
    (dat1 V c).flushed 6 t = ((cfg1.win 6).blk t).view.read (Elt F) (lossArr V c) := by
  show (cfg1.win 6).cut (grid1.coords t) ((dat1 V c).after 6 t) = _
  rw [after_6]
  have h15 : t.val % 16 = 15 := (flush1_6 t).mp hf
  obtain ⟨e60, e61, e70, e71⟩ := out_index_facts t
  funext j
  show lossCol (carried V c t.val t.isLt).1 (carried V c t.val t.isLt).2.1 (carried V c t.val t.isLt).2.2 j = lossArr V c (((cfg1.win 6).blk t).view.emb j)
  refine (lossArr_at V c t.val t.isLt h15 j (((cfg1.win 6).blk t).view.emb j) ?_ ?_).symm
  · show win1_6.index t (0 : Fin 2) * 512 + 1 * (j 0).val = t.val / 16 * 512 + (j 0).val; omega
  · show win1_6.index t (1 : Fin 2) * 1 + 1 * (j 1).val = (j 1).val; omega

/-- An index of the array is in point `t`'s block iff each coordinate is in the block's range on its axis. -/
theorem mem_blk6 (t : Fin cfg1.N) (i : S8192x1.Idx) :
    i ∈ ((cfg1.win 6).blk t).view.set ↔ ∀ a : Fin 2, win1_6.index t a * S512x1.size a ≤ (i a).val
      ∧ (i a).val < win1_6.index t a * S512x1.size a + S512x1.size a := by
  show i ∈ ((View.whole main_v5_0).slice (win1_6.rect t)).set ↔ _
  rw [View.set_slice_whole, Rect.mem_set_unit]
  exact Iff.rfl

/-- The sixteen blocks of 512 rows tile the 8192 rows: row `r` is in the block written at the end of
    the row of tiles number `r / 512`. -/
theorem covered6 (i : S8192x1.Idx) :
    ∃ t : Fin cfg1.N, (cfg1.win 6).flush t = true ∧ i ∈ ((cfg1.win 6).blk t).view.set := by
  have hi0 := idx2_lt0 i
  have hi1 := idx2_lt1 i
  let t : Fin cfg1.N := ⟨16 * ((i 0).val / 512) + 15, lt_of_lt_of_eq (by omega) (show (256 : ℕ) = cfg1.N from N_1.symm)⟩
  obtain ⟨e60, e61, e70, e71⟩ := out_index_facts t
  have ht : t.val = 16 * ((i 0).val / 512) + 15 := rfl
  refine ⟨t, (flush1_6 t).mpr (by rw [ht]; omega), ?_⟩
  rw [mem_blk6]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 1 ≤ (i 1).val ∧ (i 1).val < win1_6.index t (1 : Fin 2) * 1 + 1; omega

/-- THE ARRAY AFTER THE REGION. -/
theorem arr6_out (c : Dev nD) : (dat1 V c).arrAt 6 cfg1.N = lossArr V c :=
  (dat1 V c).arrAt_eq_of_cover 6 (lossArr V c) (fun t hf => flushed6_eq V c t hf) covered6

/-! ## Window 7: the rows' validities -/

/-- The array at an index of point `t`'s block, for a point that ends a row of tiles: the row's
    finished column at the index inside the block. -/
theorem validArr_at (c : Dev nD) (t : ℕ) (ht : t < cfg1.N) (h15 : t % 16 = 15) (j : S512x1.Idx) (i : S8192x1.Idx)
    (h0 : (i 0).val = t / 16 * 512 + (j 0).val) (h1 : (i 1).val = (j 1).val) :
    validArr V c i = validCol (carried V c t ht).2.2 j := by
  have hj0 := idx2_lt0 j
  have hN : t < 256 := lt_of_lt_of_eq ht N_1
  have hr : rowCols V c (i 0).val (idx2_lt0 i) = carried V c t ht := carried_congr V c (by omega) _ ht
  have hj : ix2 (n0 := 512) (n1 := 1) ⟨(i 0).val % 512, Nat.mod_lt _ (by decide)⟩ (i 1) = j := by
    funext d
    match d with
    | ⟨0, _⟩ => exact Fin.ext (by show (i 0).val % 512 = (j 0).val; omega)
    | ⟨1, _⟩ => exact Fin.ext h1
  unfold validArr
  rw [hr]
  exact congrArg (validCol (carried V c t ht).2.2) hj

/-- WHAT A POINT THAT ENDS A ROW OF TILES WRITES BACK is its block of the array. -/
theorem flushed7_eq (c : Dev nD) (t : Fin cfg1.N) (hf : (cfg1.win 7).flush t = true) :
    (dat1 V c).flushed 7 t = ((cfg1.win 7).blk t).view.read (Elt F) (validArr V c) := by
  show (cfg1.win 7).cut (grid1.coords t) ((dat1 V c).after 7 t) = _
  rw [after_7]
  have h15 : t.val % 16 = 15 := (flush1_7 t).mp hf
  obtain ⟨e60, e61, e70, e71⟩ := out_index_facts t
  funext j
  show validCol (carried V c t.val t.isLt).2.2 j = validArr V c (((cfg1.win 7).blk t).view.emb j)
  refine (validArr_at V c t.val t.isLt h15 j (((cfg1.win 7).blk t).view.emb j) ?_ ?_).symm
  · show win1_7.index t (0 : Fin 2) * 512 + 1 * (j 0).val = t.val / 16 * 512 + (j 0).val; omega
  · show win1_7.index t (1 : Fin 2) * 1 + 1 * (j 1).val = (j 1).val; omega

/-- An index of the array is in point `t`'s block iff each coordinate is in the block's range on its axis. -/
theorem mem_blk7 (t : Fin cfg1.N) (i : S8192x1.Idx) :
    i ∈ ((cfg1.win 7).blk t).view.set ↔ ∀ a : Fin 2, win1_7.index t a * S512x1.size a ≤ (i a).val
      ∧ (i a).val < win1_7.index t a * S512x1.size a + S512x1.size a := by
  show i ∈ ((View.whole main_v5_1).slice (win1_7.rect t)).set ↔ _
  rw [View.set_slice_whole, Rect.mem_set_unit]
  exact Iff.rfl

/-- The sixteen blocks of 512 rows tile the 8192 rows: row `r` is in the block written at the end of
    the row of tiles number `r / 512`. -/
theorem covered7 (i : S8192x1.Idx) :
    ∃ t : Fin cfg1.N, (cfg1.win 7).flush t = true ∧ i ∈ ((cfg1.win 7).blk t).view.set := by
  have hi0 := idx2_lt0 i
  have hi1 := idx2_lt1 i
  let t : Fin cfg1.N := ⟨16 * ((i 0).val / 512) + 15, lt_of_lt_of_eq (by omega) (show (256 : ℕ) = cfg1.N from N_1.symm)⟩
  obtain ⟨e60, e61, e70, e71⟩ := out_index_facts t
  have ht : t.val = 16 * ((i 0).val / 512) + 15 := rfl
  refine ⟨t, (flush1_7 t).mpr (by rw [ht]; omega), ?_⟩
  rw [mem_blk7]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 1 ≤ (i 1).val ∧ (i 1).val < win1_7.index t (1 : Fin 2) * 1 + 1; omega

/-- THE ARRAY AFTER THE REGION. -/
theorem arr7_out (c : Dev nD) : (dat1 V c).arrAt 7 cfg1.N = validArr V c :=
  (dat1 V c).arrAt_eq_of_cover 7 (validArr V c) (fun t hf => flushed7_eq V c t hf) covered7

end Cert.KernelIdeal.PairOut

end
-- ==== Proof.PairBits.lean ====
/- Bits and words the pair kernel's arithmetic meets: the words of 1 and of minus infinity, a
   comparison's bit, and a bit widened to 32 bits and converted to a float, which is the real 1 or 0. -/
import Idealize.ShloMosaic.PureOps.Ideal
import Idealize.ShloMosaic.PureOps.Ideal.Laws
import Idealize.ShloMosaic.PureOps.IdealRules

noncomputable section

namespace Cert.KernelIdeal.PairValue

open Idealize.ShloMosaic

/-- The word of minus infinity. -/
theorem ofBits_negInf : Ideal.ofBits .f32 0xFF800000#32 = ⊥ := by simp [Ideal.ofBits, Ideal.ieee]

/-- The word of 1. -/
theorem ofBits_one : Ideal.ofBits .f32 0x3F800000#32 = 1 := IdealRules.sign_bit.ideal_onePat .f32

/-- A Boolean's bit is 1 exactly when it is true. -/
theorem ofBool_eq_one : ∀ q : Bool, BitVec.ofBool q = 1#1 ↔ q = true := by decide

/-- "Greater than zero" as a bit: 1 exactly when the number is positive. -/
theorem gt_zero_bit (x : EReal) : Ideal.cmp .ogt x (Ideal.ofBits .f32 0x00000000#32) = 1#1 ↔ 0 < x := by
  rw [Ideal.ofBits_zero_f32]
  show BitVec.ofBool (decide ((0 : EReal) < x)) = 1#1 ↔ _
  rw [ofBool_eq_one, decide_eq_true_iff]

/-- A bit widened to 32 bits and read as a signed integer is 1 or 0. -/
theorem bit_toInt : ∀ c : BitVec 1, (c.setWidth 32).toInt = if c = 1#1 then 1 else 0 := by decide

/-- So converted to a float it is the real 1 or 0. -/
theorem bit_sitofp (c : BitVec 1) :
    FloatOps.sitofp (F := Ideal) .f32 (c.setWidth 32) = if c = 1#1 then (1 : EReal) else 0 := by
  show (((c.setWidth 32).toInt : ℝ) : EReal) = _
  rw [bit_toInt]
  split <;> simp

end Cert.KernelIdeal.PairValue

end
-- ==== Proof.PairFinish.lean ====
/- Finishing a row. From the three finished columns — positive sum, negative sum, "met" — row a's
   loss is minus the logarithm of the positive sum over the total plus epsilon when a positive pair
   was met, and 0 otherwise; its validity is 1 or 0 the same way. The kernel writes the loss as
   0 − log(…), and where no positive pair was met it feeds the logarithm the harmless quotient 1 / 1
   and then discards the result. -/
import proofs.«134439_j29841432773048_1_alg».proof.Proof.PairPre
import proofs.«134439_j29841432773048_1_alg».proof.Proof.PairBits
import Idealize.ShloMosaic.PureOps.Ideal.Laws
import Idealize.ShloMosaic.Lib.ValueIdx

set_option maxRecDepth 16384

noncomputable section

namespace Cert.KernelIdeal.PairValue

open Cert.KernelIdeal Cert.KernelIdeal.Gen Cert.KernelIdeal.PairRegion
open Idealize.ShloMosaic
open Idealize.ShloMosaic.ValueIdx
open scoped BigOperators

/-- The "a positive pair was met" bit at an index: the column's entry is positive. -/
theorem metBit (met : Vec Ideal S512x1 .f32) (j : S512x1.Idx) : k1_pay1 (F := Ideal) met j = 1#1 ↔ 0 < met j :=
  gt_zero_bit (met j)

/-- THE ROW'S LOSS at row a. -/
theorem lossCol_at (num den met : Vec Ideal S512x1 .f32) (a : Fin 512) :
    lossCol (F := Ideal) num den met (ix2 a (0 : Fin 1))
      = if 0 < met (ix2 a (0 : Fin 1)) then
          -(Ideal.log (Ideal.div (num (ix2 a (0 : Fin 1)))
            ((den (ix2 a (0 : Fin 1)) + num (ix2 a (0 : Fin 1))) + Ideal.ofBits .f32 0x33D6BF95#32)))
        else 0 := by
  generalize (ix2 a (0 : Fin 1) : S512x1.Idx) = j
  show k1_pay2 (F := Ideal) num den met j = _
  unfold k1_pay2
  show Scalar.select (k1_pay1 (F := Ideal) met j)
      (Ideal.ofBits .f32 0x00000000#32
        - Ideal.log (Ideal.div (Scalar.select (k1_pay1 (F := Ideal) met j) (num j) (Ideal.ofBits .f32 0x3F800000#32))
            (Scalar.select (k1_pay1 (F := Ideal) met j) ((den j + num j) + Ideal.ofBits .f32 0x33D6BF95#32)
              (Ideal.ofBits .f32 0x3F800000#32))))
      (Ideal.ofBits .f32 0x00000000#32) = _
  by_cases h : 0 < met j
  · rw [(metBit met j).mpr h, if_pos h, select_one, select_one, select_one, Ideal.ofBits_zero_f32, zero_sub]
  · rw [eq_zero_of_ne_one (fun e => h ((metBit met j).mp e)), if_neg h, select_zero, Ideal.ofBits_zero_f32]

/-- THE ROW'S VALIDITY at row a: 1 when a positive pair was met, else 0. -/
theorem validCol_at (met : Vec Ideal S512x1 .f32) (a : Fin 512) :
    validCol (F := Ideal) met (ix2 a (0 : Fin 1)) = if 0 < met (ix2 a (0 : Fin 1)) then 1 else 0 := by
  generalize (ix2 a (0 : Fin 1) : S512x1.Idx) = j
  show k1_pay3 (F := Ideal) met j = _
  unfold k1_pay3
  show FloatOps.sitofp (F := Ideal) .f32 ((k1_pay1 (F := Ideal) met j).setWidth 32) = _
  rw [bit_sitofp]
  exact if_congr (metBit met j) rfl rfl

end Cert.KernelIdeal.PairValue

end
-- ==== Proof.HostTail.lean ====
/- The last host lines of the kernel program, as one function. From the column of the rows' losses
   and the column of their validities the program sums each column over all 8192 rows, and returns
   the sum of the losses over the larger of the count and 1 when the count is positive, and 0 when
   it is not. A sum "over both axes" of an 8192 x 1 array is the sum over its 8192 rows. -/
import proofs.«134439_j29841432773048_1_alg».proof.Proof.Gen.KernelIdeal
import proofs.«134439_j29841432773048_1_alg».proof.Proof.PairBits
import Idealize.ShloMosaic.PureOps.Ideal.Laws
import Idealize.ShloMosaic.Lib.IdealHost
import Idealize.ShloMosaic.Lib.ValueIdx

set_option maxRecDepth 16384

noncomputable section

namespace Cert.KernelIdeal.HostTail

open Cert.KernelIdeal Cert.KernelIdeal.Gen Cert.KernelIdeal.PairValue
open Idealize.ShloMosaic
open Idealize.ShloMosaic.ValueIdx
open scoped BigOperators

variable {F : FTy → Type} [FloatOps F]

/-- The sum of a column of 8192 numbers, as the host computes it: a reduction over both axes from
    the zero constant. -/
def colSum (x : (⟨S8192x1, .f32⟩ : BufTy).Contents (Elt F)) : (⟨S_, .f32⟩ : BufTy).Contents (Elt F) :=
  Host.reduceAdd x (constant S_ .f32 0x00000000#32) reducesTo_S8192x1_S_d0_1 h_S_

/-- THE TAIL: the count of the valid rows and the total of the losses; where the count is positive
    the total over the larger of the count and 1, elsewhere the zero constant. -/
def tail (loss valid : (⟨S8192x1, .f32⟩ : BufTy).Contents (Elt F)) : (⟨S_, .f32⟩ : BufTy).Contents (Elt F) :=
  select (cmpf .ogt (colSum valid) (constant S_ .f32 0x00000000#32))
    (Host.divf (colSum loss) (maximumf (colSum valid) (constant S_ .f32 0x3F800000#32)))
    (id (constant S_ .f32 0x00000000#32))

/-- The indices of an 8192 x 1 array are its 8192 rows. -/
def rowEquiv : (⟨2, ![8192, 1]⟩ : Shape).Idx ≃ Fin 8192 where
  toFun i := ⟨(i 0).val, idx2_lt0 i⟩
  invFun r := ix2 r (0 : Fin 1)
  left_inv i := by
    funext d
    match d with
    | ⟨0, _⟩ => rfl
    | ⟨1, _⟩ => exact Fin.ext (by have := idx2_lt1 i; show 0 = (i 1).val; omega)
  right_inv r := rfl

/-- So a sum over the array's indices is a sum over the rows. -/
theorem sum_rows (x : (⟨2, ![8192, 1]⟩ : Shape).Idx → EReal) :
    ∑ i : (⟨2, ![8192, 1]⟩ : Shape).Idx, x i = ∑ r : Fin 8192, x (ix2 r (0 : Fin 1)) :=
  (Equiv.sum_comp rowEquiv.symm x).symm

/-- The host's column sum at the exact reals: the sum over the 8192 rows. -/
theorem colSum_at (x : (⟨S8192x1, .f32⟩ : BufTy).Contents (Elt Ideal)) :
    colSum (F := Ideal) x ix0 = ∑ r : Fin 8192, x (ix2 r (0 : Fin 1)) := by
  show Ideal.hostReduceAdd reducesTo_S8192x1_S_d0_1 x (Ideal.ofBits .f32 0x00000000#32) ix0 = _
  rw [Ideal.hostReduceAdd_total _ (fun b => b.elim0), Ideal.ofBits_zero_f32, zero_add]
  exact sum_rows x

/-- THE TAIL AT THE EXACT REALS: with C the number of valid rows and T the total loss, T over the
    larger of C and 1 when C is positive, and 0 when it is not. -/
theorem tail_at (loss valid : (⟨S8192x1, .f32⟩ : BufTy).Contents (Elt Ideal)) :
    tail (F := Ideal) loss valid ix0
      = if 0 < ∑ r : Fin 8192, valid (ix2 r (0 : Fin 1)) then
          Ideal.div (∑ r : Fin 8192, loss (ix2 r (0 : Fin 1))) (max (∑ r : Fin 8192, valid (ix2 r (0 : Fin 1))) 1)
        else 0 := by
  show Scalar.select (Ideal.cmp .ogt (colSum (F := Ideal) valid ix0) (Ideal.ofBits .f32 0x00000000#32))
      (Ideal.div (colSum (F := Ideal) loss ix0) (max (colSum (F := Ideal) valid ix0) (Ideal.ofBits .f32 0x3F800000#32)))
      (Ideal.ofBits .f32 0x00000000#32) = _
  rw [colSum_at, colSum_at, ofBits_one]
  by_cases h : 0 < ∑ r : Fin 8192, valid (ix2 r (0 : Fin 1))
  · rw [(gt_zero_bit _).mpr h, select_one, if_pos h]
  · rw [eq_zero_of_ne_one (fun e => h ((gt_zero_bit _).mp e)), select_zero, if_neg h, Ideal.ofBits_zero_f32]

end Cert.KernelIdeal.HostTail

end
-- ==== Proof.NormValue.lean ====
/- Row normalisation, the value at the exact reals: entry (p, q) of a normalised 1024 x 256 block
   is the entry divided by the larger of the square root of its row's sum of squares and a small
   positive constant. The body computes the row sums as a vector of 1024 numbers, turns it into a
   one-column matrix, takes root and maximum there, and spreads the column over the 256 columns
   before dividing; each of those layout steps reads ONE entry of its operand, the row's. The
   narrowing of the float format at the end changes nothing at the exact reals. -/
import proofs.«134439_j29841432773048_1_alg».proof.Proof.NormRegion
import Idealize.ShloMosaic.PureOps.Ideal.Laws
import Idealize.ShloMosaic.Lib.ValueIdx
import Idealize.ShloMosaic.Lib.Pipeline.Value

set_option maxRecDepth 16384

noncomputable section

namespace Cert.KernelIdeal.NormValue

open Cert.KernelIdeal Cert.KernelIdeal.Gen Cert.KernelIdeal.NormRegion
open Idealize.ShloMosaic
open Idealize.ShloMosaic.ValueIdx
open scoped BigOperators

/-! ## Two layout steps read at an index -/

/-- A vector of `a` numbers cast to a one-column matrix reads, at `(p, u)`, the vector at `p`,
    whatever the unit coordinate `u`. -/
theorem shapeCast_column_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix spread over `b` columns reads, at `(p, q)`, its one column at row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The sum along a row -/

/-- The row index `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The body's sum over the columns, from the zero accumulator, at row `p`: the sum of the row. -/
theorem rowSum_at (v : FVec Ideal S1024x256 .f32) (p : Fin 1024) :
    multiReduction .add [1] S1024 v 0x00000000#32 reduces_S1024x256_S1024 (.inl rfl) rfl (ix1 p)
      = ∑ k : Fin 256, v (ix2 p k) :=
  (Ideal.multiReduction_add_single v 0x00000000#32 reduces_S1024x256_S1024 (.inl rfl) rfl (ix1 p)).trans
    (Finset.sum_congr rfl fun k _ => congrArg v (lift_row reduces_S1024x256_S1024 p k))

/-! ## The normalised block and the normalised array at an index -/

/-- THE NORMALISED BLOCK AT AN INDEX: entry `(p, q)` over the larger of the root of row `p`'s sum of
    squares and the constant. -/
theorem k0_pay1_at (x : Vec Ideal S1024x256 .f32) (p : Fin 1024) (q : Fin 256) :
    k0_pay1 (F := Ideal) x (ix2 p q)
      = Ideal.div (x (ix2 p q))
          (max (Ideal.sqrt (∑ k : Fin 256, x (ix2 p k) * x (ix2 p k))) (Ideal.ofBits .f32 0x2B8CBCCC#32)) := by
  unfold k0_pay1
  dsimp only
  refine (truncf_apply (ψ := .bf16) _ bitsLt_bf16_f32 (ix2 p q)).trans ?_
  refine (divf_apply _ _ _).trans ?_
  refine congrArg (Ideal.div (x (ix2 p q))) ?_
  refine (broadcastTo_column_apply _ _ p q).trans ?_
  refine (maximumf_apply _ _ _).trans ?_
  refine congrArg₂ max ?_ rfl
  refine congrArg Ideal.sqrt ?_
  refine (shapeCast_column_apply _ _ p 0).trans ?_
  exact rowSum_at _ p

/-- Row `r mod 1024` of the block of rows that holds row `r` is row `r`. -/
theorem rowBlock_at (a : S8192x256.Idx → Ideal .f32) (r : Fin 8192) (k : Fin 256) :
    rowBlock (F := Ideal) a ⟨r.val / 1024, by have := r.isLt; omega⟩
        (ix2 (n0 := 1024) (n1 := 256) ⟨r.val % 1024, Nat.mod_lt _ (by decide)⟩ k) = a (ix2 r k) := by
  unfold rowBlock
  refine congrArg a ?_
  funext d
  match d with
  | ⟨0, _⟩ => exact Fin.ext (by show r.val / 1024 * 1024 + r.val % 1024 = r.val; omega)
  | ⟨1, _⟩ => rfl

/-- THE NORMALISED ARRAY AT AN INDEX: entry `(r, q)` of the array over the larger of the root of
    row `r`'s sum of squares and the constant — no trace of the blocks is left. -/
theorem normArr_at_ideal (a : S8192x256.Idx → Ideal .f32) (r : Fin 8192) (q : Fin 256) :
    normArr (F := Ideal) a (ix2 r q)
      = Ideal.div (a (ix2 r q))
          (max (Ideal.sqrt (∑ k : Fin 256, a (ix2 r k) * a (ix2 r k))) (Ideal.ofBits .f32 0x2B8CBCCC#32)) := by
  show k0_pay1 (F := Ideal) (rowBlock (F := Ideal) a ⟨r.val / 1024, _⟩)
      (ix2 (n0 := 1024) (n1 := 256) ⟨r.val % 1024, _⟩ q) = _
  refine (k0_pay1_at _ _ q).trans ?_
  simp only [rowBlock_at]

end Cert.KernelIdeal.NormValue

end
-- ==== Proof.HostReshapes.lean ====
/- The four host lines between the two kernels lay the labels and the speaker ids, two vectors of
   8192 tags, out once as a column and once as a row each; the unit-norm features pass through
   untouched. Read at an index, the column's entry (r, 0) and the row's entry (0, r) are the vector's
   entry r. -/
import proofs.«134439_j29841432773048_1_alg».proof.Proof.Boundary
import proofs.«134439_j29841432773048_1_alg».proof.Proof.NormValue
import Idealize.ShloMosaic.Lib.ValueIdx
import Idealize.ShloMosaic.Lib.ValueLayout
import Idealize.ShloMosaic.Lib.Tactic

set_option maxRecDepth 16384

noncomputable section

namespace Cert.KernelIdeal.HostReshapes

open Cert.KernelIdeal Cert.KernelIdeal.Gen Cert.KernelIdeal.NormRegion Cert.KernelIdeal.Whole
open Cert.KernelIdeal.NormValue (shapeCast_column_apply)
open Idealize.ShloMosaic Idealize.ShloMosaic.TcCoe Idealize.ShloMosaic.Tactic
open Idealize.ShloMosaic.ValueIdx
open Idealize.SL.Sem

variable {F : FTy → Type} [FloatOps F] [Named F]

variable (m : (ℓ : Loc nD τ sig) → Buf (Elt F) ℓ)

/-- No reshape writes the features' array: the pair kernel finds the unit-norm features there. -/
theorem beforePair_main_v0 (c : Dev nD) : beforePair m c main_v0 = unitFeatures m c := by
  refine (StableHlo.after_of_writes_sub hostOps1 _ hostOps1_writes (r := main_v0) (by decide)).trans ?_
  exact Function.update_self ..

/-- `main_v1` is `main_arg1` laid out as one column: entry r is the tag of row r. -/
theorem beforePair_main_v1_at (c : Dev nD) (r : Fin 8192) :
    beforePair m c main_v1 (ix2 r (0 : Fin 1)) = m ((c : Thread nD τ).loc main_arg1) (ix1 r) := by
  have e : beforePair m c main_v1 = shapeCast S8192x1 (afterNorm m c main_arg1) shapeCasts_S8192_S8192x1 := by
    show StableHlo.after hostOps1 (afterNorm m c) (Proc.devRef .tc main_v1) = _
    after_results
    rfl
  rw [e]
  refine (shapeCast_column_apply _ _ r 0).trans ?_
  show Function.update (Gen.V0 m c) main_v0 (unitFeatures m c) main_arg1 (ix1 r) = _
  rw [Function.update_of_ne (by decide)]

/-- `main_v2` is `main_arg1` laid out as one row: entry r is the tag of row r. -/
theorem beforePair_main_v2_at (c : Dev nD) (r : Fin 8192) :
    beforePair m c main_v2 (ix2 (0 : Fin 1) r) = m ((c : Thread nD τ).loc main_arg1) (ix1 r) := by
  have e : beforePair m c main_v2 = shapeCast S1x8192 (afterNorm m c main_arg1) shapeCasts_S8192_S1x8192 := by
    show StableHlo.after hostOps1 (afterNorm m c) (Proc.devRef .tc main_v2) = _
    after_results
    rfl
  rw [e]
  refine (shapeCast_a_1a_apply _ _ 0 r).trans ?_
  show Function.update (Gen.V0 m c) main_v0 (unitFeatures m c) main_arg1 (ix1 r) = _
  rw [Function.update_of_ne (by decide)]

/-- `main_v3` is `main_arg2` laid out as one column: entry r is the tag of row r. -/
theorem beforePair_main_v3_at (c : Dev nD) (r : Fin 8192) :
    beforePair m c main_v3 (ix2 r (0 : Fin 1)) = m ((c : Thread nD τ).loc main_arg2) (ix1 r) := by
  have e : beforePair m c main_v3 = shapeCast S8192x1 (afterNorm m c main_arg2) shapeCasts_S8192_S8192x1 := by
    show StableHlo.after hostOps1 (afterNorm m c) (Proc.devRef .tc main_v3) = _
    after_results
    rfl
  rw [e]
  refine (shapeCast_column_apply _ _ r 0).trans ?_
  show Function.update (Gen.V0 m c) main_v0 (unitFeatures m c) main_arg2 (ix1 r) = _
  rw [Function.update_of_ne (by decide)]

/-- `main_v4` is `main_arg2` laid out as one row: entry r is the tag of row r. -/
theorem beforePair_main_v4_at (c : Dev nD) (r : Fin 8192) :
    beforePair m c main_v4 (ix2 (0 : Fin 1) r) = m ((c : Thread nD τ).loc main_arg2) (ix1 r) := by
  have e : beforePair m c main_v4 = shapeCast S1x8192 (afterNorm m c main_arg2) shapeCasts_S8192_S1x8192 := by
    show StableHlo.after hostOps1 (afterNorm m c) (Proc.devRef .tc main_v4) = _
    after_results
    rfl
  rw [e]
  refine (shapeCast_a_1a_apply _ _ 0 r).trans ?_
  show Function.update (Gen.V0 m c) main_v0 (unitFeatures m c) main_arg2 (ix1 r) = _
  rw [Function.update_of_ne (by decide)]

end Cert.KernelIdeal.HostReshapes

end
-- ==== Proof.NormSpec.lean ====
/- The first kernel's result against the specification: entry (r, q) of the array it leaves is entry
   q of row r of the launched features scaled to unit length — the entry over the larger of the
   root of the row's sum of squares and the norm's lower clamp. -/
import proofs.«134439_j29841432773048_1_alg».proof.Proof.Boundary
import proofs.«134439_j29841432773048_1_alg».proof.Proof.NormValue
import proofs.«134439_j29841432773048_1_alg».proof.Proof.Spec

set_option maxRecDepth 16384

noncomputable section

namespace Cert.KernelIdeal.NormSpec

open Cert.KernelIdeal Cert.KernelIdeal.Gen Cert.KernelIdeal.NormRegion Cert.KernelIdeal.NormValue Cert.KernelIdeal.Whole
open Idealize.ShloMosaic Idealize.ShloMosaic.TcCoe
open Idealize.ShloMosaic.ValueIdx
open Idealize.SL.Sem
open scoped BigOperators

/-- THE UNIT-NORM FEATURES ARE THE SPECIFICATION'S: at (r, q), entry q of the scaled row r. -/
theorem unitFeatures_at (m : (ℓ : Loc nD τ sig) → Buf (Elt Ideal) ℓ) (c : Dev nD) (r : Fin 8192) (q : Fin 256) :
    unitFeatures (F := Ideal) m c (ix2 r q) = Cert.Spec.unitRow (m ((c : Thread nD τ).loc main_arg0)) r q := by
  unfold unitFeatures
  rw [arr_out]
  show normArr (F := Ideal) (m ((c : Thread nD τ).loc main_arg0)) (ix2 r q) = _
  rw [normArr_at_ideal]
  rfl

end Cert.KernelIdeal.NormSpec

end
-- ==== Proof.KernelSpecCore.lean ====
/- The kernel program's result against the specification, given the rows' sums. Once the three
   columns finished at the end of a row of tiles are known to hold, at row r, the positive mass, the
   negative mass and the 0/1 "has a positive partner" of the specification, everything else is
   reading: the loss array's entry r is the specification's contribution of row r, the validity
   array's entry r is 1 or 0, the closing host lines sum the two arrays over the 8192 rows, and
   their quotient, guarded by the count, is the specification's result. -/
import proofs.«134439_j29841432773048_1_alg».proof.Proof.Boundary
import proofs.«134439_j29841432773048_1_alg».proof.Proof.PairTiles
import proofs.«134439_j29841432773048_1_alg».proof.Proof.PairOut
import proofs.«134439_j29841432773048_1_alg».proof.Proof.PairFinish
import proofs.«134439_j29841432773048_1_alg».proof.Proof.HostTail
import proofs.«134439_j29841432773048_1_alg».proof.Proof.HostReshapes
import proofs.«134439_j29841432773048_1_alg».proof.Proof.NormSpec
import proofs.«134439_j29841432773048_1_alg».proof.Proof.Spec
import proofs.«134439_j29841432773048_1_alg».proof.Proof.Gen.KernelIdeal.Regions
import Idealize.ShloMosaic.Lib.Tactic

set_option maxRecDepth 16384

noncomputable section

namespace Cert.KernelIdeal.KernelSpec

open Cert.KernelIdeal Cert.KernelIdeal.Gen Cert.KernelIdeal.Whole Cert.KernelIdeal.PairRegion
open Cert.KernelIdeal.PairRows (gIdx)
open Cert.KernelIdeal.PairOut Cert.KernelIdeal.PairValue Cert.KernelIdeal.HostTail
open Idealize.ShloMosaic Idealize.ShloMosaic.TcCoe Idealize.ShloMosaic.Tactic
open Idealize.ShloMosaic.ValueIdx
open Idealize.SL.Sem
open scoped BigOperators

variable (m : (ℓ : Loc nD τ sig) → Buf (Elt Ideal) ℓ) (c : Dev nD)

/-- The launched features, labels and speaker ids, as the specification reads them. -/
abbrev feats : Cert.Spec.Features := m ((c : Thread nD τ).loc main_arg0)
abbrev labels : Cert.Spec.Tags := m ((c : Thread nD τ).loc main_arg1)
abbrev speakers : Cert.Spec.Tags := m ((c : Thread nD τ).loc main_arg2)

/-- THE ROWS' SUMS: at the end of every row of tiles the three carried columns hold, at row a of
    the row of tiles g, the specification's positive mass, negative mass and "has a positive
    partner" of global row 512 g + a. -/
def RowSums : Prop := ∀ (g : ℕ) (hg : g < 16) (a : Fin 512) (h : 16 * g + 15 < cfg1.N),
    (carried (atPair m) c (16 * g + 15) h).1 (ix2 a (0 : Fin 1))
        = Cert.Spec.positiveMass (feats m c) (labels m c) (speakers m c) (gIdx g hg a)
    ∧ (carried (atPair m) c (16 * g + 15) h).2.1 (ix2 a (0 : Fin 1))
        = Cert.Spec.negativeMass (feats m c) (labels m c) (speakers m c) (gIdx g hg a)
    ∧ (carried (atPair m) c (16 * g + 15) h).2.2 (ix2 a (0 : Fin 1))
        = if Cert.Spec.hasPositive (labels m c) (speakers m c) (gIdx g hg a) then 1 else 0

/-- A row is row r mod 512 of the row of tiles r / 512. -/
theorem gIdx_divMod (r : Fin 8192) (hg : r.val / 512 < 16) :
    gIdx (r.val / 512) hg ⟨r.val % 512, Nat.mod_lt _ (by decide)⟩ = r :=
  Fin.ext (by show 512 * (r.val / 512) + r.val % 512 = r.val; omega)

/-- THE LOSS ARRAY'S ENTRY r is the specification's contribution of row r. -/
theorem lossArr_row (H : RowSums m c) (r : Fin 8192) :
    lossArr (atPair m) c (ix2 r (0 : Fin 1)) = Cert.Spec.rowLoss (feats m c) (labels m c) (speakers m c) r := by
  have hr := r.isLt
  have hg : r.val / 512 < 16 := by omega
  obtain ⟨h1, h2, h3⟩ := H (r.val / 512) hg ⟨r.val % 512, Nat.mod_lt _ (by decide)⟩
    (lt_of_lt_of_eq (by omega) (show (256 : ℕ) = cfg1.N from N_1.symm))
  rw [gIdx_divMod r hg] at h1 h2 h3
  show lossCol (rowCols (atPair m) c r.val r.isLt).1 (rowCols (atPair m) c r.val r.isLt).2.1
      (rowCols (atPair m) c r.val r.isLt).2.2
      (ix2 (n0 := 512) (n1 := 1) ⟨r.val % 512, Nat.mod_lt _ (by decide)⟩ (0 : Fin 1)) = _
  rw [lossCol_at]
  unfold rowCols
  rw [h1, h2, h3]
  unfold Cert.Spec.rowLoss
  by_cases hp : Cert.Spec.hasPositive (labels m c) (speakers m c) r
  · rw [if_pos hp, if_pos hp, if_pos zero_lt_one]
  · rw [if_neg hp, if_neg hp, if_neg (lt_irrefl _)]

/-- THE VALIDITY ARRAY'S ENTRY r is 1 when row r has a positive partner, else 0. -/
theorem validArr_row (H : RowSums m c) (r : Fin 8192) :
    validArr (atPair m) c (ix2 r (0 : Fin 1))
      = if Cert.Spec.hasPositive (labels m c) (speakers m c) r then (1 : EReal) else 0 := by
  have hr := r.isLt
  have hg : r.val / 512 < 16 := by omega
  obtain ⟨-, -, h3⟩ := H (r.val / 512) hg ⟨r.val % 512, Nat.mod_lt _ (by decide)⟩
    (lt_of_lt_of_eq (by omega) (show (256 : ℕ) = cfg1.N from N_1.symm))
  rw [gIdx_divMod r hg] at h3
  show validCol (rowCols (atPair m) c r.val r.isLt).2.2
      (ix2 (n0 := 512) (n1 := 1) ⟨r.val % 512, Nat.mod_lt _ (by decide)⟩ (0 : Fin 1)) = _
  rw [validCol_at]
  unfold rowCols
  rw [h3]
  by_cases hp : Cert.Spec.hasPositive (labels m c) (speakers m c) r
  · rw [if_pos hp, if_pos zero_lt_one]
  · rw [if_neg hp, if_neg (lt_irrefl _)]

/-- The closing host lines, from any contents of the unscoped buffers: the result buffer ends at
    the tail of what the two output arrays hold. -/
theorem tail_prog {F : FTy → Type} [FloatOps F] [Named F] (W : Valuation τ sig (Elt F)) :
    StableHlo.after hostOps2_1 (StableHlo.after hostOps2 W) (Proc.devRef .tc main_v11)
      = tail (F := F) (W (Proc.devRef .tc main_v5_0)) (W (Proc.devRef .tc main_v5_1)) := by
  after_results
  rfl

/-- The program's result buffer at the end is the tail of the rows' losses and validities. -/
theorem end_eq_tail : Gen.V5 m (outs m) c main_v11 = tail (F := Ideal) (rowLossArr m c) (rowValidArr m c) := by
  show StableHlo.after hostOps2_1 (StableHlo.after hostOps2 (Gen.V3 m (outs m) c)) (Proc.devRef .tc main_v11) = _
  rw [tail_prog, V3_eq]
  show tail (F := Ideal)
      (Function.update (Function.update (beforePair m c) main_v5_0 (rowLossArr m c)) main_v5_1 (rowValidArr m c) main_v5_0)
      (Function.update (Function.update (beforePair m c) main_v5_0 (rowLossArr m c)) main_v5_1 (rowValidArr m c) main_v5_1) = _
  rw [Function.update_of_ne (by decide), Function.update_self, Function.update_self]

/-- THE RESULT, GIVEN THE ROWS' SUMS: the kernel program ends with the specification's result. -/
theorem result_of_rowSums (H : RowSums m c) (j : S_.Idx) :
    Gen.V5 m (outs m) c main_v11 j = Cert.Spec.result (feats m c) (labels m c) (speakers m c) := by
  obtain rfl := eq_ix0 j
  have eL : rowLossArr m c = lossArr (atPair m) c := by unfold rowLossArr; exact arr6_out _ c
  have eV : rowValidArr m c = validArr (atPair m) c := by unfold rowValidArr; exact arr7_out _ c
  rw [end_eq_tail, tail_at, eL, eV]
  simp only [lossArr_row m c H, validArr_row m c H]
  rfl

end Cert.KernelIdeal.KernelSpec

end
-- ==== Proof.PairConst.lean ====
/- The temperature of the pair weights. The kernel multiplies a similarity by the NAMED reciprocal
   16777216 / 13421773, the reference divides it by the float 0.8, whose word denotes the dyadic
   13421773 / 16777216 exactly: the two are one number, because dividing an extended real by a
   nonzero real is multiplying it by the real's reciprocal — at the infinities too. -/
import proofs.«134439_j29841432773048_1_alg».proof.KernelIdeal
import Idealize.ShloMosaic.PureOps.Ideal
import Idealize.ShloMosaic.PureOps.IdealRules

noncomputable section

namespace Cert.KernelIdeal.PairValue

open Idealize.ShloMosaic

/-- The kernel's named reciprocal of the temperature denotes the rational 16777216 / 13421773. -/
theorem inv_temperature :
    Named.named (F := Ideal) Cert.KernelIdeal.κ "inv_temperature" (φ := .f32) 0x3FA00000#32
      = ((16777216 / 13421773 : ℝ) : EReal) :=
  IdealRules.named_const.ideal_named_scalar _ _ _ _ rfl

/-- The temperature's word: sign +, exponent −1, fraction 5033165 / 2²³, the real 13421773 / 2²⁴. -/
theorem ofBits_temperature : Ideal.ofBits .f32 0x3F4CCCCD#32 = ((13421773 / 16777216 : ℝ) : EReal) := by
  simp [Ideal.ofBits, Ideal.ieee, -EReal.coe_mul]; norm_num

/-- THE LAW that joins the two sides: the product with the named reciprocal is the quotient by the
    temperature, on every extended real. -/
theorem mul_inv_temperature (s : EReal) :
    s * ((16777216 / 13421773 : ℝ) : EReal) = Ideal.div s (Ideal.ofBits .f32 0x3F4CCCCD#32) := by
  rw [ofBits_temperature, Ideal.div_coe (by norm_num : (13421773 / 16777216 : ℝ) ≠ 0)]
  have e : (16777216 / 13421773 : ℝ) = 1 / (13421773 / 16777216 : ℝ) := by norm_num
  rw [e]

end Cert.KernelIdeal.PairValue

end
-- ==== Proof.PairExp.lean ====
/- The weight of a pair on a tile. Entry (a, b) of a 512 x 512 tile is the exponential of the
   inner product of row a of the row tile with row b of the column tile, over the temperature: the
   kernel transposes the column tile, multiplies the two matrices into a zero accumulator — at the
   exact reals the plain sum of the 256 products —, scales by the named reciprocal of the
   temperature and exponentiates. The casts to the same shape and the narrow float format change
   nothing at the exact reals. -/
import proofs.«134439_j29841432773048_1_alg».proof.Proof.PairPre
import proofs.«134439_j29841432773048_1_alg».proof.Proof.PairConst
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.PairValue

open Cert.KernelIdeal Cert.KernelIdeal.Gen Cert.KernelIdeal.PairRegion
open Idealize.ShloMosaic
open Idealize.ShloMosaic.ValueIdx
open scoped BigOperators

/-- The tile product's dimension numbers: the row tile's columns against the transposed column
    tile's rows. -/
abbrev tileDot : DotDims S512x256 S256x512 S512x512 := dot_S512x256_S256x512_S512x512_1_0_0_1_n_n

/-- The left operand is read at the output's row … -/
theorem lhs_row (i : S512x512.Idx) (q : tileDot.contr.Idx) : (tileDot.lhsIdx i q 0).val = (i 0).val := by
  unfold DotDims.lhsIdx
  rw [dif_neg (show ¬(0 : Fin S512x256.rank) ∈ tileDot.lhsBatch by decide),
    dif_pos (show (0 : Fin S512x256.rank) ∈ tileDot.lhsNonContracting by decide)]
  rfl
/-- … and the contraction coordinate, -/
theorem lhs_contr (i : S512x512.Idx) (q : tileDot.contr.Idx) : (tileDot.lhsIdx i q 1).val = (q ⟨0, by decide⟩).val :=
  tileDot.lhsIdx_val_of_single rfl i q
/-- the right operand at the contraction coordinate … -/
theorem rhs_contr (i : S512x512.Idx) (q : tileDot.contr.Idx) : (tileDot.rhsIdx i q 0).val = (q ⟨0, by decide⟩).val :=
  tileDot.rhsIdx_val_of_single rfl i q
/-- … and the output's column. -/
theorem rhs_col (i : S512x512.Idx) (q : tileDot.contr.Idx) : (tileDot.rhsIdx i q 1).val = (i 1).val := by
  unfold DotDims.rhsIdx
  rw [dif_neg (show ¬(1 : Fin S256x512.rank) ∈ tileDot.rhsBatch by decide),
    dif_pos (show (1 : Fin S256x512.rank) ∈ tileDot.rhsNonContracting by decide)]
  rfl

/-- The matrix product into the zero accumulator, at (a, b): the sum over the 256 inner
    coordinates of the products. -/
theorem matmul_at (l : FVec Ideal S512x256 .bf16) (r : FVec Ideal S256x512 .bf16) (a b : Fin 512) :
    matmul tileDot none l r (constant S512x512 .f32 0x00000000#32) (ix2 a b)
      = ∑ k : Fin 256, l (ix2 a k) * r (ix2 k b) := by
  show FloatOps.matmul tileDot none l r (constant S512x512 .f32 0x00000000#32) (ix2 a b) = _
  rw [Ideal.matmul_constant_zero_apply, ← Equiv.sum_comp (contrEquiv1 tileDot 256 rfl rfl).symm]
  refine Finset.sum_congr rfl fun k _ => ?_
  have hk := contrEquiv1_symm_val tileDot 256 rfl rfl k
  have el : tileDot.lhsIdx (ix2 a b) ((contrEquiv1 tileDot 256 rfl rfl).symm k) = ix2 a k :=
    funext fun c => Fin.ext (by
      match c with
      | ⟨0, _⟩ => exact lhs_row _ _
      | ⟨1, _⟩ => exact (lhs_contr _ _).trans hk)
  have er : tileDot.rhsIdx (ix2 a b) ((contrEquiv1 tileDot 256 rfl rfl).symm k) = ix2 k b :=
    funext fun c => Fin.ext (by
      match c with
      | ⟨0, _⟩ => exact (rhs_contr _ _).trans hk
      | ⟨1, _⟩ => exact rhs_col _ _)
  rw [el, er]

/-- THE WEIGHT ON A TILE, at (a, b): the exponential of the inner product of row a of the row tile
    and row b of the column tile, over the temperature. -/
theorem expTile_at (fi fj : Vec Ideal S512x256 .bf16) (a b : Fin 512) :
    expTile (F := Ideal) fi fj (ix2 a b)
      = Ideal.exp (Ideal.div (∑ k : Fin 256, fi (ix2 a k) * fj (ix2 b k)) (Ideal.ofBits .f32 0x3F4CCCCD#32)) := by
  show k1_pay7 (F := Ideal) fi fj (ix2 a b) = _
  unfold k1_pay7
  dsimp only
  show Ideal.exp (matmul (F := Ideal) tileDot none (shapeCast S512x256 fi shapeCasts_S512x256_S512x256)
      (transpose S256x512 [1, 0] (shapeCast S512x256 fj shapeCasts_S512x256_S512x256) transposes_S512x256_p1_0_S256x512)
      (constant S512x512 .f32 0x00000000#32) (ix2 a b)
    * Named.named (F := Ideal) κ "inv_temperature" (φ := .f32) 0x3FA00000#32) = _
  rw [inv_temperature, mul_inv_temperature, shapeCast_self, shapeCast_self, matmul_at]
  refine congrArg (fun s => Ideal.exp (Ideal.div s (Ideal.ofBits .f32 0x3F4CCCCD#32))) ?_
  exact Finset.sum_congr rfl fun k _ =>
    congrArg (fi (ix2 a k) * ·) (transpose_ix2_apply fj transposes_S512x256_p1_0_S256x512 k b)

end Cert.KernelIdeal.PairValue

end
-- ==== Proof.PairMask.lean ====
/- Which pairs count on a tile. The tile at grid position (i₀, i₁) holds rows 512 i₀ + a and columns
   512 i₁ + b of the pair matrix. A pair is POSITIVE when the row's and the column's labels agree,
   their speakers agree, and the pair is off the diagonal; NEGATIVE when the labels agree, the
   speakers differ, and it is off the diagonal. The kernel spreads the row tags over the columns
   and the column tags over the rows, compares, and computes the global row and column numbers in
   32-bit arithmetic — the largest is 512 · 15 + 511, far from wrapping — to exclude the diagonal. -/
import proofs.«134439_j29841432773048_1_alg».proof.Proof.PairPre
import proofs.«134439_j29841432773048_1_alg».proof.Proof.NormValue
import Idealize.ShloMosaic.Lib.Affine
import Idealize.ShloMosaic.Lib.ValueIdx
import Idealize.ShloMosaic.Lib.ValueLayout
import Idealize.ShloMosaic.Lib.Pipeline.Value

set_option maxRecDepth 16384

noncomputable section

namespace Cert.KernelIdeal.PairValue

open Cert.KernelIdeal Cert.KernelIdeal.Gen Cert.KernelIdeal.PairRegion
open Idealize.ShloMosaic
open Idealize.ShloMosaic.ValueIdx
open scoped BigOperators

open Cert.KernelIdeal.NormValue (broadcastTo_column_apply)

variable {F : FTy → Type} [FloatOps F] [Named F]

/-- On one bit, exclusive-or with 1 is 1 exactly when the bit is not. -/
theorem xori_one : ∀ c : BitVec 1, IntOp.xori c 1#1 = 1#1 ↔ ¬c = 1#1 := by decide

/-! ## Equal tags -/

/-- The label comparison at (a, b): the row tile's tag at row a against the column tile's tag at
    column b. -/
theorem sameLabel_at (r : Vec Ideal S512x1 .i32) (c : Vec Ideal S1x512 .i32) (a b : Fin 512) :
    k1_pay8 (F := Ideal) r c (ix2 a b) = IntOp.cmpi .eq (r (ix2 a (0 : Fin 1))) (c (ix2 (0 : Fin 1) b)) := by
  unfold k1_pay8
  show IntOp.cmpi .eq
      (broadcastTo S512x512 (shapeCast S512x1 r shapeCasts_S512x1_S512x1) broadcasts_S512x1_S512x512 (ix2 a b))
      (broadcastTo S512x512 (shapeCast S1x512 c shapeCasts_S1x512_S1x512) broadcasts_S1x512_S512x512 (ix2 a b)) = _
  rw [shapeCast_self, shapeCast_self, broadcastTo_column_apply, broadcastTo_1b_ab_apply]

/-- The speaker comparison at (a, b), the same way. -/
theorem sameSpeaker_at (r : Vec Ideal S512x1 .i32) (c : Vec Ideal S1x512 .i32) (a b : Fin 512) :
    k1_pay9 (F := Ideal) r c (ix2 a b) = IntOp.cmpi .eq (r (ix2 a (0 : Fin 1))) (c (ix2 (0 : Fin 1) b)) := by
  unfold k1_pay9
  show IntOp.cmpi .eq
      (broadcastTo S512x512 (shapeCast S512x1 r shapeCasts_S512x1_S512x1) broadcasts_S512x1_S512x512 (ix2 a b))
      (broadcastTo S512x512 (shapeCast S1x512 c shapeCasts_S1x512_S1x512) broadcasts_S1x512_S512x512 (ix2 a b)) = _
  rw [shapeCast_self, shapeCast_self, broadcastTo_column_apply, broadcastTo_1b_ab_apply]

/-! ## Off the diagonal -/

/-- The global number of local coordinate r on a tile at grid coordinate g, as the kernel computes
    it in 32 bits: 512 g + r, with no wrap. -/
theorem origin_word (g r : ℕ) (hg : g < 16) (hr : r < 512) :
    IntOp.addi (Scalar.muli (BitVec.ofNat 32 g) 512#32) (BitVec.ofNat 32 (0 * 512 + r)) = BitVec.ofNat 32 (512 * g + r) := by
  apply BitVec.eq_of_toNat_eq
  simp only [IntOp.addi, Scalar.muli, IntOp.muli, BitVec.toNat_add, BitVec.toNat_mul, BitVec.toNat_ofNat]
  omega

/-- Two such numbers are equal words exactly when they are equal numbers. -/
theorem word_inj (x y : ℕ) (hx : x < 8192) (hy : y < 8192) : BitVec.ofNat 32 x = BitVec.ofNat 32 y ↔ x = y := by
  constructor
  · intro e
    have := congrArg BitVec.toNat e
    simp only [BitVec.toNat_ofNat] at this
    omega
  · intro e; rw [e]

/-- The off-diagonal bit at (a, b): the global row number is not the global column number. -/
theorem offDiag_at (i : grid1.Coords) (a b : Fin 512) :
    k1_pay10 i (ix2 a b) = 1#1 ↔ 512 * (i 0).val + a.val ≠ 512 * (i 1).val + b.val := by
  have h0 : (i 0).val < 16 := (i 0).isLt
  have h1 : (i 1).val < 16 := (i 1).isLt
  have ha : a.val < 512 := a.isLt
  have hb : b.val < 512 := b.isLt
  unfold k1_pay10
  dsimp only
  show IntOp.xori (IntOp.cmpi .eq
      (IntOp.addi (Scalar.muli (BitVec.ofNat 32 (i 0).val) 512#32) (BitVec.ofNat 32 (0 * 512 + a.val)))
      (IntOp.addi (Scalar.muli (BitVec.ofNat 32 (i 1).val) 512#32) (BitVec.ofNat 32 (0 * 512 + b.val)))) 1#1 = 1#1 ↔ _
  rw [origin_word _ _ h0 ha, origin_word _ _ h1 hb, xori_one, IntOp.cmpi_eq,
    word_inj _ _ (by omega) (by omega)]

/-! ## The two masks -/

/-- THE POSITIVE PAIRS of the tile, at (a, b): same label, same speaker, off the diagonal. -/
theorem posTile_at (i : grid1.Coords) (lr : Vec Ideal S512x1 .i32) (lc : Vec Ideal S1x512 .i32)
    (sr : Vec Ideal S512x1 .i32) (sc : Vec Ideal S1x512 .i32) (a b : Fin 512) :
    posTile (F := Ideal) i lr lc sr sc (ix2 a b) = 1#1
      ↔ lr (ix2 a (0 : Fin 1)) = lc (ix2 (0 : Fin 1) b) ∧ sr (ix2 a (0 : Fin 1)) = sc (ix2 (0 : Fin 1) b)
        ∧ 512 * (i 0).val + a.val ≠ 512 * (i 1).val + b.val := by
  show IntOp.andi (IntOp.andi (k1_pay8 (F := Ideal) lr lc (ix2 a b)) (k1_pay9 (F := Ideal) sr sc (ix2 a b)))
      (k1_pay10 i (ix2 a b)) = 1#1 ↔ _
  rw [IntOp.andi_eq_one, IntOp.andi_eq_one, sameLabel_at, sameSpeaker_at, IntOp.cmpi_eq, IntOp.cmpi_eq,
    offDiag_at, and_assoc]

/-- The negative pairs of the tile, as the kernel's step of the negative sum builds them: the label
    comparison, the complement of the speaker comparison, the off-diagonal bit. -/
def negTile (i : grid1.Coords) (lr : Vec F S512x1 .i32) (lc : Vec F S1x512 .i32) (sr : Vec F S512x1 .i32)
    (sc : Vec F S1x512 .i32) : IVec S512x512 1 :=
  andi (andi (k1_pay8 (F := F) lr lc) (xori (k1_pay9 (F := F) sr sc) (constantI S512x512 1 1#1))) (k1_pay10 i)

/-- THE NEGATIVE PAIRS of the tile, at (a, b): same label, another speaker, off the diagonal. -/
theorem negTile_at (i : grid1.Coords) (lr : Vec Ideal S512x1 .i32) (lc : Vec Ideal S1x512 .i32)
    (sr : Vec Ideal S512x1 .i32) (sc : Vec Ideal S1x512 .i32) (a b : Fin 512) :
    negTile (F := Ideal) i lr lc sr sc (ix2 a b) = 1#1
      ↔ lr (ix2 a (0 : Fin 1)) = lc (ix2 (0 : Fin 1) b) ∧ sr (ix2 a (0 : Fin 1)) ≠ sc (ix2 (0 : Fin 1) b)
        ∧ 512 * (i 0).val + a.val ≠ 512 * (i 1).val + b.val := by
  show IntOp.andi (IntOp.andi (k1_pay8 (F := Ideal) lr lc (ix2 a b))
      (IntOp.xori (k1_pay9 (F := Ideal) sr sc (ix2 a b)) 1#1)) (k1_pay10 i (ix2 a b)) = 1#1 ↔ _
  rw [IntOp.andi_eq_one, IntOp.andi_eq_one, xori_one, sameLabel_at, sameSpeaker_at, IntOp.cmpi_eq, IntOp.cmpi_eq,
    offDiag_at, and_assoc]

end Cert.KernelIdeal.PairValue

end
-- ==== Proof.PairStep.lean ====
/- One step along a row of tiles. The positive sum's column gains, at row a, the sum over the
   tile's 512 columns of the pair weights where the pair is positive, the negative sum's column the
   same over the negative pairs, and the "met" column becomes the larger of what it was and 1 or 0
   according to whether the tile has a positive pair in row a. The kernel takes the lane maximum of
   a 1-or-0 tile from minus infinity and asks whether it exceeds 0: it does exactly when some entry
   of the row is 1. -/
import proofs.«134439_j29841432773048_1_alg».proof.Proof.PairPre
import proofs.«134439_j29841432773048_1_alg».proof.Proof.PairMask
import proofs.«134439_j29841432773048_1_alg».proof.Proof.PairBits
import proofs.«134439_j29841432773048_1_alg».proof.Proof.NormValue
import Idealize.ShloMosaic.PureOps.Ideal.Laws
import Idealize.ShloMosaic.PureOps.IdealRules
import Idealize.ShloMosaic.Lib.ValueIdx
import Idealize.ShloMosaic.Lib.Pipeline.Value

set_option maxRecDepth 16384

noncomputable section

namespace Cert.KernelIdeal.PairValue

open Cert.KernelIdeal Cert.KernelIdeal.Gen Cert.KernelIdeal.PairRegion
open Idealize.ShloMosaic
open Idealize.ShloMosaic.ValueIdx
open scoped BigOperators

open Cert.KernelIdeal.NormValue (shapeCast_column_apply lift_row)

/-! ## Masked sums along a row of the tile -/

/-- The sum over the tile's columns, from the zero accumulator, at row p. -/
theorem tileRowSum_at (v : FVec Ideal S512x512 .f32) (p : Fin 512) :
    multiReduction .add [1] S512 v 0x00000000#32 reduces_S512x512_S512 (.inl rfl) rfl (ix1 p)
      = ∑ k : Fin 512, v (ix2 p k) :=
  (Ideal.multiReduction_add_single v 0x00000000#32 reduces_S512x512_S512 (.inl rfl) rfl (ix1 p)).trans
    (Finset.sum_congr rfl fun k _ => congrArg v (lift_row reduces_S512x512_S512 p k))

/-- The same of a tile masked to zero where the bit is not 1: the sum of the entries where it is. -/
theorem maskedSum_at (E : FVec Ideal S512x512 .f32) (M : IVec S512x512 1) (p : Fin 512) :
    multiReduction .add [1] S512 (select M E (broadcast S512x512 (Scalar.ofBits (F := Ideal) .f32 0x00000000#32)))
        0x00000000#32 reduces_S512x512_S512 (.inl rfl) rfl (ix1 p)
      = ∑ b : Fin 512, if M (ix2 p b) = 1#1 then E (ix2 p b) else 0 := by
  refine (tileRowSum_at _ p).trans (Finset.sum_congr rfl fun b _ => ?_)
  show (if M (ix2 p b) = 1#1 then E (ix2 p b) else Ideal.ofBits .f32 0x00000000#32) = _
  rw [Ideal.ofBits_zero_f32]

/-- The step of a sum column, at row a: what was carried in plus the masked row sum. -/
theorem k1_pay12_at (E : FVec Ideal S512x512 .f32) (M : IVec S512x512 1) (acc : Vec Ideal S512x1 .f32) (a : Fin 512) :
    k1_pay12 (F := Ideal) E M acc (ix2 a (0 : Fin 1))
      = acc (ix2 a (0 : Fin 1)) + ∑ b : Fin 512, if M (ix2 a b) = 1#1 then E (ix2 a b) else 0 := by
  unfold k1_pay12
  refine (congrFun (shapeCast_self _ _) _).trans ?_
  refine (addf_apply _ _ _).trans ?_
  refine congrArg (acc (ix2 a (0 : Fin 1)) + ·) ?_
  refine (shapeCast_column_apply _ _ a 0).trans ?_
  exact maskedSum_at E M a

/-- The step of the negative sum's column, which builds its mask from the two comparisons and the
    off-diagonal bit. -/
theorem k1_pay13_at (E : FVec Ideal S512x512 .f32) (c1 c2 d : IVec S512x512 1) (acc : Vec Ideal S512x1 .f32) (a : Fin 512) :
    k1_pay13 (F := Ideal) E c1 c2 d acc (ix2 a (0 : Fin 1))
      = acc (ix2 a (0 : Fin 1))
        + ∑ b : Fin 512, if andi (andi c1 (xori c2 (constantI S512x512 1 1#1))) d (ix2 a b) = 1#1 then E (ix2 a b) else 0 := by
  unfold k1_pay13
  refine (congrFun (shapeCast_self _ _) _).trans ?_
  refine (addf_apply _ _ _).trans ?_
  refine congrArg (acc (ix2 a (0 : Fin 1)) + ·) ?_
  refine (shapeCast_column_apply _ _ a 0).trans ?_
  exact maskedSum_at E _ a

/-- ONE STEP OF THE POSITIVE SUM at row a. -/
theorem stepNum_at (i : grid1.Coords) (fi fj : Vec Ideal S512x256 .bf16) (lr : Vec Ideal S512x1 .i32)
    (lc : Vec Ideal S1x512 .i32) (sr : Vec Ideal S512x1 .i32) (sc : Vec Ideal S1x512 .i32)
    (acc : Vec Ideal S512x1 .f32) (a : Fin 512) :
    stepNum (F := Ideal) i fi fj lr lc sr sc acc (ix2 a (0 : Fin 1))
      = acc (ix2 a (0 : Fin 1))
        + ∑ b : Fin 512, if posTile (F := Ideal) i lr lc sr sc (ix2 a b) = 1#1 then expTile (F := Ideal) fi fj (ix2 a b) else 0 := by
  unfold stepNum
  exact k1_pay12_at _ _ acc a

/-- ONE STEP OF THE NEGATIVE SUM at row a. -/
theorem stepDen_at (i : grid1.Coords) (fi fj : Vec Ideal S512x256 .bf16) (lr : Vec Ideal S512x1 .i32)
    (lc : Vec Ideal S1x512 .i32) (sr : Vec Ideal S512x1 .i32) (sc : Vec Ideal S1x512 .i32)
    (acc : Vec Ideal S512x1 .f32) (a : Fin 512) :
    stepDen (F := Ideal) i fi fj lr lc sr sc acc (ix2 a (0 : Fin 1))
      = acc (ix2 a (0 : Fin 1))
        + ∑ b : Fin 512, if negTile (F := Ideal) i lr lc sr sc (ix2 a b) = 1#1 then expTile (F := Ideal) fi fj (ix2 a b) else 0 := by
  unfold stepDen negTile
  exact k1_pay13_at _ _ _ _ acc a

/-! ## The "met" column -/

/-- The lane maximum of a tile, from minus infinity, at row p: the largest entry of the row (and
    minus infinity if the row were empty). -/
theorem tileRowMax_at (v : FVec Ideal S512x512 .f32) (p : Fin 512) :
    multiReduction .maximumf [1] S512 v 0xFF800000#32 reduces_S512x512_S512 (.inl rfl) rfl (ix1 p)
      = (Finset.univ : Finset (Fin 512)).fold max ⊥ (fun k => v (ix2 p k)) := by
  refine (Ideal.multiReduction_maximumf_single v 0xFF800000#32 reduces_S512x512_S512 (.inl rfl) rfl (ix1 p)).trans ?_
  have hf : (v ∘ reduces_S512x512_S512.lift (ix1 p)) = fun k : Fin 512 => v (ix2 p k) :=
    funext fun k => congrArg v (lift_row reduces_S512x512_S512 p k)
  refine (congrArg (fun f => Finset.fold max (FloatOps.ofBits (F := Ideal) .f32 0xFF800000#32) f
    (Finset.univ : Finset (Fin 512))) hf).trans ?_
  exact congrArg (fun b => Finset.fold max b (fun k : Fin 512 => v (ix2 p k)) (Finset.univ : Finset (Fin 512)))
    ofBits_negInf

/-- An entry that is 1 where the bit is 1 and 0 elsewhere is positive exactly when the bit is 1. -/
theorem sel01_pos (c : BitVec 1) :
    (0 : EReal) < Scalar.select c (Ideal.ofBits .f32 0x3F800000#32) (Ideal.ofBits .f32 0x00000000#32) ↔ c = 1#1 := by
  by_cases h : c = 1#1
  · subst h
    rw [select_one, ofBits_one]
    exact iff_of_true zero_lt_one rfl
  · rw [eq_zero_of_ne_one h, select_zero, Ideal.ofBits_zero_f32]
    exact iff_of_false (lt_irrefl _) (by decide)

/-- The lane maximum, from minus infinity, of the tile that is 1 where the bit is 1 and 0 elsewhere
    exceeds 0 at row p exactly when some bit of the row is 1. -/
theorem rowAny_at (M : IVec S512x512 1) (p : Fin 512) :
    cmpf .ogt
        (multiReduction .maximumf [1] S512
          (select M (broadcast S512x512 (Scalar.ofBits (F := Ideal) .f32 0x3F800000#32))
            (broadcast S512x512 (Scalar.ofBits (F := Ideal) .f32 0x00000000#32)))
          0xFF800000#32 reduces_S512x512_S512 (.inl rfl) rfl)
        (broadcast S512 (Scalar.ofBits (F := Ideal) .f32 0x00000000#32)) (ix1 p) = 1#1
      ↔ ∃ b : Fin 512, M (ix2 p b) = 1#1 := by
  rw [cmpf_apply, Ideal.cmpf_def, broadcast_apply]
  simp only [Ideal.ofBits_def]
  rw [gt_zero_bit, tileRowMax_at, Finset.lt_fold_max]
  constructor
  · rintro (h | ⟨k, -, hk⟩)
    · exact absurd h not_lt_bot
    · exact ⟨k, (sel01_pos _).mp hk⟩
  · rintro ⟨b, hb⟩
    exact Or.inr ⟨b, Finset.mem_univ _, (sel01_pos _).mpr hb⟩

/-- The step of the "met" column, at row a. -/
theorem k1_pay14_at (M : IVec S512x512 1) (acc : Vec Ideal S512x1 .f32) (a : Fin 512) :
    k1_pay14 (F := Ideal) M acc (ix2 a (0 : Fin 1))
      = max (acc (ix2 a (0 : Fin 1))) (if ∃ b : Fin 512, M (ix2 a b) = 1#1 then 1 else 0) := by
  unfold k1_pay14
  refine (congrFun (shapeCast_self _ _) _).trans ?_
  refine (maximumf_apply _ _ _).trans ?_
  refine congrArg (max (acc (ix2 a (0 : Fin 1)))) ?_
  refine (bit_sitofp _).trans ?_
  refine if_congr ?_ rfl rfl
  refine Iff.trans (Eq.congr_left (shapeCast_column_apply _ _ a 0)) ?_
  exact rowAny_at M a

/-- ONE STEP OF "A POSITIVE PAIR WAS MET" at row a. -/
theorem stepAny_at (i : grid1.Coords) (lr : Vec Ideal S512x1 .i32) (lc : Vec Ideal S1x512 .i32)
    (sr : Vec Ideal S512x1 .i32) (sc : Vec Ideal S1x512 .i32) (acc : Vec Ideal S512x1 .f32) (a : Fin 512) :
    stepAny (F := Ideal) i lr lc sr sc acc (ix2 a (0 : Fin 1))
      = max (acc (ix2 a (0 : Fin 1)))
          (if ∃ b : Fin 512, posTile (F := Ideal) i lr lc sr sc (ix2 a b) = 1#1 then 1 else 0) := by
  unfold stepAny
  exact k1_pay14_at _ acc a

end Cert.KernelIdeal.PairValue

end
-- ==== Proof.PairRows.lean ====
/-
  The three columns the pair kernel carries along a row of tiles, in terms of the whole arrays.

  Fix a row of tiles g and a row a inside it, and write r = 512·g + a for the global row. After the
  body at tile (g, j) the positive sum's column holds at a the sum, over the columns col below
  512·(j + 1), of the weight of the pair (r, col) where the pair is positive; the negative sum's
  column the same over the negative pairs; and the "met" column 1 or 0 according to whether some
  column below 512·(j + 1) is a positive partner of r. The first tile of the row starts the three
  from zero, every later tile adds its own 512 columns to what the tile before left: an induction on
  j, in which only the commutativity and associativity of the sum are used. After the last tile the
  columns run over all 8192.
-/
import proofs.«134439_j29841432773048_1_alg».proof.Proof.PairTiles
import proofs.«134439_j29841432773048_1_alg».proof.Proof.PairExp
import proofs.«134439_j29841432773048_1_alg».proof.Proof.PairMask
import proofs.«134439_j29841432773048_1_alg».proof.Proof.PairStep

set_option maxRecDepth 16384

noncomputable section

open scoped BigOperators

namespace Cert.KernelIdeal.PairRows

open Cert.KernelIdeal Cert.KernelIdeal.Gen Cert.KernelIdeal.PairRegion
open Idealize.ShloMosaic Idealize.ShloMosaic.TcCoe Idealize.ShloMosaic.Tactic
open Idealize.SL Idealize.SL.Sem
open Idealize.ShloMosaic.Pipeline (Dat Cfg Window)
open Idealize.ShloMosaic.ValueIdx (ix2 eq_ix2)

/-! ## Sums and "some" over the columns below a bound -/

/-- The sum of `f` over the columns below `n`. -/
def below (f : Fin 8192 → EReal) (n : ℕ) : EReal :=
  ∑ x ∈ Finset.range n, if h : x < 8192 then f ⟨x, h⟩ else 0

theorem below_zero (f : Fin 8192 → EReal) : below f 0 = 0 := Finset.sum_range_zero _

/-- One more block of 512 columns. -/
theorem below_block (f : Fin 8192 → EReal) (g : ℕ) (hg : g < 16) :
    below f (512 * (g + 1)) = below f (512 * g) + ∑ b : Fin 512, f (gIdx g hg b) := by
  unfold below
  rw [show 512 * (g + 1) = 512 * g + 512 by ring, Finset.sum_range_add]
  refine congrArg (_ + ·) ?_
  rw [Finset.sum_range]
  refine Finset.sum_congr rfl fun b _ => ?_
  exact dif_pos (by have := b.isLt; omega)

/-- All sixteen blocks are all the columns. -/
theorem below_all (f : Fin 8192 → EReal) : below f 8192 = ∑ col : Fin 8192, f col := by
  unfold below
  rw [Finset.sum_range]
  exact Finset.sum_congr rfl fun i _ => dif_pos i.isLt

/-- Some column below `n` satisfies `p`. -/
def anyBelow (p : Fin 8192 → Prop) (n : ℕ) : Prop := ∃ col : Fin 8192, col.val < n ∧ p col

theorem not_anyBelow_zero (p : Fin 8192 → Prop) : ¬ anyBelow p 0 := fun ⟨_, h, _⟩ => Nat.not_lt_zero _ h

theorem anyBelow_block (p : Fin 8192 → Prop) (g : ℕ) (hg : g < 16) :
    anyBelow p (512 * (g + 1)) ↔ anyBelow p (512 * g) ∨ ∃ b : Fin 512, p (gIdx g hg b) := by
  constructor
  · rintro ⟨col, hlt, hp⟩
    by_cases h : col.val < 512 * g
    · exact Or.inl ⟨col, h, hp⟩
    · refine Or.inr ⟨⟨col.val - 512 * g, by omega⟩, ?_⟩
      have e : gIdx g hg ⟨col.val - 512 * g, by omega⟩ = col :=
        Fin.ext (by show 512 * g + (col.val - 512 * g) = col.val; omega)
      rw [e]; exact hp
  · rintro (⟨col, hlt, hp⟩ | ⟨b, hp⟩)
    · exact ⟨col, by omega, hp⟩
    · exact ⟨gIdx g hg b, by show 512 * g + b.val < 512 * (g + 1); have := b.isLt; omega, hp⟩

theorem anyBelow_all (p : Fin 8192 → Prop) : anyBelow p 8192 ↔ ∃ col : Fin 8192, p col :=
  ⟨fun ⟨col, _, hp⟩ => ⟨col, hp⟩, fun ⟨col, hp⟩ => ⟨col, col.isLt, hp⟩⟩

open Classical in
/-- The 0/1 indicator of a proposition, as an extended real. -/
def ind (p : Prop) : EReal := if p then 1 else 0

theorem ind_pos {p : Prop} (h : p) : ind p = 1 := by unfold ind; exact if_pos h
theorem ind_neg {p : Prop} (h : ¬p) : ind p = 0 := by unfold ind; exact if_neg h
theorem ind_congr {p q : Prop} (h : p ↔ q) : ind p = ind q := by rw [propext h]
/-- Whatever decides the proposition, the indicator is the `if`. -/
theorem ind_eq_ite (p : Prop) [Decidable p] : ind p = if p then (1 : EReal) else 0 := by
  by_cases h : p
  · rw [ind_pos h, if_pos h]
  · rw [ind_neg h, if_neg h]

/-- The larger of two indicators is the indicator of "one or the other". -/
theorem max_ind (A B : Prop) : max (ind A) (ind B) = ind (A ∨ B) := by
  by_cases hA : A <;> by_cases hB : B
  · rw [ind_pos hA, ind_pos hB, ind_pos (Or.inl hA), max_self]
  · rw [ind_pos hA, ind_neg hB, ind_pos (Or.inl hA), max_eq_left zero_le_one]
  · rw [ind_neg hA, ind_pos hB, ind_pos (Or.inr hB), max_eq_right zero_le_one]
  · rw [ind_neg hA, ind_neg hB, ind_neg (fun h => h.elim hA hB), max_self]

/-! ## The pairs and their weights over the whole arrays -/

variable (V : (c : Dev nD) → (b : Ref sig .tc) → Buf (Elt Ideal) ((c : Thread nD τ).loc b))

/-- The five arrays the pair kernel reads, at their literal types: the unit-norm features, the labels
    as a column and as a row, the speaker ids as a column and as a row. -/
def feats (c : Dev nD) : FVec Ideal S8192x256 .bf16 := V c main_v0
def labelCol (c : Dev nD) : IVec S8192x1 32 := V c main_v1
def labelRow (c : Dev nD) : IVec S1x8192 32 := V c main_v2
def speakerCol (c : Dev nD) : IVec S8192x1 32 := V c main_v3
def speakerRow (c : Dev nD) : IVec S1x8192 32 := V c main_v4

/-- The weight of the pair of global rows (r, col): the exponential of the inner product of the two
    unit-norm feature rows over the temperature. -/
def weightOf (c : Dev nD) (r col : Fin 8192) : EReal :=
  Ideal.exp (Ideal.div (∑ k : Fin 256, feats V c (ix2 r k) * feats V c (ix2 col k)) (Ideal.ofBits .f32 0x3F4CCCCD#32))

/-- (r, col) is a positive pair: same label, same speaker, another row. -/
def posOf (c : Dev nD) (r col : Fin 8192) : Prop :=
  labelCol V c (ix2 r (0 : Fin 1)) = labelRow V c (ix2 (0 : Fin 1) col)
    ∧ speakerCol V c (ix2 r (0 : Fin 1)) = speakerRow V c (ix2 (0 : Fin 1) col) ∧ r ≠ col

/-- (r, col) is a negative pair: same label, another speaker, another row. -/
def negOf (c : Dev nD) (r col : Fin 8192) : Prop :=
  labelCol V c (ix2 r (0 : Fin 1)) = labelRow V c (ix2 (0 : Fin 1) col)
    ∧ speakerCol V c (ix2 r (0 : Fin 1)) ≠ speakerRow V c (ix2 (0 : Fin 1) col) ∧ r ≠ col

open Classical in
/-- The weight of a pair where it is positive, zero elsewhere. -/
def posTerm (c : Dev nD) (r col : Fin 8192) : EReal := if posOf V c r col then weightOf V c r col else 0
open Classical in
/-- The weight of a pair where it is negative, zero elsewhere. -/
def negTerm (c : Dev nD) (r col : Fin 8192) : EReal := if negOf V c r col then weightOf V c r col else 0

theorem posTerm_pos {c : Dev nD} {r col : Fin 8192} (h : posOf V c r col) : posTerm V c r col = weightOf V c r col := by
  unfold posTerm; exact if_pos h
theorem posTerm_neg {c : Dev nD} {r col : Fin 8192} (h : ¬ posOf V c r col) : posTerm V c r col = 0 := by
  unfold posTerm; exact if_neg h
theorem negTerm_pos {c : Dev nD} {r col : Fin 8192} (h : negOf V c r col) : negTerm V c r col = weightOf V c r col := by
  unfold negTerm; exact if_pos h
theorem negTerm_neg {c : Dev nD} {r col : Fin 8192} (h : ¬ negOf V c r col) : negTerm V c r col = 0 := by
  unfold negTerm; exact if_neg h
/-- Whatever decides the pair, the term is the `if`. -/
theorem posTerm_eq_ite (c : Dev nD) (r col : Fin 8192) [Decidable (posOf V c r col)] :
    posTerm V c r col = if posOf V c r col then weightOf V c r col else 0 := by
  by_cases h : posOf V c r col
  · rw [posTerm_pos V h, if_pos h]
  · rw [posTerm_neg V h, if_neg h]
theorem negTerm_eq_ite (c : Dev nD) (r col : Fin 8192) [Decidable (negOf V c r col)] :
    negTerm V c r col = if negOf V c r col then weightOf V c r col else 0 := by
  by_cases h : negOf V c r col
  · rw [negTerm_pos V h, if_pos h]
  · rw [negTerm_neg V h, if_neg h]

/-! ## One tile, at global indices -/

theorem row_eq (t : Fin cfg1.N) (g j : ℕ) (hg : g < 16) (hj : j < 16) (ht : t.val = 16 * g + j) (a : Fin 512) :
    gIdx (t.val / 16) (div16_lt t) a = gIdx g hg a :=
  Fin.ext (by show 512 * (t.val / 16) + a.val = 512 * g + a.val; omega)
theorem col_eq (t : Fin cfg1.N) (g j : ℕ) (hg : g < 16) (hj : j < 16) (ht : t.val = 16 * g + j) (b : Fin 512) :
    gIdx (t.val % 16) (mod16_lt t) b = gIdx j hj b :=
  Fin.ext (by show 512 * (t.val % 16) + b.val = 512 * j + b.val; omega)

/-- "Another row", locally and globally. -/
theorem offDiag_iff (t : Fin cfg1.N) (g j : ℕ) (hg : g < 16) (hj : j < 16) (ht : t.val = 16 * g + j) (a b : Fin 512) :
    512 * (grid1.coords t 0).val + a.val ≠ 512 * (grid1.coords t 1).val + b.val ↔ gIdx g hg a ≠ gIdx j hj b := by
  have h0 := coords_row t
  have h1 := coords_col t
  constructor
  · intro h e
    have e' : 512 * g + a.val = 512 * j + b.val := congrArg Fin.val e
    exact h (by omega)
  · intro h e
    exact h (Fin.ext (by show 512 * g + a.val = 512 * j + b.val; omega))

section AtTile

theorem labelCol_tile (c : Dev nD) (t : Fin cfg1.N) (g j : ℕ) (hg : g < 16) (hj : j < 16) (ht : t.val = 16 * g + j) (a : Fin 512) : tile V c 2 t (ix2 a (0 : Fin 1)) = labelCol V c (ix2 (gIdx g hg a) (0 : Fin 1)) :=
  (tile2_at V c t a).trans (congrArg (fun r => labelCol V c (ix2 r (0 : Fin 1))) (row_eq t g j hg hj ht a))
theorem labelRow_tile (c : Dev nD) (t : Fin cfg1.N) (g j : ℕ) (hg : g < 16) (hj : j < 16) (ht : t.val = 16 * g + j) (b : Fin 512) : tile V c 3 t (ix2 (0 : Fin 1) b) = labelRow V c (ix2 (0 : Fin 1) (gIdx j hj b)) :=
  (tile3_at V c t b).trans (congrArg (fun r => labelRow V c (ix2 (0 : Fin 1) r)) (col_eq t g j hg hj ht b))
theorem speakerCol_tile (c : Dev nD) (t : Fin cfg1.N) (g j : ℕ) (hg : g < 16) (hj : j < 16) (ht : t.val = 16 * g + j) (a : Fin 512) : tile V c 4 t (ix2 a (0 : Fin 1)) = speakerCol V c (ix2 (gIdx g hg a) (0 : Fin 1)) :=
  (tile4_at V c t a).trans (congrArg (fun r => speakerCol V c (ix2 r (0 : Fin 1))) (row_eq t g j hg hj ht a))
theorem speakerRow_tile (c : Dev nD) (t : Fin cfg1.N) (g j : ℕ) (hg : g < 16) (hj : j < 16) (ht : t.val = 16 * g + j) (b : Fin 512) : tile V c 5 t (ix2 (0 : Fin 1) b) = speakerRow V c (ix2 (0 : Fin 1) (gIdx j hj b)) :=
  (tile5_at V c t b).trans (congrArg (fun r => speakerRow V c (ix2 (0 : Fin 1) r)) (col_eq t g j hg hj ht b))
theorem featsRow_tile (c : Dev nD) (t : Fin cfg1.N) (g j : ℕ) (hg : g < 16) (hj : j < 16) (ht : t.val = 16 * g + j) (a : Fin 512) (k : Fin 256) : tile V c 0 t (ix2 a k) = feats V c (ix2 (gIdx g hg a) k) :=
  (tile0_at V c t a k).trans (congrArg (fun r => feats V c (ix2 r k)) (row_eq t g j hg hj ht a))
theorem featsCol_tile (c : Dev nD) (t : Fin cfg1.N) (g j : ℕ) (hg : g < 16) (hj : j < 16) (ht : t.val = 16 * g + j) (b : Fin 512) (k : Fin 256) : tile V c 1 t (ix2 b k) = feats V c (ix2 (gIdx j hj b) k) :=
  (tile1_at V c t b k).trans (congrArg (fun r => feats V c (ix2 r k)) (col_eq t g j hg hj ht b))

/-- The tile's positive mask at (a, b) is the positive pair of the global rows. -/
theorem pos_iff (c : Dev nD) (t : Fin cfg1.N) (g j : ℕ) (hg : g < 16) (hj : j < 16) (ht : t.val = 16 * g + j) (a b : Fin 512) :
    posTile (F := Ideal) (grid1.coords t) (tile V c 2 t) (tile V c 3 t) (tile V c 4 t) (tile V c 5 t) (ix2 a b) = 1#1
      ↔ posOf V c (gIdx g hg a) (gIdx j hj b) := by
  refine (PairValue.posTile_at (grid1.coords t) (tile V c 2 t) (tile V c 3 t) (tile V c 4 t) (tile V c 5 t) a b).trans ?_
  unfold posOf
  exact and_congr (Eq.congr (labelCol_tile V c t g j hg hj ht a) (labelRow_tile V c t g j hg hj ht b))
    (and_congr (Eq.congr (speakerCol_tile V c t g j hg hj ht a) (speakerRow_tile V c t g j hg hj ht b))
      (offDiag_iff t g j hg hj ht a b))

/-- The tile's negative mask at (a, b) is the negative pair of the global rows. -/
theorem neg_iff (c : Dev nD) (t : Fin cfg1.N) (g j : ℕ) (hg : g < 16) (hj : j < 16) (ht : t.val = 16 * g + j) (a b : Fin 512) :
    PairValue.negTile (F := Ideal) (grid1.coords t) (tile V c 2 t) (tile V c 3 t) (tile V c 4 t) (tile V c 5 t) (ix2 a b) = 1#1
      ↔ negOf V c (gIdx g hg a) (gIdx j hj b) := by
  refine (PairValue.negTile_at (grid1.coords t) (tile V c 2 t) (tile V c 3 t) (tile V c 4 t) (tile V c 5 t) a b).trans ?_
  unfold negOf
  exact and_congr (Eq.congr (labelCol_tile V c t g j hg hj ht a) (labelRow_tile V c t g j hg hj ht b))
    (and_congr (not_congr (Eq.congr (speakerCol_tile V c t g j hg hj ht a) (speakerRow_tile V c t g j hg hj ht b)))
      (offDiag_iff t g j hg hj ht a b))

/-- The tile's weights at (a, b) are the weights of the global rows. -/
theorem weight_eq (c : Dev nD) (t : Fin cfg1.N) (g j : ℕ) (hg : g < 16) (hj : j < 16) (ht : t.val = 16 * g + j) (a b : Fin 512) :
    expTile (F := Ideal) (tile V c 0 t) (tile V c 1 t) (ix2 a b) = weightOf V c (gIdx g hg a) (gIdx j hj b) := by
  refine (PairValue.expTile_at (tile V c 0 t) (tile V c 1 t) a b).trans ?_
  unfold weightOf
  refine congrArg (fun s => Ideal.exp (Ideal.div s (Ideal.ofBits .f32 0x3F4CCCCD#32))) (Finset.sum_congr rfl fun k _ => ?_)
  exact congrArg₂ (· * ·) (featsRow_tile V c t g j hg hj ht a k) (featsCol_tile V c t g j hg hj ht b k)

/-- A positive entry of the tile's masked weights is the positive term of the global rows, -/
theorem posEntry_eq (c : Dev nD) (t : Fin cfg1.N) (g j : ℕ) (hg : g < 16) (hj : j < 16) (ht : t.val = 16 * g + j) (a b : Fin 512) :
    (if posTile (F := Ideal) (grid1.coords t) (tile V c 2 t) (tile V c 3 t) (tile V c 4 t) (tile V c 5 t) (ix2 a b) = 1#1
      then expTile (F := Ideal) (tile V c 0 t) (tile V c 1 t) (ix2 a b) else 0)
      = posTerm V c (gIdx g hg a) (gIdx j hj b) := by
  by_cases h : posOf V c (gIdx g hg a) (gIdx j hj b)
  · rw [if_pos ((pos_iff V c t g j hg hj ht a b).mpr h), posTerm_pos V h, weight_eq V c t g j hg hj ht a b]
  · rw [if_neg (mt (pos_iff V c t g j hg hj ht a b).mp h), posTerm_neg V h]

/-- and a negative entry the negative term. -/
theorem negEntry_eq (c : Dev nD) (t : Fin cfg1.N) (g j : ℕ) (hg : g < 16) (hj : j < 16) (ht : t.val = 16 * g + j) (a b : Fin 512) :
    (if PairValue.negTile (F := Ideal) (grid1.coords t) (tile V c 2 t) (tile V c 3 t) (tile V c 4 t) (tile V c 5 t) (ix2 a b) = 1#1
      then expTile (F := Ideal) (tile V c 0 t) (tile V c 1 t) (ix2 a b) else 0)
      = negTerm V c (gIdx g hg a) (gIdx j hj b) := by
  by_cases h : negOf V c (gIdx g hg a) (gIdx j hj b)
  · rw [if_pos ((neg_iff V c t g j hg hj ht a b).mpr h), negTerm_pos V h, weight_eq V c t g j hg hj ht a b]
  · rw [if_neg (mt (neg_iff V c t g j hg hj ht a b).mp h), negTerm_neg V h]

/-- The tile's "some positive entry in row a" is "some positive partner in the block of columns". -/
theorem anyEntry_eq (c : Dev nD) (t : Fin cfg1.N) (g j : ℕ) (hg : g < 16) (hj : j < 16) (ht : t.val = 16 * g + j) (a : Fin 512) :
    (if ∃ b : Fin 512, posTile (F := Ideal) (grid1.coords t) (tile V c 2 t) (tile V c 3 t) (tile V c 4 t) (tile V c 5 t) (ix2 a b) = 1#1
      then (1 : EReal) else 0)
      = ind (∃ b : Fin 512, posOf V c (gIdx g hg a) (gIdx j hj b)) := by
  rw [← ind_eq_ite]
  exact ind_congr (exists_congr fun b => pos_iff V c t g j hg hj ht a b)

/-- ONE STEP of the three columns at tile (g, j), at row a: each gains its block of 512 columns. -/
theorem step_at (c : Dev nD) (t : Fin cfg1.N) (g j : ℕ) (hg : g < 16) (hj : j < 16) (ht : t.val = 16 * g + j) (s : Cols Ideal) (a : Fin 512) :
    (stepCols V c t s).1 (ix2 a (0 : Fin 1))
        = s.1 (ix2 a (0 : Fin 1)) + ∑ b : Fin 512, posTerm V c (gIdx g hg a) (gIdx j hj b)
    ∧ (stepCols V c t s).2.1 (ix2 a (0 : Fin 1))
        = s.2.1 (ix2 a (0 : Fin 1)) + ∑ b : Fin 512, negTerm V c (gIdx g hg a) (gIdx j hj b)
    ∧ (stepCols V c t s).2.2 (ix2 a (0 : Fin 1))
        = max (s.2.2 (ix2 a (0 : Fin 1))) (ind (∃ b : Fin 512, posOf V c (gIdx g hg a) (gIdx j hj b))) := by
  unfold stepCols
  refine ⟨?_, ?_, ?_⟩
  · refine (PairValue.stepNum_at (grid1.coords t) (tile V c 0 t) (tile V c 1 t) (tile V c 2 t) (tile V c 3 t)
      (tile V c 4 t) (tile V c 5 t) s.1 a).trans ?_
    exact congrArg (s.1 (ix2 a (0 : Fin 1)) + ·) (Finset.sum_congr rfl fun b _ => posEntry_eq V c t g j hg hj ht a b)
  · refine (PairValue.stepDen_at (grid1.coords t) (tile V c 0 t) (tile V c 1 t) (tile V c 2 t) (tile V c 3 t)
      (tile V c 4 t) (tile V c 5 t) s.2.1 a).trans ?_
    exact congrArg (s.2.1 (ix2 a (0 : Fin 1)) + ·) (Finset.sum_congr rfl fun b _ => negEntry_eq V c t g j hg hj ht a b)
  · refine (PairValue.stepAny_at (grid1.coords t) (tile V c 2 t) (tile V c 3 t) (tile V c 4 t) (tile V c 5 t) s.2.2 a).trans ?_
    exact congrArg (max (s.2.2 (ix2 a (0 : Fin 1)))) (anyEntry_eq V c t g j hg hj ht a)

end AtTile

/-! ## Along a row of tiles -/

/-- The three columns start from zero. -/
theorem zeroCols_at (a : Fin 512) :
    (zeroCols (F := Ideal)).1 (ix2 a (0 : Fin 1)) = 0 ∧ (zeroCols (F := Ideal)).2.1 (ix2 a (0 : Fin 1)) = 0
      ∧ (zeroCols (F := Ideal)).2.2 (ix2 a (0 : Fin 1)) = 0 := by
  unfold zeroCols
  refine ⟨?_, ?_, ?_⟩
  · show k1_pay4 (F := Ideal) (ix2 a (0 : Fin 1)) = 0
    unfold k1_pay4
    exact (congrFun (shapeCast_self _ _) _).trans Ideal.ofBits_zero_f32
  · show k1_pay5 (F := Ideal) (ix2 a (0 : Fin 1)) = 0
    unfold k1_pay5
    exact (congrFun (shapeCast_self _ _) _).trans Ideal.ofBits_zero_f32
  · show k1_pay6 (F := Ideal) (ix2 a (0 : Fin 1)) = 0
    unfold k1_pay6
    exact (congrFun (shapeCast_self _ _) _).trans Ideal.ofBits_zero_f32

theorem point_in (g j : ℕ) (hg : g < 16) (hj : j < 16) : 16 * g + j < cfg1.N :=
  lt_of_lt_of_eq (by omega) (show (256 : ℕ) = cfg1.N from N_1.symm)

/-- THE CARRIED COLUMNS after the body at tile (g, j), at row a of the tile: the sums over the columns
    below 512·(j + 1) of the positive and of the negative terms of global row 512·g + a, and whether a
    positive partner lies below 512·(j + 1). -/
theorem carried_at (c : Dev nD) (g : ℕ) (hg : g < 16) (a : Fin 512) : ∀ (j : ℕ) (hj : j < 16),
    (carried V c (16 * g + j) (point_in g j hg hj)).1 (ix2 a (0 : Fin 1))
        = below (posTerm V c (gIdx g hg a)) (512 * (j + 1))
    ∧ (carried V c (16 * g + j) (point_in g j hg hj)).2.1 (ix2 a (0 : Fin 1))
        = below (negTerm V c (gIdx g hg a)) (512 * (j + 1))
    ∧ (carried V c (16 * g + j) (point_in g j hg hj)).2.2 (ix2 a (0 : Fin 1))
        = ind (anyBelow (posOf V c (gIdx g hg a)) (512 * (j + 1))) := by
  intro j
  induction j with
  | zero =>
    intro hj
    have hfirst := carried_first V c ⟨16 * g + 0, point_in g 0 hg hj⟩ (by show (16 * g + 0) % 16 = 0; omega)
    obtain ⟨z1, z2, z3⟩ := zeroCols_at a
    obtain ⟨s1, s2, s3⟩ := step_at V c ⟨16 * g + 0, point_in g 0 hg hj⟩ g 0 hg hj rfl (zeroCols (F := Ideal)) a
    rw [show carried V c (16 * g + 0) (point_in g 0 hg hj) = stepCols V c ⟨16 * g + 0, point_in g 0 hg hj⟩ zeroCols from hfirst]
    refine ⟨?_, ?_, ?_⟩
    · rw [s1, z1, below_block _ 0 hj, show 512 * 0 = 0 from rfl, below_zero]
    · rw [s2, z2, below_block _ 0 hj, show 512 * 0 = 0 from rfl, below_zero]
    · rw [s3, z3]
      have h0 : (0 : EReal) = ind (anyBelow (posOf V c (gIdx g hg a)) (512 * 0)) := (ind_neg (not_anyBelow_zero _)).symm
      refine (congrArg (fun z => max z (ind (∃ b : Fin 512, posOf V c (gIdx g hg a) (gIdx 0 hj b)))) h0).trans ?_
      exact (max_ind _ _).trans (ind_congr (anyBelow_block _ 0 hj).symm)
  | succ j ih =>
    intro hj
    have hj' : j < 16 := by omega
    obtain ⟨i1, i2, i3⟩ := ih hj'
    have hnext := carried_next V c ⟨16 * g + (j + 1), point_in g (j + 1) hg hj⟩ (by show ¬ (16 * g + (j + 1)) % 16 = 0; omega)
    have hprev : carried V c (16 * g + (j + 1) - 1) (Nat.lt_of_le_of_lt (Nat.sub_le _ _) (point_in g (j + 1) hg hj))
        = carried V c (16 * g + j) (point_in g j hg hj') := by
      congr 1
    obtain ⟨s1, s2, s3⟩ := step_at V c ⟨16 * g + (j + 1), point_in g (j + 1) hg hj⟩ g (j + 1) hg hj rfl
      (carried V c (16 * g + j) (point_in g j hg hj')) a
    rw [show carried V c (16 * g + (j + 1)) (point_in g (j + 1) hg hj)
        = stepCols V c ⟨16 * g + (j + 1), point_in g (j + 1) hg hj⟩ (carried V c (16 * g + j) (point_in g j hg hj'))
      from hnext.trans (congrArg (stepCols V c ⟨16 * g + (j + 1), point_in g (j + 1) hg hj⟩) hprev)]
    refine ⟨?_, ?_, ?_⟩
    · rw [s1, i1, below_block _ (j + 1) hj]
    · rw [s2, i2, below_block _ (j + 1) hj]
    · rw [s3, i3]
      exact (max_ind _ _).trans (ind_congr (anyBelow_block _ (j + 1) hj).symm)

/-- AFTER THE LAST TILE of row g the three columns run over all 8192 columns. -/
theorem carried_last (c : Dev nD) (g : ℕ) (hg : g < 16) (a : Fin 512) :
    (carried V c (16 * g + 15) (point_in g 15 hg (by decide))).1 (ix2 a (0 : Fin 1))
        = ∑ col : Fin 8192, posTerm V c (gIdx g hg a) col
    ∧ (carried V c (16 * g + 15) (point_in g 15 hg (by decide))).2.1 (ix2 a (0 : Fin 1))
        = ∑ col : Fin 8192, negTerm V c (gIdx g hg a) col
    ∧ (carried V c (16 * g + 15) (point_in g 15 hg (by decide))).2.2 (ix2 a (0 : Fin 1))
        = ind (∃ col : Fin 8192, posOf V c (gIdx g hg a) col) := by
  obtain ⟨h1, h2, h3⟩ := carried_at V c g hg a 15 (by decide)
  refine ⟨?_, ?_, ?_⟩
  · rw [h1, show 512 * (15 + 1) = 8192 from rfl, below_all]
  · rw [h2, show 512 * (15 + 1) = 8192 from rfl, below_all]
  · rw [h3, show 512 * (15 + 1) = 8192 from rfl]
    exact ind_congr (anyBelow_all _)

end Cert.KernelIdeal.PairRows

end
-- ==== Proof.KernelSpec.lean ====
/- The kernel program's result is the specification's. The pair kernel finds the unit-norm features
   in its first array and the labels and speaker ids, laid out as columns and rows, in the next
   four; so the weight of a pair of global rows is the specification's weight, a positive or a
   negative pair is the specification's, and the three columns finished at the end of a row of
   tiles — sums over all 8192 columns — are the specification's positive mass, negative mass and
   "has a positive partner". With that the reading of the two output arrays and of the closing
   host lines gives the specification's result. -/
import proofs.«134439_j29841432773048_1_alg».proof.Proof.KernelSpecCore
import proofs.«134439_j29841432773048_1_alg».proof.Proof.PairRows

set_option maxRecDepth 16384

noncomputable section

namespace Cert.KernelIdeal.KernelSpec

open Cert.KernelIdeal Cert.KernelIdeal.Gen Cert.KernelIdeal.Whole Cert.KernelIdeal.PairRegion
open Cert.KernelIdeal.PairRows (gIdx weightOf posOf negOf posTerm negTerm posTerm_pos posTerm_neg negTerm_pos negTerm_neg
  ind ind_pos ind_neg carried_last labelCol labelRow speakerCol speakerRow)
open Cert.KernelIdeal.PairOut Cert.KernelIdeal.HostReshapes Cert.KernelIdeal.NormSpec
open Idealize.ShloMosaic Idealize.ShloMosaic.TcCoe
open Idealize.ShloMosaic.ValueIdx
open Idealize.SL.Sem
open scoped BigOperators

variable (m : (ℓ : Loc nD τ sig) → Buf (Elt Ideal) ℓ) (c : Dev nD)

/-- The features the pair kernel finds, at (r, k): entry k of the launched row r scaled to unit length. -/
theorem pairFeatures_at (r : Fin 8192) (k : Fin 256) :
    atPair m c main_v0 (ix2 r k) = Cert.Spec.unitRow (feats m c) r k := by
  show beforePair m c main_v0 (ix2 r k) = _
  rw [beforePair_main_v0]
  exact unitFeatures_at m c r k

/-- The weight of a pair of global rows is the specification's. -/
theorem weightOf_eq (r col : Fin 8192) : weightOf (atPair m) c r col = Cert.Spec.weight (feats m c) r col := by
  unfold weightOf Cert.Spec.weight Cert.Spec.similarity
  refine congrArg (fun s => Ideal.exp (Ideal.div s (Ideal.ofBits .f32 0x3F4CCCCD#32))) ?_
  exact Finset.sum_congr rfl fun k _ => congrArg₂ (· * ·) (pairFeatures_at m c r k) (pairFeatures_at m c col k)

/-- A positive pair of global rows is the specification's. -/
theorem posOf_iff (r col : Fin 8192) :
    posOf (atPair m) c r col ↔ Cert.Spec.positivePair (labels m c) (speakers m c) r col := by
  have e1 : atPair m c main_v1 (ix2 r (0 : Fin 1)) = labels m c (ix1 r) := beforePair_main_v1_at m c r
  have e2 : atPair m c main_v2 (ix2 (0 : Fin 1) col) = labels m c (ix1 col) := beforePair_main_v2_at m c col
  have e3 : atPair m c main_v3 (ix2 r (0 : Fin 1)) = speakers m c (ix1 r) := beforePair_main_v3_at m c r
  have e4 : atPair m c main_v4 (ix2 (0 : Fin 1) col) = speakers m c (ix1 col) := beforePair_main_v4_at m c col
  unfold posOf labelCol labelRow speakerCol speakerRow Cert.Spec.positivePair
  rw [e1, e2, e3, e4]

/-- A negative pair of global rows is the specification's. -/
theorem negOf_iff (r col : Fin 8192) :
    negOf (atPair m) c r col ↔ Cert.Spec.negativePair (labels m c) (speakers m c) r col := by
  have e1 : atPair m c main_v1 (ix2 r (0 : Fin 1)) = labels m c (ix1 r) := beforePair_main_v1_at m c r
  have e2 : atPair m c main_v2 (ix2 (0 : Fin 1) col) = labels m c (ix1 col) := beforePair_main_v2_at m c col
  have e3 : atPair m c main_v3 (ix2 r (0 : Fin 1)) = speakers m c (ix1 r) := beforePair_main_v3_at m c r
  have e4 : atPair m c main_v4 (ix2 (0 : Fin 1) col) = speakers m c (ix1 col) := beforePair_main_v4_at m c col
  unfold negOf labelCol labelRow speakerCol speakerRow Cert.Spec.negativePair
  rw [e1, e2, e3, e4]

/-- THE ROWS' SUMS HOLD: the columns finished at the end of a row of tiles are the specification's
    masses and indicator. -/
theorem rowSums : RowSums m c := fun g hg a h => by
  obtain ⟨h1, h2, h3⟩ := carried_last (atPair m) c g hg a
  refine ⟨h1.trans ?_, h2.trans ?_, h3.trans ?_⟩
  · unfold Cert.Spec.positiveMass
    refine Finset.sum_congr rfl fun col _ => ?_
    by_cases hp : posOf (atPair m) c (gIdx g hg a) col
    · rw [posTerm_pos (atPair m) hp, if_pos ((posOf_iff m c _ col).mp hp), weightOf_eq]
    · rw [posTerm_neg (atPair m) hp, if_neg (fun hq => hp ((posOf_iff m c _ col).mpr hq))]
  · unfold Cert.Spec.negativeMass
    refine Finset.sum_congr rfl fun col _ => ?_
    by_cases hp : negOf (atPair m) c (gIdx g hg a) col
    · rw [negTerm_pos (atPair m) hp, if_pos ((negOf_iff m c _ col).mp hp), weightOf_eq]
    · rw [negTerm_neg (atPair m) hp, if_neg (fun hq => hp ((negOf_iff m c _ col).mpr hq))]
  · by_cases hp : Cert.Spec.hasPositive (labels m c) (speakers m c) (gIdx g hg a)
    · rw [if_pos hp]
      obtain ⟨col, hc⟩ := hp
      exact ind_pos ⟨col, (posOf_iff m c _ col).mpr hc⟩
    · rw [if_neg hp]
      refine ind_neg ?_
      rintro ⟨col, hc⟩
      exact hp (show ∃ col', Cert.Spec.positivePair (labels m c) (speakers m c) (gIdx g hg a) col' from
        ⟨col, (posOf_iff m c _ col).mp hc⟩)

/-- THE KERNEL PROGRAM'S RESULT IS THE SPECIFICATION'S. -/
theorem result_eq (j : S_.Idx) :
    Gen.V5 m (outs m) c main_v11 j
      = Cert.Spec.result (m ((c : Thread nD τ).loc main_arg0)) (m ((c : Thread nD τ).loc main_arg1))
          (m ((c : Thread nD τ).loc main_arg2)) :=
  result_of_rowSums m c (rowSums m c) j

end Cert.KernelIdeal.KernelSpec

end
-- ==== Proof.lean ====
/-
  A contrastive loss over N = 8192 feature rows of width 256, with a label and a speaker id per row: rows are
  scaled to unit norm (the norm clamped below at 1e-12); the similarity of two rows is their inner product; a
  row's positive pairs are the other rows with its label and its speaker, its negative pairs those with its label
  and another speaker; with w = exp(similarity / T), a row that has a positive pair contributes
  −log(Σ_pos w / (Σ_neg w + Σ_pos w + 1e-7)), and the result is the mean contribution over those rows, 0 if there
  are none.

  The kernel program computes this in two tiled kernels — one normalises blocks of 1024 rows, the other visits the
  16 × 16 tiles of the N × N similarity matrix and carries, along each row of tiles, the two sums and the "has a
  positive pair" mark of 512 rows — and closes on the host with the two column sums and the guarded quotient. The
  reference forms the N × N matrix at once. Over the extended reals the two agree: a tile's inner products are
  the matrix's entries, the sum over 16 tiles of 512 columns is the sum over 8192 columns (only commutativity and
  associativity of + are used), and multiplying by the kernel's constant 1/T, which is named the exact reciprocal
  of the word the reference divides by, is dividing by T on every extended real.

  Each program also runs to the end leaving its three arguments as launched: the kernel program as its two
  kernels' segments between the host lines, at the word level and at the extended reals alike; the reference as the
  composition of its host operations.
-/
import proofs.«134439_j29841432773048_1_alg».proof.Defs
import proofs.«134439_j29841432773048_1_alg».proof.Proof.Gen.Kernel
import proofs.«134439_j29841432773048_1_alg».proof.Proof.Gen.KernelIdeal
import proofs.«134439_j29841432773048_1_alg».proof.Proof.Gen.ReferenceIdeal
import proofs.«134439_j29841432773048_1_alg».proof.Proof.Gen.Pre_finite_inputs
import proofs.«134439_j29841432773048_1_alg».proof.Proof.Word.Frames
import proofs.«134439_j29841432773048_1_alg».proof.Proof.WholeRun
import proofs.«134439_j29841432773048_1_alg».proof.Proof.RefValue
import proofs.«134439_j29841432773048_1_alg».proof.Proof.KernelSpec
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel program as printed runs to the end and leaves its arguments alone. -/
theorem frame_kernel : Cert.frame_Kernel := fun m ρ _ => Cert.Kernel.Whole.frame m ρ

/-- So does its reading over the extended reals, -/
theorem frame_kernelIdeal : Cert.frame_KernelIdeal := fun m ρ _ => Cert.KernelIdeal.Whole.frame m ρ

/-- and so does the reference: its run, the result dropped. -/
theorem frame_reference : Cert.frame_ReferenceIdeal := fun m ρ _ =>
  (θ_run Cert.ReferenceIdeal.defs _ _).mono (fun _ h c => (h c).2) (Cert.RefValue.ref_run_spec m ρ)

/-- The one rewrite between the printed kernel and its reading over the extended reals: the constant 1.25 is read
    as 16777216/13421773, the exact reciprocal of the reference's temperature word 13421773/16777216. -/
theorem preserves : Cert.preserves_Kernel_KernelIdeal :=
  IdealRules.named_const.statement Cert.KernelIdeal.κ "inv_temperature" .f32 0x3FA00000#32 ((16777216 / 13421773 : ℝ) : EReal) rfl

/-- Over the extended reals, from memories that agree on the three arguments, both programs end with the same
    number: the loss above, as one function of the arguments. -/
theorem algebraic : Cert.algebraic_KernelIdeal_ReferenceIdeal := by
  intro m ρ m' ρ' _ hagree
  refine ⟨fun c => fun _ => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (funext fun j => Cert.KernelIdeal.KernelSpec.result_eq m c j), (h c).2⟩)
      (Cert.KernelIdeal.Whole.run (F := Ideal) m ρ)
  · exact (θ_run Cert.ReferenceIdeal.defs _ _).mono
      (fun _ h c => ⟨funext fun j => ((h c).1 j).trans (by rw [(hagree c).1, (hagree c).2.1, (hagree c).2.2]), (h c).2⟩)
      (Cert.RefValue.ref_run_spec m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
